-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v82)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v82) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v118) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x40 : Shape := ⟨2, ![64, 40]⟩
abbrev S40 : Shape := ⟨1, ![40]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg12 : FVec F S64 .f32) (main_arg13 : FVec F S64 .f32) (main_arg14 : FVec F S64 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg13
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64 .f32 := Host.absf main_arg14
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_v63 main_v67

def fn_part2 {F : FTy → Type} [FloatOps F] (main_arg8 : FVec F S64x40 .f32) (main_arg9 : FVec F S64x40 .f32) (main_arg10 : FVec F S40 .f32) (main_arg11 : FVec F S64 .f32) (main_arg12 : FVec F S64 .f32) (main_arg13 : FVec F S64 .f32) (main_arg14 : FVec F S64 .f32) (main_v33 : IVec S_ 1) : IVec S_ 1 :=
  let main_v34 : FVec F S64x40 .f32 := Host.absf main_arg8
  let main_cst_12 : FVec F S_ .f32 := constant S_ .f32 0x7F800000#32
  let main_v35 : FVec F S64x40 .f32 := broadcastInDim S64x40 ![] bcast_S_S64x40 main_cst_12
  let main_v36 : IVec S64x40 1 := cmpf .olt main_v34 main_v35
  let main_c_13 : IVec S_ 1 := constantI S_ 1 1#1
  let main_v37 : IVec S_ 1 := (fun x v => Host.reduce IntOp.andi x v reducesTo_S64x40_S_d0_1 h_S_) main_v36 main_c_13
  let main_v38 : IVec S_ 1 := andi main_v33 main_v37
  let main_v39 : FVec F S64x40 .f32 := Host.absf main_arg9
  let main_cst_14 : FVec F S_ .f32 := constant S_ .f32 0x7F800000#32
  let main_v40 : FVec F S64x40 .f32 := broadcastInDim S64x40 ![] bcast_S_S64x40 main_cst_14
  let main_v41 : IVec S64x40 1 := cmpf .olt main_v39 main_v40
  let main_c_15 : IVec S_ 1 := constantI S_ 1 1#1
  let main_v42 : IVec S_ 1 := (fun x v => Host.reduce IntOp.andi x v reducesTo_S64x40_S_d0_1 h_S_) main_v41 main_c_15
  let main_v43 : IVec S_ 1 := andi main_v38 main_v42
  let main_v44 : FVec F S40 .f32 := Host.absf main_arg10
  let main_cst_16 : FVec F S_ .f32 := constant S_ .f32 0x7F800000#32
  let main_v45 : FVec F S40 .f32 := broadcastInDim S40 ![] bcast_S_S40 main_cst_16
  let main_v46 : IVec S40 1 := cmpf .olt main_v44 main_v45
  let main_c_17 : IVec S_ 1 := constantI S_ 1 1#1
  let main_v47 : IVec S_ 1 := (fun x v => Host.reduce IntOp.andi x v reducesTo_S40_S_d0 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_arg12 main_arg13 main_arg14 main_v48 main_v49 main_v50

def fn_part1 {F : FTy → Type} [FloatOps F] (main_arg5 : FVec F S64x64 .f32) (main_arg6 : FVec F S64x64 .f32) (main_arg7 : FVec F S64 .f32) (main_arg8 : FVec F S64x40 .f32) (main_arg9 : FVec F S64x40 .f32) (main_arg10 : FVec F S40 .f32) (main_arg11 : FVec F S64 .f32) (main_arg12 : FVec F S64 .f32) (main_arg13 : FVec F S64 .f32) (main_arg14 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : FVec F S100000x64 .f32) (main_arg1 : IVec S2x1600000 32) (main_arg2 : FVec F S64x64 .f32) (main_arg3 : FVec F S64x64 .f32) (main_arg4 : FVec F S64 .f32) (main_arg5 : FVec F S64x64 .f32) (main_arg6 : FVec F S64x64 .f32) (main_arg7 : FVec F S64 .f32) (main_arg8 : FVec F S64x40 .f32) (main_arg9 : FVec F S64x40 .f32) (main_arg10 : FVec F S40 .f32) (main_arg11 : FVec F S64 .f32) (main_arg12 : FVec F S64 .f32) (main_arg13 : FVec F S64 .f32) (main_arg14 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_arg11 main_arg12 main_arg13 main_arg14 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x40 : Shape := ⟨2, ![64, 40]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S1x64 : Shape := ⟨2, ![1, 64]⟩
abbrev S5000x64 : Shape := ⟨2, ![5000, 64]⟩
abbrev S1x40 : Shape := ⟨2, ![1, 40]⟩
abbrev S100000x40 : Shape := ⟨2, ![100000, 40]⟩
abbrev S5000x40 : Shape := ⟨2, ![5000, 40]⟩

abbrev nBuf : Space → Nat
  | .hbm => 166
  | .vmem => 43
  | .smem => 0
  | _ => 0

abbrev hbmTy0_0 (i : Nat) : BufTy := match i % 128 with
  | 0 => ⟨S100000x64, .f32⟩
  | 1 => ⟨S2x1600000, .i32⟩
  | 2 => ⟨S64x64, .f32⟩
  | 3 => ⟨S64x64, .f32⟩
  | 4 => ⟨S64, .f32⟩
  | 5 => ⟨S64x64, .f32⟩
  | 6 => ⟨S64x64, .f32⟩
  | 7 => ⟨S64, .f32⟩
  | 8 => ⟨S64x40, .f32⟩
  | 9 => ⟨S64x40, .f32⟩
  | 10 => ⟨S40, .f32⟩
  | 11 => ⟨S64, .f32⟩
  | 12 => ⟨S64, .f32⟩
  | 13 => ⟨S64, .f32⟩
  | 14 => ⟨S64, .f32⟩
  | 15 => ⟨S1x1600000, .i32⟩
  | 16 => ⟨S1600000, .i32⟩
  | 17 => ⟨S1x1600000, .i32⟩
  | 18 => ⟨S1600000, .i32⟩
  | 19 => ⟨S_, .i32⟩
  | 20 => ⟨S1600000, .i32⟩
  | 21 => ⟨S1600000, .i1⟩
  | 22 => ⟨S_, .i32⟩
  | 23 => ⟨S1600000, .i32⟩
  | 24 => ⟨S1600000, .i32⟩
  | 25 => ⟨S1600000, .i32⟩
  | 26 => ⟨S1600000x1, .i32⟩
  | 27 => ⟨S1600000x64, .f32⟩
  | 28 => ⟨S_, .f32⟩
  | 29 => ⟨S100000x64, .f32⟩
  | 30 => ⟨S1600000x1, .i32⟩
  | 31 => ⟨S100000x64, .f32⟩
  | 32 => ⟨S_, .f32⟩
  | 33 => ⟨S1600000, .f32⟩
  | 34 => ⟨S_, .f32⟩
  | 35 => ⟨S100000, .f32⟩
  | 36 => ⟨S1600000x1, .i32⟩
  | 37 => ⟨S100000, .f32⟩
  | 38 => ⟨S_, .f32⟩
  | 39 => ⟨S100000, .f32⟩
  | 40 => ⟨S100000, .f32⟩
  | 41 => ⟨S100000x1, .f32⟩
  | 42 => ⟨S100000x64, .f32⟩
  | 43 => ⟨S100000x64, .f32⟩
  | 44 => ⟨S1x64, .f32⟩
  | 45 => ⟨S100000x64, .f32⟩
  | 46 => ⟨S_, .f32⟩
  | 47 => ⟨S64, .f32⟩
  | 48 => ⟨S1x64, .f32⟩
  | 49 => ⟨S_, .f32⟩
  | 50 => ⟨S1x64, .f32⟩
  | 51 => ⟨S1x64, .f32⟩
  | 52 => ⟨S_, .i32⟩
  | 53 => ⟨S_, .f32⟩
  | 54 => ⟨S64, .f32⟩
  | 55 => ⟨S1x64, .f32⟩
  | 56 => ⟨S_, .f32⟩
  | 57 => ⟨S1x64, .f32⟩
  | 58 => ⟨S1x64, .f32⟩
  | 59 => ⟨S100000x64, .f32⟩
  | 60 => ⟨S100000x64, .f32⟩
  | 61 => ⟨S100000x64, .f32⟩
  | 62 => ⟨S_, .f32⟩
  | 63 => ⟨S_, .f32⟩
  | 64 => ⟨S_, .f32⟩
  | 65 => ⟨S_, .f32⟩
  | 66 => ⟨S64, .f32⟩
  | 67 => ⟨S1x64, .f32⟩
  | 68 => ⟨S1x64, .f32⟩
  | 69 => ⟨S1x64, .f32⟩
  | 70 => ⟨S_, .f32⟩
  | 71 => ⟨S_, .i1⟩
  | 72 => ⟨S_, .f32⟩
  | 73 => ⟨S_, .f32⟩
  | 74 => ⟨S1x64, .f32⟩
  | 75 => ⟨S1x64, .f32⟩
  | 76 => ⟨S1x64, .f32⟩
  | 77 => ⟨S1x64, .f32⟩
  | 78 => ⟨S100000x64, .f32⟩
  | 79 => ⟨S_, .i32⟩
  | 80 => ⟨S1600000, .i32⟩
  | 81 => ⟨S1600000, .i1⟩
  | 82 => ⟨S_, .i32⟩
  | 83 => ⟨S1600000, .i32⟩
  | 84 => ⟨S1600000, .i32⟩
  | 85 => ⟨S1600000, .i32⟩
  | 86 => ⟨S1600000x1, .i32⟩
  | 87 => ⟨S1600000x64, .f32⟩
  | 88 => ⟨S_, .f32⟩
  | 89 => ⟨S100000x64, .f32⟩
  | 90 => ⟨S1600000x1, .i32⟩
  | 91 => ⟨S100000x64, .f32⟩
  | 92 => ⟨S_, .f32⟩
  | 93 => ⟨S1600000, .f32⟩
  | 94 => ⟨S_, .f32⟩
  | 95 => ⟨S100000, .f32⟩
  | 96 => ⟨S1600000x1, .i32⟩
  | 97 => ⟨S100000, .f32⟩
  | 98 => ⟨S_, .f32⟩
  | 99 => ⟨S100000, .f32⟩
  | 100 => ⟨S100000, .f32⟩
  | 101 => ⟨S100000x1, .f32⟩
  | 102 => ⟨S100000x64, .f32⟩
  | 103 => ⟨S100000x64, .f32⟩
  | 104 => ⟨S1x64, .f32⟩
  | 105 => ⟨S100000x64, .f32⟩
  | 106 => ⟨S_, .f32⟩
  | 107 => ⟨S64, .f32⟩
  | 108 => ⟨S1x64, .f32⟩
  | 109 => ⟨S_, .f32⟩
  | 110 => ⟨S1x64, .f32⟩
  | 111 => ⟨S1x64, .f32⟩
  | 112 => ⟨S_, .i32⟩
  | 113 => ⟨S_, .f32⟩
  | 114 => ⟨S64, .f32⟩
  | 115 => ⟨S1x64, .f32⟩
  | 116 => ⟨S_, .f32⟩
  | 117 => ⟨S1x64, .f32⟩
  | 118 => ⟨S1x64, .f32⟩
  | 119 => ⟨S100000x64, .f32⟩
  | 120 => ⟨S100000x64, .f32⟩
  | 121 => ⟨S100000x64, .f32⟩
  | 122 => ⟨S_, .f32⟩
  | 123 => ⟨S_, .f32⟩
  | 124 => ⟨S_, .f32⟩
  | 125 => ⟨S_, .f32⟩
  | 126 => ⟨S64, .f32⟩
  | 127 => ⟨S1x64, .f32⟩
  | _ => ⟨S100000x64, .f32⟩

abbrev hbmTy0_1 (i : Nat) : BufTy := match i % 128 with
  | 0 => ⟨S1x64, .f32⟩
  | 1 => ⟨S1x64, .f32⟩
  | 2 => ⟨S_, .f32⟩
  | 3 => ⟨S_, .i1⟩
  | 4 => ⟨S_, .f32⟩
  | 5 => ⟨S_, .f32⟩
  | 6 => ⟨S1x64, .f32⟩
  | 7 => ⟨S1x64, .f32⟩
  | 8 => ⟨S1x64, .f32⟩
  | 9 => ⟨S1x64, .f32⟩
  | 10 => ⟨S100000x64, .f32⟩
  | 11 => ⟨S_, .i32⟩
  | 12 => ⟨S1600000, .i32⟩
  | 13 => ⟨S1600000, .i1⟩
  | 14 => ⟨S_, .i32⟩
  | 15 => ⟨S1600000, .i32⟩
  | 16 => ⟨S1600000, .i32⟩
  | 17 => ⟨S1600000, .i32⟩
  | 18 => ⟨S1600000x1, .i32⟩
  | 19 => ⟨S1600000x64, .f32⟩
  | 20 => ⟨S_, .f32⟩
  | 21 => ⟨S100000x64, .f32⟩
  | 22 => ⟨S1600000x1, .i32⟩
  | 23 => ⟨S100000x64, .f32⟩
  | 24 => ⟨S_, .f32⟩
  | 25 => ⟨S1600000, .f32⟩
  | 26 => ⟨S_, .f32⟩
  | 27 => ⟨S100000, .f32⟩
  | 28 => ⟨S1600000x1, .i32⟩
  | 29 => ⟨S100000, .f32⟩
  | 30 => ⟨S_, .f32⟩
  | 31 => ⟨S100000, .f32⟩
  | 32 => ⟨S100000, .f32⟩
  | 33 => ⟨S100000x1, .f32⟩
  | 34 => ⟨S100000x64, .f32⟩
  | 35 => ⟨S100000x64, .f32⟩
  | 36 => ⟨S1x40, .f32⟩
  | 37 => ⟨S100000x40, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S64x64, .f32⟩
  | .local _ .vmem, ⟨6, _⟩ => ⟨S1x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S1x64, .f32⟩
  | .local _ .vmem, ⟨12, _⟩ => ⟨S1x64, .f32⟩
  | .local _ .vmem, ⟨13, _⟩ => ⟨S1x64, .f32⟩
  | .local _ .vmem, ⟨14, _⟩ => ⟨S1x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S64x64, .f32⟩
  | .local _ .vmem, ⟨22, _⟩ => ⟨S64x64, .f32⟩
  | .local _ .vmem, ⟨23, _⟩ => ⟨S1x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S1x64, .f32⟩
  | .local _ .vmem, ⟨29, _⟩ => ⟨S1x64, .f32⟩
  | .local _ .vmem, ⟨30, _⟩ => ⟨S1x64, .f32⟩
  | .local _ .vmem, ⟨31, _⟩ => ⟨S1x64, .f32⟩
  | .local _ .vmem, ⟨32, _⟩ => ⟨S5000x64, .f32⟩
  | .local _ .vmem, ⟨33, _⟩ => ⟨S5000x64, .f32⟩
  | .local _ .vmem, ⟨34, _⟩ => ⟨S5000x64, .f32⟩
  | .local _ .vmem, ⟨35, _⟩ => ⟨S5000x64, .f32⟩
  | .local _ .vmem, ⟨36, _⟩ => ⟨S5000x64, .f32⟩
  | .local _ .vmem, ⟨37, _⟩ => ⟨S5000x64, .f32⟩
  | .local _ .vmem, ⟨38, _⟩ => ⟨S64x40, .f32⟩
  | .local _ .vmem, ⟨39, _⟩ => ⟨S64x40, .f32⟩
  | .local _ .vmem, ⟨40, _⟩ => ⟨S1x40, .f32⟩
  | .local _ .vmem, ⟨41, _⟩ => ⟨S5000x40, .f32⟩
  | .local _ .vmem, ⟨42, _⟩ => ⟨S5000x40, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_1 : Ref sig .tc := ⟨.hbm, 32, rfl⟩
abbrev main_v14 : Ref sig .tc := ⟨.hbm, 33, rfl⟩
abbrev main_cst_2 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_3 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_4 : Ref sig .tc := ⟨.hbm, 46, rfl⟩
abbrev main_v25 : Ref sig .tc := ⟨.hbm, 47, rfl⟩
abbrev main_v26 : Ref sig .tc := ⟨.hbm, 48, rfl⟩
abbrev main_cst_5 : Ref sig .tc := ⟨.hbm, 49, rfl⟩
abbrev main_v27 : Ref sig .tc := ⟨.hbm, 50, rfl⟩
abbrev main_v28 : Ref sig .tc := ⟨.hbm, 51, rfl⟩
abbrev main_c_6 : Ref sig .tc := ⟨.hbm, 52, rfl⟩
abbrev main_call0_cst : Ref sig .tc := ⟨.hbm, 53, rfl⟩
abbrev main_call0_v0 : Ref sig .tc := ⟨.hbm, 54, rfl⟩
abbrev main_call0_v1 : Ref sig .tc := ⟨.hbm, 55, rfl⟩
abbrev main_call0_cst_0 : Ref sig .tc := ⟨.hbm, 56, rfl⟩
abbrev main_call0_v2 : Ref sig .tc := ⟨.hbm, 57, rfl⟩
abbrev main_call0_v3 : Ref sig .tc := ⟨.hbm, 58, rfl⟩
abbrev main_call0_v4 : Ref sig .tc := ⟨.hbm, 59, rfl⟩
abbrev main_call0_v5 : Ref sig .tc := ⟨.hbm, 60, rfl⟩
abbrev main_call0_v6 : Ref sig .tc := ⟨.hbm, 61, rfl⟩
abbrev main_call0_v7 : Ref sig .tc := ⟨.hbm, 62, rfl⟩
abbrev main_call0_cst_1 : Ref sig .tc := ⟨.hbm, 63, rfl⟩
abbrev main_call0_v8 : Ref sig .tc := ⟨.hbm, 64, rfl⟩
abbrev main_call0_cst_2 : Ref sig .tc := ⟨.hbm, 65, rfl⟩
abbrev main_call0_v9 : Ref sig .tc := ⟨.hbm, 66, rfl⟩
abbrev main_call0_v10 : Ref sig .tc := ⟨.hbm, 67, rfl⟩
abbrev main_call0_v11 : Ref sig .tc := ⟨.hbm, 68, rfl⟩
abbrev main_call0_v12 : Ref sig .tc := ⟨.hbm, 69, rfl⟩
abbrev main_call0_cst_3 : Ref sig .tc := ⟨.hbm, 70, rfl⟩
abbrev main_call0_v13 : Ref sig .tc := ⟨.hbm, 71, rfl⟩
abbrev main_call0_cst_4 : Ref sig .tc := ⟨.hbm, 72, rfl⟩
abbrev main_call0_call0_v0 : Ref sig .tc := ⟨.hbm, 73, rfl⟩
abbrev main_call0_call0_v1 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_c_7 : Ref sig .tc := ⟨.hbm, 79, rfl⟩
abbrev main_v33 : Ref sig .tc := ⟨.hbm, 80, rfl⟩
abbrev main_v34 : Ref sig .tc := ⟨.hbm, 81, rfl⟩
abbrev main_c_8 : Ref sig .tc := ⟨.hbm, 82, rfl⟩
abbrev main_v35 : Ref sig .tc := ⟨.hbm, 83, rfl⟩
abbrev main_v36 : Ref sig .tc := ⟨.hbm, 84, rfl⟩
abbrev main_v37 : Ref sig .tc := ⟨.hbm, 85, rfl⟩
abbrev main_v38 : Ref sig .tc := ⟨.hbm, 86, rfl⟩
abbrev main_v39 : Ref sig .tc := ⟨.hbm, 87, rfl⟩
abbrev main_cst_9 : Ref sig .tc := ⟨.hbm, 88, rfl⟩
abbrev main_v40 : Ref sig .tc := ⟨.hbm, 89, rfl⟩
abbrev main_v41 : Ref sig .tc := ⟨.hbm, 90, rfl⟩
abbrev main_v42 : Ref sig .tc := ⟨.hbm, 91, rfl⟩
abbrev main_cst_10 : Ref sig .tc := ⟨.hbm, 92, rfl⟩
abbrev main_v43 : Ref sig .tc := ⟨.hbm, 93, rfl⟩
abbrev main_cst_11 : Ref sig .tc := ⟨.hbm, 94, rfl⟩
abbrev main_v44 : Ref sig .tc := ⟨.hbm, 95, rfl⟩
abbrev main_v45 : Ref sig .tc := ⟨.hbm, 96, rfl⟩
abbrev main_v46 : Ref sig .tc := ⟨.hbm, 97, rfl⟩
abbrev main_cst_12 : Ref sig .tc := ⟨.hbm, 98, rfl⟩
abbrev main_v47 : Ref sig .tc := ⟨.hbm, 99, rfl⟩
abbrev main_v48 : Ref sig .tc := ⟨.hbm, 100, rfl⟩
abbrev main_v49 : Ref sig .tc := ⟨.hbm, 101, rfl⟩
abbrev main_v50 : Ref sig .tc := ⟨.hbm, 102, rfl⟩
abbrev main_v51 : Ref sig .tc := ⟨.hbm, 103, rfl⟩
abbrev main_v52 : Ref sig .tc := ⟨.hbm, 104, rfl⟩
abbrev main_v53 : Ref sig .tc := ⟨.hbm, 105, rfl⟩
abbrev main_cst_13 : Ref sig .tc := ⟨.hbm, 106, rfl⟩
abbrev main_v54 : Ref sig .tc := ⟨.hbm, 107, rfl⟩
abbrev main_v55 : Ref sig .tc := ⟨.hbm, 108, rfl⟩
abbrev main_cst_14 : Ref sig .tc := ⟨.hbm, 109, rfl⟩
abbrev main_v56 : Ref sig .tc := ⟨.hbm, 110, rfl⟩
abbrev main_v57 : Ref sig .tc := ⟨.hbm, 111, rfl⟩
abbrev main_c_15 : Ref sig .tc := ⟨.hbm, 112, rfl⟩
abbrev main_call1_cst : Ref sig .tc := ⟨.hbm, 113, rfl⟩
abbrev main_call1_v0 : Ref sig .tc := ⟨.hbm, 114, rfl⟩
abbrev main_call1_v1 : Ref sig .tc := ⟨.hbm, 115, rfl⟩
abbrev main_call1_cst_0 : Ref sig .tc := ⟨.hbm, 116, rfl⟩
abbrev main_call1_v2 : Ref sig .tc := ⟨.hbm, 117, rfl⟩
abbrev main_call1_v3 : Ref sig .tc := ⟨.hbm, 118, rfl⟩
abbrev main_call1_v4 : Ref sig .tc := ⟨.hbm, 119, rfl⟩
abbrev main_call1_v5 : Ref sig .tc := ⟨.hbm, 120, rfl⟩
abbrev main_call1_v6 : Ref sig .tc := ⟨.hbm, 121, rfl⟩
abbrev main_call1_v7 : Ref sig .tc := ⟨.hbm, 122, rfl⟩
abbrev main_call1_cst_1 : Ref sig .tc := ⟨.hbm, 123, rfl⟩
abbrev main_call1_v8 : Ref sig .tc := ⟨.hbm, 124, rfl⟩
abbrev main_call1_cst_2 : Ref sig .tc := ⟨.hbm, 125, rfl⟩
abbrev main_call1_v9 : Ref sig .tc := ⟨.hbm, 126, rfl⟩
abbrev main_call1_v10 : Ref sig .tc := ⟨.hbm, 127, rfl⟩
abbrev main_call1_v11 : Ref sig .tc := ⟨.hbm, 128, rfl⟩
abbrev main_call1_v12 : Ref sig .tc := ⟨.hbm, 129, rfl⟩
abbrev main_call1_cst_3 : Ref sig .tc := ⟨.hbm, 130, rfl⟩
abbrev main_call1_v13 : Ref sig .tc := ⟨.hbm, 131, rfl⟩
abbrev main_call1_cst_4 : Ref sig .tc := ⟨.hbm, 132, rfl⟩
abbrev main_call1_call0_v0 : Ref sig .tc := ⟨.hbm, 133, rfl⟩
abbrev main_call1_call0_v1 : Ref sig .tc := ⟨.hbm, 134, rfl⟩
abbrev main_v58 : Ref sig .tc := ⟨.hbm, 135, rfl⟩
abbrev main_v59 : Ref sig .tc := ⟨.hbm, 136, rfl⟩
abbrev main_v60 : Ref sig .tc := ⟨.hbm, 137, rfl⟩
abbrev main_v61 : Ref sig .tc := ⟨.hbm, 138, rfl⟩
abbrev main_c_16 : Ref sig .tc := ⟨.hbm, 139, rfl⟩
abbrev main_v62 : Ref sig .tc := ⟨.hbm, 140, rfl⟩
abbrev main_v63 : Ref sig .tc := ⟨.hbm, 141, rfl⟩
abbrev main_c_17 : Ref sig .tc := ⟨.hbm, 142, rfl⟩
abbrev main_v64 : Ref sig .tc := ⟨.hbm, 143, rfl⟩
abbrev main_v65 : Ref sig .tc := ⟨.hbm, 144, rfl⟩
abbrev main_v66 : Ref sig .tc := ⟨.hbm, 145, rfl⟩
abbrev main_v67 : Ref sig .tc := ⟨.hbm, 146, rfl⟩
abbrev main_v68 : Ref sig .tc := ⟨.hbm, 147, rfl⟩
abbrev main_cst_18 : Ref sig .tc := ⟨.hbm, 148, rfl⟩
abbrev main_v69 : Ref sig .tc := ⟨.hbm, 149, rfl⟩
abbrev main_v70 : Ref sig .tc := ⟨.hbm, 150, rfl⟩
abbrev main_v71 : Ref sig .tc := ⟨.hbm, 151, rfl⟩
abbrev main_cst_19 : Ref sig .tc := ⟨.hbm, 152, rfl⟩
abbrev main_v72 : Ref sig .tc := ⟨.hbm, 153, rfl⟩
abbrev main_cst_20 : Ref sig .tc := ⟨.hbm, 154, rfl⟩
abbrev main_v73 : Ref sig .tc := ⟨.hbm, 155, rfl⟩
abbrev main_v74 : Ref sig .tc := ⟨.hbm, 156, rfl⟩
abbrev main_v75 : Ref sig .tc := ⟨.hbm, 157, rfl⟩
abbrev main_cst_21 : Ref sig .tc := ⟨.hbm, 158, rfl⟩
abbrev main_v76 : Ref sig .tc := ⟨.hbm, 159, rfl⟩
abbrev main_v77 : Ref sig .tc := ⟨.hbm, 160, rfl⟩
abbrev main_v78 : Ref sig .tc := ⟨.hbm, 161, rfl⟩
abbrev main_v79 : Ref sig .tc := ⟨.hbm, 162, rfl⟩
abbrev main_v80 : Ref sig .tc := ⟨.hbm, 163, rfl⟩
abbrev main_v81 : Ref sig .tc := ⟨.hbm, 164, rfl⟩
abbrev main_v82 : Ref sig .tc := ⟨.hbm, 165, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg2_0 : Ref sig .tc := ⟨.vmem, 29, rfl⟩
abbrev cc3_stg3_0 : Ref sig .tc := ⟨.vmem, 30, rfl⟩
abbrev cc3_stg4_0 : Ref sig .tc := ⟨.vmem, 31, rfl⟩
abbrev cc3_stg5_0 : Ref sig .tc := ⟨.vmem, 32, rfl⟩
abbrev cc3_stg5_1 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg1_1 : Ref sig .tc := ⟨.vmem, 37, rfl⟩
abbrev cc4_stg2_0 : Ref sig .tc := ⟨.vmem, 38, rfl⟩
abbrev cc4_stg3_0 : Ref sig .tc := ⟨.vmem, 39, rfl⟩
abbrev cc4_stg4_0 : Ref sig .tc := ⟨.vmem, 40, rfl⟩
abbrev cc4_stg5_0 : Ref sig .tc := ⟨.vmem, 41, rfl⟩
abbrev cc4_stg5_1 : Ref sig .tc := ⟨.vmem, 42, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem5_1 : DmaSem sig := 25
abbrev cc3_sem0_0 : DmaSem sig := 26
abbrev cc3_sem0_1 : DmaSem sig := 27
abbrev cc3_sem1_0 : DmaSem sig := 28
abbrev cc3_sem2_0 : DmaSem sig := 29
abbrev cc3_sem3_0 : DmaSem sig := 30
abbrev cc3_sem4_0 : DmaSem sig := 31
abbrev cc3_sem5_0 : DmaSem sig := 32
abbrev cc3_sem5_1 : DmaSem sig := 33
abbrev cc4_sem0_0 : DmaSem sig := 34
abbrev cc4_sem0_1 : DmaSem sig := 35
abbrev cc4_sem1_0 : DmaSem sig := 36
abbrev cc4_sem1_1 : DmaSem sig := 37
abbrev cc4_sem2_0 : DmaSem sig := 38
abbrev cc4_sem3_0 : DmaSem sig := 39
abbrev cc4_sem4_0 : DmaSem sig := 40
abbrev cc4_sem5_0 : DmaSem sig := 41
abbrev cc4_sem5_1 : DmaSem sig := 42

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x40 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64x40 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x40 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x40 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  reducesTo_S100000x64_S64_d0 : S100000x64.ReducesTo [0] S64
  h_S_ : 0 < S_.numel
  bcast_S64_S1x64_1 : S64.BroadcastsInDim S1x64 (![1] : Fin 1 → Fin S1x64.rank)
  bcast_S_S1x64 : S_.BroadcastsInDim S1x64 (![] : Fin 0 → Fin S1x64.rank)
  bcast_S1x64_S100000x64_0_1 : S1x64.BroadcastsInDim S100000x64 (![0, 1] : Fin 2 → Fin S100000x64.rank)
  shapeCasts_S40_S1x40 : S40.ShapeCasts S1x40
  inb_S64x40_S64x40_0_0 : ∀ a, (![0, 0] : Fin 2 → Nat) a + S64x40.size a ≤ S64x40.size a
  h_S64x40 : 0 < S64x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  inb_S5000x40_S5000x40_0_0 : ∀ a, (![0, 0] : Fin 2 → Nat) a + S5000x40.size a ≤ S5000x40.size a
  h_S5000x40 : 0 < S5000x40.numel
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S5000x64_S64x64_S5000x64_1_0_0_1_n_n_wf : DotDims.WF S5000x64 S64x64 S5000x64 [1] [0] [0] [1] [] []
  dot_S5000x64_S64x40_S5000x40_1_0_0_1_n_n_wf : DotDims.WF S5000x64 S64x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S100000x64.size a
  hwx2_5 : ∀ i : grid2.Coords, EltTy.bits .f32 = 32 ∨ (Rect.block (s := S100000x64) S5000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x64.size a ≤ S100000x64.size a
  hwx3_5 : ∀ i : grid3.Coords, EltTy.bits .f32 = 32 ∨ (Rect.block (s := S100000x64) S5000x64.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x64.size a ≤ S100000x64.size a
  hwx4_1 : ∀ i : grid4.Coords, EltTy.bits .f32 = 32 ∨ (Rect.block (s := S100000x64) S5000x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x40.size a ≤ S64x40.size a
  hwx4_2 : ∀ i : grid4.Coords, EltTy.bits .f32 = 32 ∨ (Rect.block (s := S64x40) S64x40.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x40.size a ≤ S64x40.size a
  hwx4_3 : ∀ i : grid4.Coords, EltTy.bits .f32 = 32 ∨ (Rect.block (s := S64x40) S64x40.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x40.size a ≤ S1x40.size a
  hwx4_4 : ∀ i : grid4.Coords, EltTy.bits .f32 = 32 ∨ (Rect.block (s := S1x40) S1x40.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x40.size a ≤ S100000x40.size a
  hwx4_5 : ∀ i : grid4.Coords, EltTy.bits .f32 = 32 ∨ (Rect.block (s := S100000x40) S5000x40.size (cc4_transform_5 i) (hinb4_5 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x40_S5000x40_1_0_0_1_n_n : DotDims S5000x64 S64x40 S5000x40 where
  lhsContracting := [1]
  rhsContracting := [0]
  lhsNonContracting := [0]
  rhsNonContracting := [1]
  lhsBatch := []
  rhsBatch := []
  wf := dot_S5000x64_S64x40_S5000x40_1_0_0_1_n_n_wf

abbrev win0_0 : Pipeline.Window sig grid0 :=
  Pipeline.Window.ofSpec (Memref.whole main_v22) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v24) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v29) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v30) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v31) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v32) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v51) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v32) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg6) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v52) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v53) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v53) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v57) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v58) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v59) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v60) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v61) S5000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v80) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v61) S5000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg8) S64x40.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg9) S64x40.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v81) S1x40.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v82) S5000x40.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x40 : Shape := ⟨2, ![64, 40]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S1x64 : Shape := ⟨2, ![1, 64]⟩
abbrev S100000x40 : Shape := ⟨2, ![100000, 40]⟩
abbrev S1x40 : Shape := ⟨2, ![1, 40]⟩

abbrev nBuf : Space → Nat
  | .hbm => 206
  | .vmem => 0
  | .smem => 0
  | _ => 0

abbrev hbmTy0_0 (i : Nat) : BufTy := match i % 128 with
  | 0 => ⟨S100000x64, .f32⟩
  | 1 => ⟨S2x1600000, .i32⟩
  | 2 => ⟨S64x64, .f32⟩
  | 3 => ⟨S64x64, .f32⟩
  | 4 => ⟨S64, .f32⟩
  | 5 => ⟨S64x64, .f32⟩
  | 6 => ⟨S64x64, .f32⟩
  | 7 => ⟨S64, .f32⟩
  | 8 => ⟨S64x40, .f32⟩
  | 9 => ⟨S64x40, .f32⟩
  | 10 => ⟨S40, .f32⟩
  | 11 => ⟨S64, .f32⟩
  | 12 => ⟨S64, .f32⟩
  | 13 => ⟨S64, .f32⟩
  | 14 => ⟨S64, .f32⟩
  | 15 => ⟨S1x1600000, .i32⟩
  | 16 => ⟨S1600000, .i32⟩
  | 17 => ⟨S1x1600000, .i32⟩
  | 18 => ⟨S1600000, .i32⟩
  | 19 => ⟨S_, .i32⟩
  | 20 => ⟨S1600000, .i32⟩
  | 21 => ⟨S1600000, .i1⟩
  | 22 => ⟨S_, .i32⟩
  | 23 => ⟨S1600000, .i32⟩
  | 24 => ⟨S1600000, .i32⟩
  | 25 => ⟨S1600000, .i32⟩
  | 26 => ⟨S1600000x1, .i32⟩
  | 27 => ⟨S1600000x64, .f32⟩
  | 28 => ⟨S_, .f32⟩
  | 29 => ⟨S100000x64, .f32⟩
  | 30 => ⟨S1600000x1, .i32⟩
  | 31 => ⟨S100000x64, .f32⟩
  | 32 => ⟨S_, .f32⟩
  | 33 => ⟨S1600000, .f32⟩
  | 34 => ⟨S_, .f32⟩
  | 35 => ⟨S100000, .f32⟩
  | 36 => ⟨S1600000x1, .i32⟩
  | 37 => ⟨S100000, .f32⟩
  | 38 => ⟨S_, .f32⟩
  | 39 => ⟨S100000, .f32⟩
  | 40 => ⟨S100000, .f32⟩
  | 41 => ⟨S100000x1, .f32⟩
  | 42 => ⟨S100000x64, .f32⟩
  | 43 => ⟨S100000x64, .f32⟩
  | 44 => ⟨S100000x64, .f32⟩
  | 45 => ⟨S100000x64, .f32⟩
  | 46 => ⟨S100000x64, .f32⟩
  | 47 => ⟨S1x64, .f32⟩
  | 48 => ⟨S100000x64, .f32⟩
  | 49 => ⟨S100000x64, .f32⟩
  | 50 => ⟨S_, .f32⟩
  | 51 => ⟨S64, .f32⟩
  | 52 => ⟨S_, .f32⟩
  | 53 => ⟨S64, .f32⟩
  | 54 => ⟨S64, .f32⟩
  | 55 => ⟨S_, .i32⟩
  | 56 => ⟨S_, .f32⟩
  | 57 => ⟨S64, .f32⟩
  | 58 => ⟨S1x64, .f32⟩
  | 59 => ⟨S_, .f32⟩
  | 60 => ⟨S1x64, .f32⟩
  | 61 => ⟨S1x64, .f32⟩
  | 62 => ⟨S100000x64, .f32⟩
  | 63 => ⟨S100000x64, .f32⟩
  | 64 => ⟨S100000x64, .f32⟩
  | 65 => ⟨S_, .f32⟩
  | 66 => ⟨S_, .f32⟩
  | 67 => ⟨S_, .f32⟩
  | 68 => ⟨S_, .f32⟩
  | 69 => ⟨S64, .f32⟩
  | 70 => ⟨S64, .f32⟩
  | 71 => ⟨S64, .f32⟩
  | 72 => ⟨S_, .f32⟩
  | 73 => ⟨S_, .i1⟩
  | 74 => ⟨S_, .f32⟩
  | 75 => ⟨S_, .f32⟩
  | 76 => ⟨S64, .f32⟩
  | 77 => ⟨S64, .f32⟩
  | 78 => ⟨S1x64, .f32⟩
  | 79 => ⟨S100000x64, .f32⟩
  | 80 => ⟨S100000x64, .f32⟩
  | 81 => ⟨S_, .f32⟩
  | 82 => ⟨S64, .f32⟩
  | 83 => ⟨S64, .f32⟩
  | 84 => ⟨S64, .f32⟩
  | 85 => ⟨S1x64, .f32⟩
  | 86 => ⟨S100000x64, .f32⟩
  | 87 => ⟨S100000x64, .f32⟩
  | 88 => ⟨S1x64, .f32⟩
  | 89 => ⟨S100000x64, .f32⟩
  | 90 => ⟨S100000x64, .f32⟩
  | 91 => ⟨S1x64, .f32⟩
  | 92 => ⟨S100000x64, .f32⟩
  | 93 => ⟨S100000x64, .f32⟩
  | 94 => ⟨S_, .f32⟩
  | 95 => ⟨S100000x64, .f32⟩
  | 96 => ⟨S100000x64, .f32⟩
  | 97 => ⟨S_, .i32⟩
  | 98 => ⟨S1600000, .i32⟩
  | 99 => ⟨S1600000, .i1⟩
  | 100 => ⟨S_, .i32⟩
  | 101 => ⟨S1600000, .i32⟩
  | 102 => ⟨S1600000, .i32⟩
  | 103 => ⟨S1600000, .i32⟩
  | 104 => ⟨S1600000x1, .i32⟩
  | 105 => ⟨S1600000x64, .f32⟩
  | 106 => ⟨S_, .f32⟩
  | 107 => ⟨S100000x64, .f32⟩
  | 108 => ⟨S1600000x1, .i32⟩
  | 109 => ⟨S100000x64, .f32⟩
  | 110 => ⟨S_, .f32⟩
  | 111 => ⟨S1600000, .f32⟩
  | 112 => ⟨S_, .f32⟩
  | 113 => ⟨S100000, .f32⟩
  | 114 => ⟨S1600000x1, .i32⟩
  | 115 => ⟨S100000, .f32⟩
  | 116 => ⟨S_, .f32⟩
  | 117 => ⟨S100000, .f32⟩
  | 118 => ⟨S100000, .f32⟩
  | 119 => ⟨S100000x1, .f32⟩
  | 120 => ⟨S100000x64, .f32⟩
  | 121 => ⟨S100000x64, .f32⟩
  | 122 => ⟨S100000x64, .f32⟩
  | 123 => ⟨S100000x64, .f32⟩
  | 124 => ⟨S100000x64, .f32⟩
  | 125 => ⟨S1x64, .f32⟩
  | 126 => ⟨S100000x64, .f32⟩
  | 127 => ⟨S100000x64, .f32⟩
  | _ => ⟨S100000x64, .f32⟩

abbrev hbmTy0_1 (i : Nat) : BufTy := match i % 128 with
  | 0 => ⟨S_, .f32⟩
  | 1 => ⟨S64, .f32⟩
  | 2 => ⟨S_, .f32⟩
  | 3 => ⟨S64, .f32⟩
  | 4 => ⟨S64, .f32⟩
  | 5 => ⟨S_, .i32⟩
  | 6 => ⟨S_, .f32⟩
  | 7 => ⟨S64, .f32⟩
  | 8 => ⟨S1x64, .f32⟩
  | 9 => ⟨S_, .f32⟩
  | 10 => ⟨S1x64, .f32⟩
  | 11 => ⟨S1x64, .f32⟩
  | 12 => ⟨S100000x64, .f32⟩
  | 13 => ⟨S100000x64, .f32⟩
  | 14 => ⟨S100000x64, .f32⟩
  | 15 => ⟨S_, .f32⟩
  | 16 => ⟨S_, .f32⟩
  | 17 => ⟨S_, .f32⟩
  | 18 => ⟨S_, .f32⟩
  | 19 => ⟨S64, .f32⟩
  | 20 => ⟨S64, .f32⟩
  | 21 => ⟨S64, .f32⟩
  | 22 => ⟨S_, .f32⟩
  | 23 => ⟨S_, .i1⟩
  | 24 => ⟨S_, .f32⟩
  | 25 => ⟨S_, .f32⟩
  | 26 => ⟨S64, .f32⟩
  | 27 => ⟨S64, .f32⟩
  | 28 => ⟨S1x64, .f32⟩
  | 29 => ⟨S100000x64, .f32⟩
  | 30 => ⟨S100000x64, .f32⟩
  | 31 => ⟨S_, .f32⟩
  | 32 => ⟨S64, .f32⟩
  | 33 => ⟨S64, .f32⟩
  | 34 => ⟨S64, .f32⟩
  | 35 => ⟨S1x64, .f32⟩
  | 36 => ⟨S100000x64, .f32⟩
  | 37 => ⟨S100000x64, .f32⟩
  | 38 => ⟨S1x64, .f32⟩
  | 39 => ⟨S100000x64, .f32⟩
  | 40 => ⟨S100000x64, .f32⟩
  | 41 => ⟨S1x64, .f32⟩
  | 42 => ⟨S100000x64, .f32⟩
  | 43 => ⟨S100000x64, .f32⟩
  | 44 => ⟨S_, .f32⟩
  | 45 => ⟨S100000x64, .f32⟩
  | 46 => ⟨S100000x64, .f32⟩
  | 47 => ⟨S_, .i32⟩
  | 48 => ⟨S1600000, .i32⟩
  | 49 => ⟨S1600000, .i1⟩
  | 50 => ⟨S_, .i32⟩
  | 51 => ⟨S1600000, .i32⟩
  | 52 => ⟨S1600000, .i32⟩
  | 53 => ⟨S1600000, .i32⟩
  | 54 => ⟨S1600000x1, .i32⟩
  | 55 => ⟨S1600000x64, .f32⟩
  | 56 => ⟨S_, .f32⟩
  | 57 => ⟨S100000x64, .f32⟩
  | 58 => ⟨S1600000x1, .i32⟩
  | 59 => ⟨S100000x64, .f32⟩
  | 60 => ⟨S_, .f32⟩
  | 61 => ⟨S1600000, .f32⟩
  | 62 => ⟨S_, .f32⟩
  | 63 => ⟨S100000, .f32⟩
  | 64 => ⟨S1600000x1, .i32⟩
  | 65 => ⟨S100000, .f32⟩
  | 66 => ⟨S_, .f32⟩
  | 67 => ⟨S100000, .f32⟩
  | 68 => ⟨S100000, .f32⟩
  | 69 => ⟨S100000x1, .f32⟩
  | 70 => ⟨S100000x64, .f32⟩
  | 71 => ⟨S100000x64, .f32⟩
  | 72 => ⟨S100000x40, .f32⟩
  | 73 => ⟨S100000x40, .f32⟩
  | 74 => ⟨S100000x40, .f32⟩
  | 75 => ⟨S1x40, .f32⟩
  | 76 => ⟨S100000x40, .f32⟩
  | 77 => ⟨S100000x40, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_1 : Ref sig .tc := ⟨.hbm, 32, rfl⟩
abbrev main_v14 : Ref sig .tc := ⟨.hbm, 33, rfl⟩
abbrev main_cst_2 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_3 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst_4 : Ref sig .tc := ⟨.hbm, 50, rfl⟩
abbrev main_v29 : Ref sig .tc := ⟨.hbm, 51, rfl⟩
abbrev main_cst_5 : Ref sig .tc := ⟨.hbm, 52, rfl⟩
abbrev main_v30 : Ref sig .tc := ⟨.hbm, 53, rfl⟩
abbrev main_v31 : Ref sig .tc := ⟨.hbm, 54, rfl⟩
abbrev main_c_6 : Ref sig .tc := ⟨.hbm, 55, rfl⟩
abbrev main_call0_cst : Ref sig .tc := ⟨.hbm, 56, rfl⟩
abbrev main_call0_v0 : Ref sig .tc := ⟨.hbm, 57, rfl⟩
abbrev main_call0_v1 : Ref sig .tc := ⟨.hbm, 58, rfl⟩
abbrev main_call0_cst_0 : Ref sig .tc := ⟨.hbm, 59, rfl⟩
abbrev main_call0_v2 : Ref sig .tc := ⟨.hbm, 60, rfl⟩
abbrev main_call0_v3 : Ref sig .tc := ⟨.hbm, 61, rfl⟩
abbrev main_call0_v4 : Ref sig .tc := ⟨.hbm, 62, rfl⟩
abbrev main_call0_v5 : Ref sig .tc := ⟨.hbm, 63, rfl⟩
abbrev main_call0_v6 : Ref sig .tc := ⟨.hbm, 64, rfl⟩
abbrev main_call0_v7 : Ref sig .tc := ⟨.hbm, 65, rfl⟩
abbrev main_call0_cst_1 : Ref sig .tc := ⟨.hbm, 66, rfl⟩
abbrev main_call0_v8 : Ref sig .tc := ⟨.hbm, 67, rfl⟩
abbrev main_call0_cst_2 : Ref sig .tc := ⟨.hbm, 68, rfl⟩
abbrev main_call0_v9 : Ref sig .tc := ⟨.hbm, 69, rfl⟩
abbrev main_call0_v10 : Ref sig .tc := ⟨.hbm, 70, rfl⟩
abbrev main_call0_v11 : Ref sig .tc := ⟨.hbm, 71, rfl⟩
abbrev main_call0_cst_3 : Ref sig .tc := ⟨.hbm, 72, rfl⟩
abbrev main_call0_v12 : Ref sig .tc := ⟨.hbm, 73, rfl⟩
abbrev main_call0_cst_4 : Ref sig .tc := ⟨.hbm, 74, rfl⟩
abbrev main_call0_call0_v0 : Ref sig .tc := ⟨.hbm, 75, rfl⟩
abbrev main_call0_call0_v1 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_cst_7 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_call1_cst : Ref sig .tc := ⟨.hbm, 94, rfl⟩
abbrev main_call1_v0 : Ref sig .tc := ⟨.hbm, 95, rfl⟩
abbrev main_v48 : Ref sig .tc := ⟨.hbm, 96, rfl⟩
abbrev main_c_8 : Ref sig .tc := ⟨.hbm, 97, rfl⟩
abbrev main_v49 : Ref sig .tc := ⟨.hbm, 98, rfl⟩
abbrev main_v50 : Ref sig .tc := ⟨.hbm, 99, rfl⟩
abbrev main_c_9 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_cst_10 : Ref sig .tc := ⟨.hbm, 106, rfl⟩
abbrev main_v56 : Ref sig .tc := ⟨.hbm, 107, rfl⟩
abbrev main_v57 : Ref sig .tc := ⟨.hbm, 108, rfl⟩
abbrev main_v58 : Ref sig .tc := ⟨.hbm, 109, rfl⟩
abbrev main_cst_11 : Ref sig .tc := ⟨.hbm, 110, rfl⟩
abbrev main_v59 : Ref sig .tc := ⟨.hbm, 111, rfl⟩
abbrev main_cst_12 : Ref sig .tc := ⟨.hbm, 112, rfl⟩
abbrev main_v60 : Ref sig .tc := ⟨.hbm, 113, rfl⟩
abbrev main_v61 : Ref sig .tc := ⟨.hbm, 114, rfl⟩
abbrev main_v62 : Ref sig .tc := ⟨.hbm, 115, rfl⟩
abbrev main_cst_13 : Ref sig .tc := ⟨.hbm, 116, rfl⟩
abbrev main_v63 : Ref sig .tc := ⟨.hbm, 117, rfl⟩
abbrev main_v64 : Ref sig .tc := ⟨.hbm, 118, rfl⟩
abbrev main_v65 : Ref sig .tc := ⟨.hbm, 119, rfl⟩
abbrev main_v66 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_v70 : Ref sig .tc := ⟨.hbm, 124, rfl⟩
abbrev main_v71 : Ref sig .tc := ⟨.hbm, 125, rfl⟩
abbrev main_v72 : Ref sig .tc := ⟨.hbm, 126, rfl⟩
abbrev main_v73 : Ref sig .tc := ⟨.hbm, 127, rfl⟩
abbrev main_cst_14 : Ref sig .tc := ⟨.hbm, 128, rfl⟩
abbrev main_v74 : Ref sig .tc := ⟨.hbm, 129, rfl⟩
abbrev main_cst_15 : Ref sig .tc := ⟨.hbm, 130, rfl⟩
abbrev main_v75 : Ref sig .tc := ⟨.hbm, 131, rfl⟩
abbrev main_v76 : Ref sig .tc := ⟨.hbm, 132, rfl⟩
abbrev main_c_16 : Ref sig .tc := ⟨.hbm, 133, rfl⟩
abbrev main_call2_cst : Ref sig .tc := ⟨.hbm, 134, rfl⟩
abbrev main_call2_v0 : Ref sig .tc := ⟨.hbm, 135, rfl⟩
abbrev main_call2_v1 : Ref sig .tc := ⟨.hbm, 136, rfl⟩
abbrev main_call2_cst_0 : Ref sig .tc := ⟨.hbm, 137, rfl⟩
abbrev main_call2_v2 : Ref sig .tc := ⟨.hbm, 138, rfl⟩
abbrev main_call2_v3 : Ref sig .tc := ⟨.hbm, 139, rfl⟩
abbrev main_call2_v4 : Ref sig .tc := ⟨.hbm, 140, rfl⟩
abbrev main_call2_v5 : Ref sig .tc := ⟨.hbm, 141, rfl⟩
abbrev main_call2_v6 : Ref sig .tc := ⟨.hbm, 142, rfl⟩
abbrev main_call2_v7 : Ref sig .tc := ⟨.hbm, 143, rfl⟩
abbrev main_call2_cst_1 : Ref sig .tc := ⟨.hbm, 144, rfl⟩
abbrev main_call2_v8 : Ref sig .tc := ⟨.hbm, 145, rfl⟩
abbrev main_call2_cst_2 : Ref sig .tc := ⟨.hbm, 146, rfl⟩
abbrev main_call2_v9 : Ref sig .tc := ⟨.hbm, 147, rfl⟩
abbrev main_call2_v10 : Ref sig .tc := ⟨.hbm, 148, rfl⟩
abbrev main_call2_v11 : Ref sig .tc := ⟨.hbm, 149, rfl⟩
abbrev main_call2_cst_3 : Ref sig .tc := ⟨.hbm, 150, rfl⟩
abbrev main_call2_v12 : Ref sig .tc := ⟨.hbm, 151, rfl⟩
abbrev main_call2_cst_4 : Ref sig .tc := ⟨.hbm, 152, rfl⟩
abbrev main_call2_call0_v0 : Ref sig .tc := ⟨.hbm, 153, rfl⟩
abbrev main_call2_call0_v1 : Ref sig .tc := ⟨.hbm, 154, rfl⟩
abbrev main_v77 : Ref sig .tc := ⟨.hbm, 155, rfl⟩
abbrev main_v78 : Ref sig .tc := ⟨.hbm, 156, rfl⟩
abbrev main_v79 : Ref sig .tc := ⟨.hbm, 157, rfl⟩
abbrev main_v80 : Ref sig .tc := ⟨.hbm, 158, rfl⟩
abbrev main_cst_17 : Ref sig .tc := ⟨.hbm, 159, rfl⟩
abbrev main_v81 : Ref sig .tc := ⟨.hbm, 160, rfl⟩
abbrev main_v82 : Ref sig .tc := ⟨.hbm, 161, rfl⟩
abbrev main_v83 : Ref sig .tc := ⟨.hbm, 162, rfl⟩
abbrev main_v84 : Ref sig .tc := ⟨.hbm, 163, rfl⟩
abbrev main_v85 : Ref sig .tc := ⟨.hbm, 164, rfl⟩
abbrev main_v86 : Ref sig .tc := ⟨.hbm, 165, rfl⟩
abbrev main_v87 : Ref sig .tc := ⟨.hbm, 166, rfl⟩
abbrev main_v88 : Ref sig .tc := ⟨.hbm, 167, rfl⟩
abbrev main_v89 : Ref sig .tc := ⟨.hbm, 168, rfl⟩
abbrev main_v90 : Ref sig .tc := ⟨.hbm, 169, rfl⟩
abbrev main_v91 : Ref sig .tc := ⟨.hbm, 170, rfl⟩
abbrev main_v92 : Ref sig .tc := ⟨.hbm, 171, rfl⟩
abbrev main_call3_cst : Ref sig .tc := ⟨.hbm, 172, rfl⟩
abbrev main_call3_v0 : Ref sig .tc := ⟨.hbm, 173, rfl⟩
abbrev main_v93 : Ref sig .tc := ⟨.hbm, 174, rfl⟩
abbrev main_c_18 : Ref sig .tc := ⟨.hbm, 175, rfl⟩
abbrev main_v94 : Ref sig .tc := ⟨.hbm, 176, rfl⟩
abbrev main_v95 : Ref sig .tc := ⟨.hbm, 177, rfl⟩
abbrev main_c_19 : Ref sig .tc := ⟨.hbm, 178, rfl⟩
abbrev main_v96 : Ref sig .tc := ⟨.hbm, 179, rfl⟩
abbrev main_v97 : Ref sig .tc := ⟨.hbm, 180, rfl⟩
abbrev main_v98 : Ref sig .tc := ⟨.hbm, 181, rfl⟩
abbrev main_v99 : Ref sig .tc := ⟨.hbm, 182, rfl⟩
abbrev main_v100 : Ref sig .tc := ⟨.hbm, 183, rfl⟩
abbrev main_cst_20 : Ref sig .tc := ⟨.hbm, 184, rfl⟩
abbrev main_v101 : Ref sig .tc := ⟨.hbm, 185, rfl⟩
abbrev main_v102 : Ref sig .tc := ⟨.hbm, 186, rfl⟩
abbrev main_v103 : Ref sig .tc := ⟨.hbm, 187, rfl⟩
abbrev main_cst_21 : Ref sig .tc := ⟨.hbm, 188, rfl⟩
abbrev main_v104 : Ref sig .tc := ⟨.hbm, 189, rfl⟩
abbrev main_cst_22 : Ref sig .tc := ⟨.hbm, 190, rfl⟩
abbrev main_v105 : Ref sig .tc := ⟨.hbm, 191, rfl⟩
abbrev main_v106 : Ref sig .tc := ⟨.hbm, 192, rfl⟩
abbrev main_v107 : Ref sig .tc := ⟨.hbm, 193, rfl⟩
abbrev main_cst_23 : Ref sig .tc := ⟨.hbm, 194, rfl⟩
abbrev main_v108 : Ref sig .tc := ⟨.hbm, 195, rfl⟩
abbrev main_v109 : Ref sig .tc := ⟨.hbm, 196, rfl⟩
abbrev main_v110 : Ref sig .tc := ⟨.hbm, 197, rfl⟩
abbrev main_v111 : Ref sig .tc := ⟨.hbm, 198, rfl⟩
abbrev main_v112 : Ref sig .tc := ⟨.hbm, 199, rfl⟩
abbrev main_v113 : Ref sig .tc := ⟨.hbm, 200, rfl⟩
abbrev main_v114 : Ref sig .tc := ⟨.hbm, 201, rfl⟩
abbrev main_v115 : Ref sig .tc := ⟨.hbm, 202, rfl⟩
abbrev main_v116 : Ref sig .tc := ⟨.hbm, 203, rfl⟩
abbrev main_v117 : Ref sig .tc := ⟨.hbm, 204, rfl⟩
abbrev main_v118 : Ref sig .tc := ⟨.hbm, 205, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x64_S100000x64_1_0_0_1_n_n_wf : DotDims.WF S100000x64 S64x64 S100000x64 [1] [0] [0] [1] [] []
  dot_S100000x64_S64x40_S100000x40_1_0_0_1_n_n_wf : DotDims.WF S100000x64 S64x40 S100000x40 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf

class Facts : Prop extends Facts₀ where

variable [Facts]
-- ==== Proof.KRun.lean ====
/-
  The idealized kernel program's run with its result named.

  Every weakly fair execution of the program terminates without a fault; at the end each argument array is as launched,
  and the result array holds what the fold of the program's segments leaves in it: the contents `W14` after the last of
  the five regions, read at the result buffer. This is the run that gives the frame, read once more at one more buffer
  of the same final contents.
-/
import proofs.«106070_j38113539785173_1_alg».proof.Proof.Gen.KernelIdeal.Frame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: termination, no fault, the result buffer at the last boundary's contents, the arguments unchanged. -/
theorem run_result : θ_run defs (onTc (τ := τ) (main (F := F))) ⟨m, fun _ => 0, ρ⟩ (fun r => ∀ c : Dev nD,
      r.2.mem ((c.tc : Thread nD τ).loc main_v82) = W14 m ρ c (Proc.devRef .tc main_v82)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v82 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c),
       (h c _ (mem_uc main_arg10 (by decide))).trans (W14_main_arg10 m ρ c),
       (h c _ (mem_uc main_arg11 (by decide))).trans (W14_main_arg11 m ρ c),
       (h c _ (mem_uc main_arg12 (by decide))).trans (W14_main_arg12 m ρ c),
       (h c _ (mem_uc main_arg13 (by decide))).trans (W14_main_arg13 m ρ c),
       (h c _ (mem_uc main_arg14 (by decide))).trans (W14_main_arg14 m ρ c)⟩)

end Cert.KernelIdeal.Gen

end
-- ==== Proof.Spec.lean ====
/-
  The network both programs compute, entry by entry, on the extended reals.

  A layer takes node features `x` (one row per node) and the neighbourhood means `a` of the same shape and returns,
  at node `p` and output channel `q`,
      (Σ_k a(p,k)·Wl(k,q)  +  Σ_k x(p,k)·Wr(k,q))  +  b(q).
  Between layers every channel is normalised by the batch statistics of that channel and rectified:
      max( ((y − μ)·rsqrt(σ² + ε))·γ + β , 0 ).
  The neighbourhood mean `agg` and the statistics `mu`, `var` enter the composition as functions of a layer's
  output: both programs obtain them by the same operations, and nothing below looks inside them.
-/
import Idealize.ShloMosaic.PureOps.Ideal
import Idealize.ShloMosaic.Lib.ValueIdx

noncomputable section

namespace Cert.Sage

open Idealize.ShloMosaic Idealize.ShloMosaic.ValueIdx

/-- An `n × c` array of extended reals. -/
abbrev Mat (n c : ℕ) : Type := (⟨2, ![n, c]⟩ : Shape).Idx → EReal
/-- A length-`c` array of extended reals. -/
abbrev Row (c : ℕ) : Type := (⟨1, ![c]⟩ : Shape).Idx → EReal

/-- One entry of a layer: the two products' entries added, then the bias. -/
def linAt {n c d : ℕ} (a x : Mat n c) (Wl Wr : Mat c d) (b : Row d) (p : Fin n) (q : Fin d) : EReal :=
  ((∑ k : Fin c, a (ix2 p k) * Wl (ix2 k q)) + ∑ k : Fin c, x (ix2 p k) * Wr (ix2 k q)) + b (ix1 q)

/-- A layer as a whole array. -/
def lin {n c d : ℕ} (a x : Mat n c) (Wl Wr : Mat c d) (b : Row d) : Mat n d :=
  fun i => linAt a x Wl Wr b (i 0) (i 1)

theorem lin_apply {n c d : ℕ} (a x : Mat n c) (Wl Wr : Mat c d) (b : Row d) (p : Fin n) (q : Fin d) :
    lin a x Wl Wr b (ix2 p q) = linAt a x Wl Wr b p q := rfl

/-- The variance's offset, the float nearest to 1e-5, as both programs carry it. -/
abbrev eps : EReal := Ideal.ofBits .f32 0x3727C5AC#32
/-- The rectifier's threshold. -/
abbrev zero : EReal := Ideal.ofBits .f32 0x00000000#32

/-- One entry normalised by its channel's statistics, scaled, shifted and rectified. -/
def bnReluAt (y mu var g be : EReal) : EReal :=
  max ((((y - mu) * Ideal.rsqrt (var + eps)) * g) + be) zero

/-- The same over a whole array, channel `q` using entry `q` of each per-channel row. -/
def bnRelu {n c : ℕ} (y : Mat n c) (mu var g be : Row c) : Mat n c :=
  fun i => bnReluAt (y i) (mu (ix1 (i 1))) (var (ix1 (i 1))) (g (ix1 (i 1))) (be (ix1 (i 1)))

theorem bnRelu_apply {n c : ℕ} (y : Mat n c) (mu var g be : Row c) (p : Fin n) (q : Fin c) :
    bnRelu y mu var g be (ix2 p q) = bnReluAt (y (ix2 p q)) (mu (ix1 q)) (var (ix1 q)) (g (ix1 q)) (be (ix1 q)) := rfl

/-- Three layers with a normalise-and-rectify step after the first two. -/
def net {n : ℕ} (agg : Mat n 64 → Mat n 64) (mu var : Mat n 64 → Row 64)
    (x : Mat n 64) (Wl0 Wr0 : Mat 64 64) (b0 : Row 64) (Wl1 Wr1 : Mat 64 64) (b1 : Row 64)
    (Wl2 Wr2 : Mat 64 40) (b2 : Row 40) (g0 be0 g1 be1 : Row 64) : Mat n 40 :=
  let y0 := lin (agg x) x Wl0 Wr0 b0
  let h1 := bnRelu y0 (mu y0) (var y0) g0 be0
  let y1 := lin (agg h1) h1 Wl1 Wr1 b1
  let h2 := bnRelu y1 (mu y1) (var y1) g1 be1
  lin (agg h2) h2 Wl2 Wr2 b2

/-- Two arrays equal at every pair of coordinates are equal. -/
theorem mat_ext {n c : ℕ} {A B : Mat n c} (h : ∀ (p : Fin n) (q : Fin c), A (ix2 p q) = B (ix2 p q)) : A = B :=
  funext fun i => by rw [eq_ix2 i]; exact h _ _

end Cert.Sage

end
-- ==== Proof.KHost.lean ====
/-
  What each stretch of host operations of the idealized kernel program leaves in the buffers that later segments read.

  The program prepares the two rows of the edge list once (`srcOf`, `dstOf`) and, before each of its three layers,
  forms the neighbourhood mean of the current features (`aggIdx`: gather the features of every edge's source, add them
  up at the edge's destination, and divide each node's sum by its in-degree or by one where it has none). After each of
  the first two layers it takes, per channel, the mean over the nodes (`muK`) and the mean squared deviation from it
  (`varK`, chosen by a scalar test on the number of nodes that is the same test wherever it is made), both kept as a
  `1 × 64` row. The bias and the scale and shift rows enter the regions reshaped to `1 × c`.

  Every statement is about the fold of one stretch over ARBITRARY earlier contents `W`: nothing here depends on what
  came before the stretch.
-/
import proofs.«106070_j38113539785173_1_alg».proof.Proof.Gen.KernelIdeal.Launch
import Idealize.ShloMosaic.Lib.StableHlo.Run
import Idealize.ShloMosaic.PureOps.Ideal

noncomputable section

namespace Cert.KernelIdeal.HostVal

open Cert.KernelIdeal Cert.KernelIdeal.Gen Idealize.ShloMosaic Idealize.ShloMosaic.TcCoe Idealize.ShloMosaic.StableHlo

/-- The contents of a buffer of shape `S` and element type `e` at the ideal values. -/
abbrev C (S : Shape) (e : EltTy) : Type := (⟨S, e⟩ : BufTy).Contents (Elt Ideal)

/-- Row 0 of the edge list, as a flat vector: every edge's source node. -/
def srcOf (ei : C S2x1600000 .i32) : C S1600000 .i32 := fun i =>
  shapeCast S1600000 (extractStridedSlice S1x1600000 ![0, 0] ei slices_S2x1600000_S1x1600000_0_0) shapeCasts_S1x1600000_S1600000 i

/-- Row 1 of the edge list: every edge's destination node. -/
def dstOf (ei : C S2x1600000 .i32) : C S1600000 .i32 := fun i =>
  shapeCast S1600000 (extractStridedSlice S1x1600000 ![1, 0] ei slices_S2x1600000_S1x1600000_1_0) shapeCasts_S1x1600000_S1600000 i

/-- The neighbourhood mean of the features `h` along the edges `src → dst`. -/
def aggIdx (src dst : C S1600000 .i32) (h : C S100000x64 .f32) : C S100000x64 .f32 :=
  Host.divf (F := Ideal)
    (Host.scatterAdd (F := Ideal) scatter_S100000x64_S1600000x1_S1600000x64_1_0_0_1
      (broadcastInDim S100000x64 ![] bcast_S_S100000x64 (constant (F := Ideal) S_ .f32 0x00000000#32))
      (broadcastInDim S1600000x1 ![0] bcast_S1600000_S1600000x1_0 dst)
      (Host.gather gather_S100000x64_S1600000x1_S1600000x64_1_0_n_n_0_1_164 h
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src))))
    (broadcastInDim S100000x64 ![0, 1] bcast_S100000x1_S100000x64_0_1
      (broadcastInDim S100000x1 ![0] bcast_S100000_S100000x1_0
        (maximumf
          (Host.scatterAdd (F := Ideal) scatter_S100000_S1600000x1_S1600000_n_0_0_1
            (broadcastInDim S100000 ![] bcast_S_S100000 (constant (F := Ideal) S_ .f32 0x00000000#32))
            (broadcastInDim S1600000x1 ![0] bcast_S1600000_S1600000x1_0 dst)
            (broadcastInDim S1600000 ![] bcast_S_S1600000 (constant (F := Ideal) S_ .f32 0x3F800000#32)))
          (broadcastInDim S100000 ![] bcast_S_S100000 (constant (F := Ideal) S_ .f32 0x3F800000#32)))))

/-- The sum over the nodes, per channel. -/
def colSum (h : C S100000x64 .f32) : C S64 .f32 :=
  Host.reduceAdd (F := Ideal) h (constant (F := Ideal) S_ .f32 0x00000000#32) reducesTo_S100000x64_S64_d0 h_S_

/-- The per-channel mean over the nodes, kept as a `1 × 64` row. -/
def muK (h : C S100000x64 .f32) : C S1x64 .f32 :=
  Host.divf (F := Ideal) (broadcastInDim S1x64 ![1] bcast_S64_S1x64_1 (colSum h))
    (broadcastInDim S1x64 ![] bcast_S_S1x64 (constant (F := Ideal) S_ .f32 0x47C35000#32))

/-- The per-channel sum over the nodes of the squared deviation from the mean. -/
def sqDev (h : C S100000x64 .f32) : C S64 .f32 :=
  colSum (mulf (F := Ideal) (φ := .f32) (subf (F := Ideal) (φ := .f32) h (broadcastInDim S100000x64 ![0, 1] bcast_S1x64_S100000x64_0_1 (muK h)))
    (subf (F := Ideal) (φ := .f32) h (broadcastInDim S100000x64 ![0, 1] bcast_S1x64_S100000x64_0_1 (muK h))))

/-- The divisor of the variance: the number of nodes less the correction `k`. -/
def nrm (k : C S_ .i32) : C S_ .f32 :=
  subf (F := Ideal) (φ := .f32) (constant (F := Ideal) S_ .f32 0x47C35000#32) (sitofp (F := Ideal) .f32 k)

/-- The per-channel variance, kept as a `1 × 64` row: the quotient where the divisor is positive, else the not-a-number word. -/
def varK (k : C S_ .i32) (h : C S100000x64 .f32) : C S1x64 .f32 :=
  select (broadcastInDim S1x64 ![] bcast_S_S1x64 (cmpf (F := Ideal) (φ := .f32) .ogt (nrm k) (constant (F := Ideal) S_ .f32 0x00000000#32)))
    (Host.divf (F := Ideal) (φ := .f32) (broadcastInDim S1x64 ![1] bcast_S64_S1x64_1 (sqDev h)) (broadcastInDim S1x64 ![] bcast_S_S1x64 (nrm k)))
    (broadcastInDim S1x64 ![] bcast_S_S1x64 (constant (F := Ideal) S_ .f32 0x7FC00000#32))

/-- A length-64 vector as a `1 × 64` row. -/
def asRow64 (v : C S64 .f32) : C S1x64 .f32 := fun i => shapeCast S1x64 v shapeCasts_S64_S1x64 i
/-- A length-40 vector as a `1 × 40` row. -/
def asRow40 (v : C S40 .f32) : C S1x40 .f32 := fun i => shapeCast S1x40 v shapeCasts_S40_S1x40 i

variable (W : Valuation τ sig (Elt Ideal))

/-! ## Before region 0 -/
theorem h0_v1 : after (hostOps0 (F := Ideal)) W (Proc.devRef .tc main_v1) = srcOf (W (Proc.devRef .tc main_arg1)) := by
  after_results_simp; first | rfl | fail "not by rfl"
theorem h0_v3 : after (hostOps0 (F := Ideal)) W (Proc.devRef .tc main_v3) = dstOf (W (Proc.devRef .tc main_arg1)) := by
  after_results_simp; first | rfl | fail "not by rfl"
theorem h0_v22 : after (hostOps0 (F := Ideal)) W (Proc.devRef .tc main_v22)
    = aggIdx (srcOf (W (Proc.devRef .tc main_arg1))) (dstOf (W (Proc.devRef .tc main_arg1))) (W (Proc.devRef .tc main_arg0)) := by
  after_results_simp; first | rfl | fail "not by rfl"
theorem h0_v23 : after (hostOps0 (F := Ideal)) W (Proc.devRef .tc main_v23) = asRow64 (W (Proc.devRef .tc main_arg4)) := by
  after_results_simp; first | rfl | fail "not by rfl"

/-! ## Between regions 0 and 1 -/
theorem h1_v28 : after (hostOps1 (F := Ideal)) W (Proc.devRef .tc main_v28) = muK (W (Proc.devRef .tc main_v24)) := by
  after_results_simp; first | rfl | fail "not by rfl"
theorem h1_c6 : after (hostOps1 (F := Ideal)) W (Proc.devRef .tc main_c_6) = constantI S_ 32 0#32 := by
  after_results_simp
theorem h11_v29 : after (hostOps1_1 (F := Ideal)) W (Proc.devRef .tc main_v29)
    = varK (W (Proc.devRef .tc main_c_6)) (W (Proc.devRef .tc main_v24)) := by
  after_results_simp; first | rfl | fail "not by rfl"
theorem h12_v30 : after (hostOps1_2 (F := Ideal)) W (Proc.devRef .tc main_v30) = asRow64 (W (Proc.devRef .tc main_arg11)) := by
  after_results_simp; first | rfl | fail "not by rfl"
theorem h12_v31 : after (hostOps1_2 (F := Ideal)) W (Proc.devRef .tc main_v31) = asRow64 (W (Proc.devRef .tc main_arg12)) := by
  after_results_simp; first | rfl | fail "not by rfl"

/-! ## Between regions 1 and 2 -/
theorem h2_v51 : after (hostOps2 (F := Ideal)) W (Proc.devRef .tc main_v51)
    = aggIdx (W (Proc.devRef .tc main_v1)) (W (Proc.devRef .tc main_v3)) (W (Proc.devRef .tc main_v32)) := by
  after_results_simp; first | rfl | fail "not by rfl"
theorem h2_v52 : after (hostOps2 (F := Ideal)) W (Proc.devRef .tc main_v52) = asRow64 (W (Proc.devRef .tc main_arg7)) := by
  after_results_simp; first | rfl | fail "not by rfl"

/-! ## Between regions 2 and 3 -/
theorem h3_v57 : after (hostOps3 (F := Ideal)) W (Proc.devRef .tc main_v57) = muK (W (Proc.devRef .tc main_v53)) := by
  after_results_simp; first | rfl | fail "not by rfl"
theorem h3_c15 : after (hostOps3 (F := Ideal)) W (Proc.devRef .tc main_c_15) = constantI S_ 32 0#32 := by
  after_results_simp
theorem h31_v58 : after (hostOps3_1 (F := Ideal)) W (Proc.devRef .tc main_v58)
    = varK (W (Proc.devRef .tc main_c_15)) (W (Proc.devRef .tc main_v53)) := by
  after_results_simp; first | rfl | fail "not by rfl"
theorem h32_v59 : after (hostOps3_2 (F := Ideal)) W (Proc.devRef .tc main_v59) = asRow64 (W (Proc.devRef .tc main_arg13)) := by
  after_results_simp; first | rfl | fail "not by rfl"
theorem h32_v60 : after (hostOps3_2 (F := Ideal)) W (Proc.devRef .tc main_v60) = asRow64 (W (Proc.devRef .tc main_arg14)) := by
  after_results_simp; first | rfl | fail "not by rfl"

/-! ## Between regions 3 and 4 -/
theorem h4_v80 : after (hostOps4 (F := Ideal)) W (Proc.devRef .tc main_v80)
    = aggIdx (W (Proc.devRef .tc main_v1)) (W (Proc.devRef .tc main_v3)) (W (Proc.devRef .tc main_v61)) := by
  after_results_simp; first | rfl | fail "not by rfl"
theorem h4_v81 : after (hostOps4 (F := Ideal)) W (Proc.devRef .tc main_v81) = asRow40 (W (Proc.devRef .tc main_arg10)) := by
  after_results_simp; first | rfl | fail "not by rfl"

end Cert.KernelIdeal.HostVal

end
-- ==== Proof.KCarry.lean ====
/-
  Buffers that pass through the idealized kernel program untouched.

  After the first stretch of host operations the program never again writes its argument arrays nor the two vectors of
  edge endpoints it cut from the edge list: no later host operation has one of them as its result, and no region has one
  as its output. A region leaves every buffer that is not one of its own arrays as it found it; a stretch of host
  operations leaves every buffer that none of its operations writes as it found it. Following the program's segments
  in order, those buffers therefore hold at every later boundary what they held when region 0 was entered — until they
  are last used: the weights of layer 1 are arrays of region 2 and are not followed past it.

  The same two principles carry a layer's output and its statistics across the few stretches between the region that
  produces them and the region that consumes them.
-/
import proofs.«106070_j38113539785173_1_alg».proof.Proof.Gen.KernelIdeal.Frame
import proofs.«106070_j38113539785173_1_alg».proof.Proof.KHost

set_option maxRecDepth 16384

noncomputable section

namespace Cert.KernelIdeal.Carry

open Cert.KernelIdeal Cert.KernelIdeal.Gen Idealize.ShloMosaic Idealize.ShloMosaic.TcCoe Idealize.ShloMosaic.StableHlo

/-- The fifteen argument arrays. -/
abbrev argRefs : List (Ref sig .tc) :=
  [main_arg0, main_arg1, main_arg2, main_arg3, main_arg4, main_arg5, main_arg6, main_arg7, main_arg8, main_arg9,
   main_arg10, main_arg11, main_arg12, main_arg13, main_arg14]

/-- What is still to be used once region 0 has run: the later layers' parameters and the edge endpoints. -/
abbrev late : List (Ref sig .tc) :=
  [main_arg5, main_arg6, main_arg7, main_arg8, main_arg9, main_arg10, main_arg11, main_arg12, main_arg13, main_arg14,
   main_v1, main_v3]

/-- What is still to be used once region 2 has run. -/
abbrev later : List (Ref sig .tc) :=
  [main_arg8, main_arg9, main_arg10, main_arg13, main_arg14, main_v1, main_v3]

theorem later_sub : ∀ b ∈ later, b ∈ late := by decide

/-- The buffers of a list hold in `Wj` what they hold in `W`. -/
def Same (L : List (Ref sig .tc)) (Wj W : Valuation τ sig (Elt Ideal)) : Prop :=
  ∀ b ∈ L, Wj (Proc.devRef .tc b) = W (Proc.devRef .tc b)

/-- A stretch none of whose operations writes a buffer of the list keeps the list. -/
theorem Same.host {L : List (Ref sig .tc)} {ops : List (HloOp τ sig (Elt Ideal))} {Wj W : Valuation τ sig (Elt Ideal)}
    (hw : ∀ b ∈ L, ∀ op ∈ ops, (Proc.devRef .tc b : DevRef τ sig) ∉ op.writes) (h : Same L Wj W) :
    Same L (after ops Wj) W :=
  fun b hb => (after_of_forall_not_mem ops Wj (hw b hb)).trans (h b hb)

/-- Contents that agree with `Wj` on the list keep it. -/
theorem Same.step {L : List (Ref sig .tc)} {Wk Wj W : Valuation τ sig (Elt Ideal)}
    (hk : ∀ b ∈ L, Wk (Proc.devRef .tc b) = Wj (Proc.devRef .tc b)) (h : Same L Wj W) : Same L Wk W :=
  fun b hb => (hk b hb).trans (h b hb)

theorem Same.mono {L L' : List (Ref sig .tc)} {Wj W : Valuation τ sig (Elt Ideal)} (hs : ∀ b ∈ L', b ∈ L)
    (h : Same L Wj W) : Same L' Wj W := fun b hb => h b (hs b hb)

/-! ## No stretch writes a buffer it is to keep -/

theorem nw0 : ∀ b ∈ argRefs, ∀ op ∈ (hostOps0 (F := Ideal)), (Proc.devRef .tc b : DevRef τ sig) ∉ op.writes := by decide
theorem nw1 : ∀ b ∈ late, ∀ op ∈ (hostOps1 (F := Ideal)), (Proc.devRef .tc b : DevRef τ sig) ∉ op.writes := by decide
theorem nw1_1 : ∀ b ∈ late, ∀ op ∈ (hostOps1_1 (F := Ideal)), (Proc.devRef .tc b : DevRef τ sig) ∉ op.writes := by decide
theorem nw1_2 : ∀ b ∈ late, ∀ op ∈ (hostOps1_2 (F := Ideal)), (Proc.devRef .tc b : DevRef τ sig) ∉ op.writes := by decide
theorem nw2 : ∀ b ∈ late, ∀ op ∈ (hostOps2 (F := Ideal)), (Proc.devRef .tc b : DevRef τ sig) ∉ op.writes := by decide
theorem nw3 : ∀ b ∈ later, ∀ op ∈ (hostOps3 (F := Ideal)), (Proc.devRef .tc b : DevRef τ sig) ∉ op.writes := by decide
theorem nw3_1 : ∀ b ∈ later, ∀ op ∈ (hostOps3_1 (F := Ideal)), (Proc.devRef .tc b : DevRef τ sig) ∉ op.writes := by decide
theorem nw3_2 : ∀ b ∈ later, ∀ op ∈ (hostOps3_2 (F := Ideal)), (Proc.devRef .tc b : DevRef τ sig) ∉ op.writes := by decide
theorem nw4 : ∀ b ∈ later, ∀ op ∈ (hostOps4 (F := Ideal)), (Proc.devRef .tc b : DevRef τ sig) ∉ op.writes := by decide

/-- The layer values between the region that writes them and the region that reads them. -/
theorem nwY1 : ∀ b ∈ [main_v24], ∀ op ∈ (hostOps1 (F := Ideal)), (Proc.devRef .tc b : DevRef τ sig) ∉ op.writes := by decide
theorem nwY1_1 : ∀ b ∈ [main_v24, main_v28], ∀ op ∈ (hostOps1_1 (F := Ideal)), (Proc.devRef .tc b : DevRef τ sig) ∉ op.writes := by decide
theorem nwY1_2 : ∀ b ∈ [main_v24, main_v28, main_v29], ∀ op ∈ (hostOps1_2 (F := Ideal)), (Proc.devRef .tc b : DevRef τ sig) ∉ op.writes := by decide
theorem nwY2 : ∀ b ∈ [main_v32], ∀ op ∈ (hostOps2 (F := Ideal)), (Proc.devRef .tc b : DevRef τ sig) ∉ op.writes := by decide
theorem nwY3 : ∀ b ∈ [main_v53], ∀ op ∈ (hostOps3 (F := Ideal)), (Proc.devRef .tc b : DevRef τ sig) ∉ op.writes := by decide
theorem nwY3_1 : ∀ b ∈ [main_v53, main_v57], ∀ op ∈ (hostOps3_1 (F := Ideal)), (Proc.devRef .tc b : DevRef τ sig) ∉ op.writes := by decide
theorem nwY3_2 : ∀ b ∈ [main_v53, main_v57, main_v58], ∀ op ∈ (hostOps3_2 (F := Ideal)), (Proc.devRef .tc b : DevRef τ sig) ∉ op.writes := by decide
theorem nwY4 : ∀ b ∈ [main_v61], ∀ op ∈ (hostOps4 (F := Ideal)), (Proc.devRef .tc b : DevRef τ sig) ∉ op.writes := by decide

/-! ## No region has a kept buffer among its arrays -/

theorem ne0 : ∀ b ∈ late, ∀ w, Pipeline.arrRef spec0 w ≠ b := by decide
theorem ne1 : ∀ b ∈ late, ∀ w, Pipeline.arrRef spec1 w ≠ b := by decide
theorem ne2 : ∀ b ∈ later, ∀ w, Pipeline.arrRef spec2 w ≠ b := by decide
theorem ne3 : ∀ b ∈ later, ∀ w, Pipeline.arrRef spec3 w ≠ b := by decide

variable (m : (ℓ : Loc nD τ sig) → Buf (Elt Ideal) ℓ) (ρ : Dev nD → PrngReg) (c : Dev nD)

/-! ## The kept buffers at every boundary, as when region 0 was entered -/

theorem same2 : Same late (W2 m ρ c) (W1 m ρ c) := fun b hb => W2_of_ne m ρ c b (ne0 b hb)
theorem same3 : Same late (W3 m ρ c) (W1 m ρ c) := (same2 m ρ c).host nw1
theorem same4 : Same late (W4 m ρ c) (W1 m ρ c) := (same3 m ρ c).host nw1_1
theorem same5 : Same late (W5 m ρ c) (W1 m ρ c) := (same4 m ρ c).host nw1_2
theorem same6 : Same late (W6 m ρ c) (W1 m ρ c) := (same5 m ρ c).step fun b hb => W6_of_ne m ρ c b (ne1 b hb)
theorem same7 : Same late (W7 m ρ c) (W1 m ρ c) := (same6 m ρ c).host nw2
theorem same8 : Same later (W8 m ρ c) (W1 m ρ c) :=
  ((same7 m ρ c).mono later_sub).step fun b hb => W8_of_ne m ρ c b (ne2 b hb)
theorem same9 : Same later (W9 m ρ c) (W1 m ρ c) := (same8 m ρ c).host nw3
theorem same10 : Same later (W10 m ρ c) (W1 m ρ c) := (same9 m ρ c).host nw3_1
theorem same11 : Same later (W11 m ρ c) (W1 m ρ c) := (same10 m ρ c).host nw3_2
theorem same12 : Same later (W12 m ρ c) (W1 m ρ c) := (same11 m ρ c).step fun b hb => W12_of_ne m ρ c b (ne3 b hb)
theorem same13 : Same later (W13 m ρ c) (W1 m ρ c) := (same12 m ρ c).host nw4

/-- When region 0 is entered every argument array is as launched. -/
theorem arg_W1 (b : Ref sig .tc) (hb : b ∈ argRefs) : W1 m ρ c (Proc.devRef .tc b) = m ((c : Thread nD τ).loc b) :=
  after_of_forall_not_mem _ _ (nw0 b hb)

end Cert.KernelIdeal.Carry

end
-- ==== Proof.LibRowOps.lean ====
/-
  Rows and columns of rank-2 vectors read at an index, at the ideal values (extended reals, exact operations).

  * the keep-dimensions column forms: a length-`a` vector cast to `[a, 1]`, and an `[a, 1]` column broadcast over
    `b` lanes, read at `(p, c)`;
  * a bias row: a length-`b` vector cast to `[1, b]` and broadcast over `a` rows reads, at `(p, c)`, its entry `c`;
  * the sum over the lanes of a row (`vector.multi_reduction <add>` over axis 1 of an `[a, b]` vector into the zero
    accumulator) is the `Fin b`-indexed sum of the row's entries;
  * a plain `M×K` by `K×N` matrix product into the zero accumulator is, at `(r, j)`, the sum over `k : Fin K` of
    `lhs (r, k) * rhs (k, j)`, whatever the operands' float formats;
  * a sum over `Fin (m + n)` splits into the sums over its first `m` and its last `n` indices.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibRowOps

open Idealize.ShloMosaic Idealize.ShloMosaic.ValueIdx

variable {α : Type}

/-- A length-`a` vector cast to an `[a, 1]` column reads, at `(p, u)`, its entry `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast over `b` lanes reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A bias row: a length-`b` vector cast to `[1, b]` and broadcast over `a` rows reads, at `(p, c)`, its entry `c`. -/
theorem biasRow_apply {a b : ℕ} (x : (⟨1, ![b]⟩ : Shape).Idx → α) (h : (⟨1, ![b]⟩ : Shape).ShapeCasts ⟨2, ![1, b]⟩)
    (h' : (⟨2, ![1, b]⟩ : Shape).Broadcasts ⟨2, ![a, b]⟩) (p : Fin a) (c : Fin b) :
    broadcastTo ⟨2, ![a, b]⟩ (shapeCast ⟨2, ![1, b]⟩ x h) h' (ix2 p c) = x (ix1 c) :=
  (broadcastTo_1b_ab_apply _ h' p c).trans (shapeCast_a_1a_apply x h 0 c)

/-- A keep-dimensions column: a length-`a` vector `s` cast to `[a, 1]`, mapped entry by entry by `f`, and broadcast over
    `b` lanes reads, at `(p, c)`, `f` of the entry `p`. -/
theorem keepCol_apply {β : Type} {a b : ℕ} (x : (⟨1, ![a]⟩ : Shape).Idx → α) (h : (⟨1, ![a]⟩ : Shape).ShapeCasts ⟨2, ![a, 1]⟩)
    (f : α → β) (h' : (⟨2, ![a, 1]⟩ : Shape).Broadcasts ⟨2, ![a, b]⟩) (p : Fin a) (c : Fin b) :
    broadcastTo ⟨2, ![a, b]⟩ (fun i => f (shapeCast ⟨2, ![a, 1]⟩ x h i)) h' (ix2 p c) = f (x (ix1 p)) :=
  (broadcastTo_a1_ab_apply _ h' p c).trans (congrArg f (shapeCast_a_a1_apply x h p 0))

/-- The sum over the lanes of row `p` of an `[a, b]` vector, into the zero accumulator, at the ideal values. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src (funext fun ax => Fin.ext ?_)
  match ax with
  | ⟨0, _⟩ => rfl
  | ⟨1, _⟩ => rfl

/-- In a plain product the left operand's index at output `(r, j)` keeps the output row on its first axis; -/
theorem plain_lhs0 (M K N : ℕ) (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch by simp [DotDims.plain]),
    dif_pos (show (0 : Fin 2) ∈ (DotDims.plain M K N).lhsNonContracting by simp [DotDims.plain])]
  rfl
/-- and the right operand's keeps the output lane on its second. -/
theorem plain_rhs1 (M K N : ℕ) (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch by simp [DotDims.plain]),
    dif_pos (show (1 : Fin 2) ∈ (DotDims.plain M K N).rhsNonContracting by simp [DotDims.plain])]
  rfl

/-- A plain `M×K` by `K×N` product into the zero accumulator, at `(r, j)`: the sum over `k` of `lhs (r, k) * rhs (k, j)`. -/
theorem matmul_plain_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (r : Fin M) (j : Fin N) :
    FloatOps.matmul d prec lhs rhs (constant ⟨2, ![M, N]⟩ .f32 0x00000000#32) (ix2 r j)
      = ∑ k : Fin K, lhs (ix2 r k) * rhs (ix2 k j) := by
  subst hd
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r j) ((contrEquiv1 (DotDims.plain M K N) K rfl rfl).symm k) = ix2 r k :=
    funext fun ax => Fin.ext (by
      match ax with
      | ⟨0, _⟩ => exact plain_lhs0 M K N _ _
      | ⟨1, _⟩ => exact ((DotDims.plain M K N).lhsIdx_val_of_single (cl := (1 : Fin 2)) rfl _ _).trans hk)
  have er : (DotDims.plain M K N).rhsIdx (ix2 r j) ((contrEquiv1 (DotDims.plain M K N) K rfl rfl).symm k) = ix2 k j :=
    funext fun ax => Fin.ext (by
      match ax with
      | ⟨0, _⟩ => exact ((DotDims.plain M K N).rhsIdx_val_of_single (cr := (0 : Fin 2)) rfl _ _).trans hk
      | ⟨1, _⟩ => exact plain_rhs1 M K N _ _)
  rw [el, er]

/-- A sum over `Fin (m + n)` is the sum over its first `m` indices plus the sum over its last `n`. -/
theorem sum_fin_split {M : Type} [AddCommMonoid M] (m n : ℕ) (f : Fin (m + n) → M) :
    ∑ k, f k = (∑ a : Fin m, f ⟨a.val, by omega⟩) + ∑ a : Fin n, f ⟨m + a.val, by omega⟩ :=
  Fin.sum_univ_add f

end Cert.LibRowOps

end
-- ==== Proof.RegionPay.lean ====
/-
  What one grid point of each region computes, entry by entry, at the ideal values.

  A linear region's point takes a block `a` of neighbourhood means and the matching block `x` of node features
  (5000 rows each), the two weight matrices and a one-row bias, and stores
      (a·Wl + x·Wr) + (the bias row repeated over the rows);
  the changes of float format in front of the two products are the identity on the extended reals, so the entry at
  `(p, q)` is `Cert.Sage.linAt` of the blocks.  A normalising region's point takes a block `y` and four one-row
  arrays (mean, variance, scale, shift) and stores, at `(p, q)`, `Cert.Sage.bnReluAt` of `y (p, q)` and entry `q`
  of each row.
-/
import proofs.«106070_j38113539785173_1_alg».proof.Proof.Gen.KernelIdeal.Skeleton
import proofs.«106070_j38113539785173_1_alg».proof.Proof.Spec
import proofs.«106070_j38113539785173_1_alg».proof.Proof.LibRowOps

noncomputable section

namespace Cert.KernelIdeal.Regions

open Idealize.ShloMosaic Idealize.ShloMosaic.ValueIdx

/-- The one row of a `1 × d` array, as a length-`d` array. -/
def row1 {d : ℕ} (A : Cert.Sage.Mat 1 d) : Cert.Sage.Row d := fun j => A (ix2 0 (j 0))

theorem row1_apply {d : ℕ} (A : Cert.Sage.Mat 1 d) (q : Fin d) : row1 A (ix1 q) = A (ix2 0 q) := rfl

/-- Two plain products into zero accumulators, added, plus a one-row bias repeated over the rows: at `(p, q)` this is
    the layer's entry. -/
theorem linPay_apply {n c d : ℕ} (D : DotDims ⟨2, ![n, c]⟩ ⟨2, ![c, d]⟩ ⟨2, ![n, d]⟩) (hD : D = DotDims.plain n c d)
    (a x : FVec Ideal ⟨2, ![n, c]⟩ .f32) (Wl Wr : FVec Ideal ⟨2, ![c, d]⟩ .f32) (b : FVec Ideal ⟨2, ![1, d]⟩ .f32)
    (hb : (⟨2, ![1, d]⟩ : Shape).Broadcasts ⟨2, ![n, d]⟩) (ht : FTy.bf16.bits < FTy.f32.bits) (p : Fin n) (q : Fin d) :
    addf (addf (matmul D none (truncf .bf16 a ht) (truncf .bf16 Wl ht) (constant ⟨2, ![n, d]⟩ .f32 0x00000000#32))
        (matmul D none (truncf .bf16 x ht) (truncf .bf16 Wr ht) (constant ⟨2, ![n, d]⟩ .f32 0x00000000#32)))
      (broadcastTo ⟨2, ![n, d]⟩ b hb) (ix2 p q)
      = Cert.Sage.linAt a x Wl Wr (row1 b) p q := by
  rw [addf_apply, addf_apply, broadcastTo_1b_ab_apply]
  unfold Cert.Sage.linAt
  rw [row1_apply]
  refine congrArg (· + b (ix2 0 q)) ?_
  refine congrArg₂ (· + ·) ?_ ?_
  · exact Cert.LibRowOps.matmul_plain_apply D hD none _ _ p q
  · exact Cert.LibRowOps.matmul_plain_apply D hD none _ _ p q

/-- Region 0's stored value at `(p, q)`. -/
theorem pay0_apply (v0 v3 : Vec Ideal S5000x64 .f32) (v5 v7 : Vec Ideal S64x64 .f32) (v12 : Vec Ideal S1x64 .f32)
    (p : Fin 5000) (q : Fin 64) :
    Gen.k0_pay1 v0 v3 v5 v7 v12 (ix2 p q) = Cert.Sage.linAt v0 v3 v5 v7 (row1 v12) p q := by
  unfold Gen.k0_pay1
  simp only [shapeCast_self]
  exact linPay_apply _ rfl v0 v3 v5 v7 v12 _ _ p q

/-- Region 2's stored value at `(p, q)`. -/
theorem pay2_apply (v0 v3 : Vec Ideal S5000x64 .f32) (v6 v8 : Vec Ideal S64x64 .f32) (v13 : Vec Ideal S1x64 .f32)
    (p : Fin 5000) (q : Fin 64) :
    Gen.k2_pay1 v0 v3 v6 v8 v13 (ix2 p q) = Cert.Sage.linAt v0 v3 v6 v8 (row1 v13) p q := by
  unfold Gen.k2_pay1
  simp only [shapeCast_self]
  exact linPay_apply _ rfl v0 v3 v6 v8 v13 _ _ p q

/-- Region 4's stored value at `(p, q)`. -/
theorem pay4_apply (v0 v3 : Vec Ideal S5000x64 .f32) (v6 v8 : Vec Ideal S64x40 .f32) (v13 : Vec Ideal S1x40 .f32)
    (p : Fin 5000) (q : Fin 40) :
    Gen.k4_pay1 v0 v3 v6 v8 v13 (ix2 p q) = Cert.Sage.linAt v0 v3 v6 v8 (row1 v13) p q := by
  unfold Gen.k4_pay1
  simp only [shapeCast_self]
  exact linPay_apply _ rfl v0 v3 v6 v8 v13 _ _ p q

/-- A block normalised by one-row statistics, scaled, shifted and rectified: at `(p, q)` the rectified entry. -/
theorem bnPay_apply {n c : ℕ} (y : FVec Ideal ⟨2, ![n, c]⟩ .f32) (mu var g be : FVec Ideal ⟨2, ![1, c]⟩ .f32)
    (hb : (⟨2, ![1, c]⟩ : Shape).Broadcasts ⟨2, ![n, c]⟩) (p : Fin n) (q : Fin c) :
    maximumf (addf (mulf (mulf (subf y (broadcastTo ⟨2, ![n, c]⟩ mu hb))
        (broadcastTo ⟨2, ![n, c]⟩ (rsqrt (addf var (broadcast ⟨2, ![1, c]⟩ (Scalar.ofBits (F := Ideal) .f32 0x3727C5AC#32)))) hb))
        (broadcastTo ⟨2, ![n, c]⟩ g hb)) (broadcastTo ⟨2, ![n, c]⟩ be hb))
      (broadcast ⟨2, ![n, c]⟩ (Scalar.ofBits (F := Ideal) .f32 0x00000000#32)) (ix2 p q)
      = Cert.Sage.bnReluAt (y (ix2 p q)) (row1 mu (ix1 q)) (row1 var (ix1 q)) (row1 g (ix1 q)) (row1 be (ix1 q)) := by
  rw [maximumf_apply, addf_apply, mulf_apply, mulf_apply, subf_apply, broadcast_apply,
    broadcastTo_1b_ab_apply, broadcastTo_1b_ab_apply, broadcastTo_1b_ab_apply, broadcastTo_1b_ab_apply]
  rfl

/-- Region 1's stored value at `(p, q)`. -/
theorem pay1_apply (v0 : Vec Ideal S1x64 .f32) (v5 : Vec Ideal S5000x64 .f32) (v7 v13 v17 : Vec Ideal S1x64 .f32)
    (p : Fin 5000) (q : Fin 64) :
    Gen.k1_pay1 v0 v5 v7 v13 v17 (ix2 p q)
      = Cert.Sage.bnReluAt (v5 (ix2 p q)) (row1 v7 (ix1 q)) (row1 v0 (ix1 q)) (row1 v13 (ix1 q)) (row1 v17 (ix1 q)) := by
  unfold Gen.k1_pay1
  simp only [shapeCast_self]
  exact bnPay_apply v5 v7 v0 v13 v17 _ p q

/-- Region 3's stored value at `(p, q)`. -/
theorem pay3_apply (v0 : Vec Ideal S1x64 .f32) (v5 : Vec Ideal S5000x64 .f32) (v7 v13 v17 : Vec Ideal S1x64 .f32)
    (p : Fin 5000) (q : Fin 64) :
    Gen.k3_pay1 v0 v5 v7 v13 v17 (ix2 p q)
      = Cert.Sage.bnReluAt (v5 (ix2 p q)) (row1 v7 (ix1 q)) (row1 v0 (ix1 q)) (row1 v13 (ix1 q)) (row1 v17 (ix1 q)) := by
  unfold Gen.k3_pay1
  simp only [shapeCast_self]
  exact bnPay_apply v5 v7 v0 v13 v17 _ p q

end Cert.KernelIdeal.Regions

end
-- ==== Proof.Region0.lean ====
/-
  Region 0 (a linear layer) as one whole-array function of the buffers it finds.

  The region's grid has 20 points; point `t` takes rows `5000 t … 5000 t + 4999` of the neighbourhood means and of the
  node features, the whole of the two weight matrices and of the one-row bias, and writes back rows
  `5000 t … 5000 t + 4999` of the result.  What it writes back is those rows of the layer `Cert.Sage.lin` of the
  whole arrays, because an entry of the layer in row `r` reads only row `r` of the two row operands.  The twenty
  blocks cover all 100000 rows, so the result array ends holding the layer.
-/
import proofs.«106070_j38113539785173_1_alg».proof.Proof.Gen.KernelIdeal.Frame
import proofs.«106070_j38113539785173_1_alg».proof.Proof.RegionPay
import Idealize.ShloMosaic.Lib.Pipeline.Value

noncomputable section

namespace Cert.KernelIdeal.Regions.R0

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the 20 points: the two row operands and the result move by whole blocks of
    rows with the point, the weights and the bias stay at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ t.val < 20 :=
  (by decide +kernel : ∀ t : Fin grid0.N, _)

/-- Window 0's block at point `t` is rows `5000 t …` of its array. -/
theorem iblk_0_apply (c : Dev nD) (t : Fin cfg0.N) (p : Fin 5000) (k : Fin 64) (P : Fin 100000) (hP : P.val = 5000 * t.val + p.val) :
    (iblk0 V c 0 t : Vec Ideal S5000x64 .f32) (ix2 p k) = (V c main_v22 : S100000x64.Idx → EReal) (ix2 P k) := by
  obtain ⟨e00, e01, e10, e11, e20, e21, e30, e31, e40, e41, e50, e51, ht⟩ := idx_facts t
  unfold iblk0
  rw [View.read_apply]
  show V c main_v22 _ = V c main_v22 _
  congr 1
  funext a
  apply Fin.ext
  match a with
  | ⟨0, _⟩ => show win0_0.index t (0 : Fin 2) * 5000 + 1 * p.val = P.val; omega
  | ⟨1, _⟩ => show win0_0.index t (1 : Fin 2) * 64 + 1 * k.val = k.val; omega

/-- Window 1's block at point `t` is rows `5000 t …` of its array. -/
theorem iblk_1_apply (c : Dev nD) (t : Fin cfg0.N) (p : Fin 5000) (k : Fin 64) (P : Fin 100000) (hP : P.val = 5000 * t.val + p.val) :
    (iblk0 V c 1 t : Vec Ideal S5000x64 .f32) (ix2 p k) = (V c main_arg0 : S100000x64.Idx → EReal) (ix2 P k) := by
  obtain ⟨e00, e01, e10, e11, e20, e21, e30, e31, e40, e41, e50, e51, ht⟩ := idx_facts t
  unfold iblk0
  rw [View.read_apply]
  show V c main_arg0 _ = V c main_arg0 _
  congr 1
  funext a
  apply Fin.ext
  match a with
  | ⟨0, _⟩ => show win0_1.index t (0 : Fin 2) * 5000 + 1 * p.val = P.val; omega
  | ⟨1, _⟩ => show win0_1.index t (1 : Fin 2) * 64 + 1 * k.val = k.val; omega

/-- Window 2's block at every point is its whole array. -/
theorem iblk_2_apply (c : Dev nD) (t : Fin cfg0.N) (k : Fin 64) (q : Fin 64) :
    (iblk0 V c 2 t : Vec Ideal S64x64 .f32) (ix2 k q) = (V c main_arg2 : S64x64.Idx → EReal) (ix2 k q) := by
  obtain ⟨e00, e01, e10, e11, e20, e21, e30, e31, e40, e41, e50, e51, ht⟩ := idx_facts t
  unfold iblk0
  rw [View.read_apply]
  show V c main_arg2 _ = V c main_arg2 _
  congr 1
  funext a
  apply Fin.ext
  match a with
  | ⟨0, _⟩ => show win0_2.index t (0 : Fin 2) * 64 + 1 * k.val = k.val; omega
  | ⟨1, _⟩ => show win0_2.index t (1 : Fin 2) * 64 + 1 * q.val = q.val; omega

/-- Window 3's block at every point is its whole array. -/
theorem iblk_3_apply (c : Dev nD) (t : Fin cfg0.N) (k : Fin 64) (q : Fin 64) :
    (iblk0 V c 3 t : Vec Ideal S64x64 .f32) (ix2 k q) = (V c main_arg3 : S64x64.Idx → EReal) (ix2 k q) := by
  obtain ⟨e00, e01, e10, e11, e20, e21, e30, e31, e40, e41, e50, e51, ht⟩ := idx_facts t
  unfold iblk0
  rw [View.read_apply]
  show V c main_arg3 _ = V c main_arg3 _
  congr 1
  funext a
  apply Fin.ext
  match a with
  | ⟨0, _⟩ => show win0_3.index t (0 : Fin 2) * 64 + 1 * k.val = k.val; omega
  | ⟨1, _⟩ => show win0_3.index t (1 : Fin 2) * 64 + 1 * q.val = q.val; omega

/-- Window 4's block at every point is its whole one-row array. -/
theorem iblk_4_apply (c : Dev nD) (t : Fin cfg0.N) (u : Fin 1) (q : Fin 64) :
    (iblk0 V c 4 t : Vec Ideal S1x64 .f32) (ix2 u q) = (V c main_v23 : S1x64.Idx → EReal) (ix2 u q) := by
  obtain ⟨e00, e01, e10, e11, e20, e21, e30, e31, e40, e41, e50, e51, ht⟩ := idx_facts t
  unfold iblk0
  rw [View.read_apply]
  show V c main_v23 _ = V c main_v23 _
  congr 1
  funext a
  apply Fin.ext
  match a with
  | ⟨0, _⟩ => show win0_4.index t (0 : Fin 2) * 1 + 1 * u.val = u.val; omega
  | ⟨1, _⟩ => show win0_4.index t (1 : Fin 2) * 64 + 1 * q.val = q.val; omega

/-- The result window's block at point `t` sits at rows `5000 t …` of the result array. -/
theorem emb_5 (t : Fin cfg0.N) (p : Fin 5000) (q : Fin 64) (P : Fin 100000) (hP : P.val = 5000 * t.val + p.val) :
    ((cfg0.win 5).blk t).view.emb (ix2 p q) = (ix2 P q : S100000x64.Idx) := by
  obtain ⟨e00, e01, e10, e11, e20, e21, e30, e31, e40, e41, e50, e51, ht⟩ := idx_facts t
  funext a
  apply Fin.ext
  match a with
  | ⟨0, _⟩ => show win0_5.index t (0 : Fin 2) * 5000 + 1 * p.val = P.val; omega
  | ⟨1, _⟩ => show win0_5.index t (1 : Fin 2) * 64 + 1 * q.val = q.val; omega

/-- The layer of the arrays the region finds. -/
abbrev G (c : Dev nD) : Cert.Sage.Mat 100000 64 :=
  Cert.Sage.lin (V c main_v22) (V c main_arg0) (V c main_arg2) (V c main_arg3) (row1 (V c main_v23))

/-- What point `t` writes back is block `t` of the layer of the whole arrays. -/
theorem flushed_eq (c : Dev nD) (t : Fin cfg0.N) :
    (dat0 V c).flushed 5 t = ((cfg0.win 5).blk t).view.read (Elt Ideal) (G V c) := by
  show (cfg0.win 5).cut (grid0.coords t) ((dat0 V c).after 5 t) = _
  rw [after0_5]
  unfold out0_5
  rw [View.canon_unit_zero hz]
  simp only [View.ld_unit_zero (S := S5000x64) hz, View.ld_unit_zero (S := S64x64) hz, View.ld_unit_zero (S := S1x64) hz]
  obtain ⟨e00, e01, e10, e11, e20, e21, e30, e31, e40, e41, e50, e51, ht⟩ := idx_facts t
  funext j
  obtain ⟨p, q, rfl⟩ : ∃ (p : Fin 5000) (q : Fin 64), j = ix2 p q := ⟨j 0, j 1, eq_ix2 (n0 := 5000) (n1 := 64) j⟩
  have hP : 5000 * t.val + p.val < 100000 := by have := p.isLt; omega
  rw [View.read_apply, emb_5 t p q ⟨_, hP⟩ rfl]
  show k0_pay1 (iblk0 V c 0 t) (iblk0 V c 1 t) (iblk0 V c 2 t) (iblk0 V c 3 t) (iblk0 V c 4 t) (ix2 p q)
    = Cert.Sage.lin (V c main_v22) (V c main_arg0) (V c main_arg2) (V c main_arg3) (row1 (V c main_v23)) (ix2 ⟨5000 * t.val + p.val, hP⟩ q)
  rw [pay0_apply, Cert.Sage.lin_apply]
  unfold Cert.Sage.linAt
  refine congrArg₂ (· + ·) (congrArg₂ (· + ·) ?_ ?_) ?_
  · exact Finset.sum_congr rfl fun k _ => congrArg₂ (· * ·) (iblk_0_apply V c t p k ⟨_, hP⟩ rfl) (iblk_2_apply V c t k q)
  · exact Finset.sum_congr rfl fun k _ => congrArg₂ (· * ·) (iblk_1_apply V c t p k ⟨_, hP⟩ rfl) (iblk_3_apply V c t k q)
  · exact iblk_4_apply V c t 0 q

/-- An index of the result array is in point `t`'s block iff each coordinate is in the block's range on its axis. -/
theorem mem_blk (t : Fin cfg0.N) (i : S100000x64.Idx) :
    i ∈ ((cfg0.win 5).blk t).view.set ↔ ∀ a : Fin 2, win0_5.index t a * S5000x64.size a ≤ (i a).val ∧ (i a).val < win0_5.index t a * S5000x64.size a + S5000x64.size a := by
  show i ∈ ((View.whole main_v24).slice (win0_5.rect t)).set ↔ _
  rw [View.set_slice_whole, Rect.mem_set_unit]
  exact Iff.rfl

/-- Every index of the result array lies in some point's block: row `r` in the block of point `r / 5000`. -/
theorem cover (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  have hN : cfg0.N = 20 := N_0
  refine ⟨⟨(i 0).val / 5000, by rw [hN]; omega⟩, flush0_5 _, ?_⟩
  rw [mem_blk]
  obtain ⟨e00, e01, e10, e11, e20, e21, e30, e31, e40, e41, e50, e51, ht⟩ := idx_facts ⟨(i 0).val / 5000, by rw [hN]; omega⟩
  intro a
  match a with
  | ⟨0, _⟩ =>
    show win0_5.index ⟨(i 0).val / 5000, _⟩ (0 : Fin 2) * 5000 ≤ (i 0).val ∧ (i 0).val < win0_5.index ⟨(i 0).val / 5000, _⟩ (0 : Fin 2) * 5000 + 5000
    rw [e50]
    show (i 0).val / 5000 * 5000 ≤ (i 0).val ∧ (i 0).val < (i 0).val / 5000 * 5000 + 5000
    omega
  | ⟨1, _⟩ =>
    show win0_5.index ⟨(i 0).val / 5000, _⟩ (1 : Fin 2) * 64 ≤ (i 1).val ∧ (i 1).val < win0_5.index ⟨(i 0).val / 5000, _⟩ (1 : Fin 2) * 64 + 64
    rw [e51]
    omega

end Cert.KernelIdeal.Regions.R0

namespace Cert.KernelIdeal.Regions

open Cert.KernelIdeal Idealize.ShloMosaic Idealize.ShloMosaic.TcCoe Idealize.SL.Sem

variable (V : (c : Dev nD) → (b : Ref sig .tc) → Buf (Elt Ideal) ((c : Thread nD τ).loc b))

/-- After region 0's twenty write-backs its result array holds the layer of the arrays the region found. -/
theorem region0_value (c : Dev nD) :
    (Gen.dat0 (F := Ideal) V c).arrAt 5 cfg0.N
      = Cert.Sage.lin (V c main_v22) (V c main_arg0) (V c main_arg2) (V c main_arg3) (row1 (V c main_v23)) :=
  (Gen.dat0 V c).arrAt_eq_of_cover 5 (R0.G V c) (fun t _ => R0.flushed_eq V c t) R0.cover

end Cert.KernelIdeal.Regions

end
-- ==== Proof.Region1.lean ====
/-
  Region 1 (normalise and rectify) as one whole-array function of the buffers it finds.

  The region's grid has 20 points; point `t` takes rows `5000 t … 5000 t + 4999` of the layer's output and the whole
  of the four one-row arrays (the channel means, the channel variances, the scale and the shift), and writes back rows
  `5000 t … 5000 t + 4999` of the result.  The stored entry at `(p, q)` depends only on the input's entry at `(p, q)`
  and on entry `q` of each row, so what a point writes back is its block of `Cert.Sage.bnRelu` of the whole arrays.
  The twenty blocks cover all 100000 rows, so the result array ends holding that function.
-/
import proofs.«106070_j38113539785173_1_alg».proof.Proof.Gen.KernelIdeal.Frame
import proofs.«106070_j38113539785173_1_alg».proof.Proof.RegionPay
import Idealize.ShloMosaic.Lib.Pipeline.Value

noncomputable section

namespace Cert.KernelIdeal.Regions.R1

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the 20 points: the input and the result move by whole blocks of rows with
    the point, the four one-row arrays stay at block (0, 0). -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ t.val < 20 :=
  (by decide +kernel : ∀ t : Fin grid1.N, _)

/-- Window 0's block at point `t` is rows `5000 t …` of its array. -/
theorem iblk_0_apply (c : Dev nD) (t : Fin cfg1.N) (p : Fin 5000) (q : Fin 64) (P : Fin 100000) (hP : P.val = 5000 * t.val + p.val) :
    (iblk1 V c 0 t : Vec Ideal S5000x64 .f32) (ix2 p q) = (V c main_v24 : S100000x64.Idx → EReal) (ix2 P q) := by
  obtain ⟨e00, e01, e10, e11, e20, e21, e30, e31, e40, e41, e50, e51, ht⟩ := idx_facts t
  unfold iblk1
  rw [View.read_apply]
  show V c main_v24 _ = V c main_v24 _
  congr 1
  funext a
  apply Fin.ext
  match a with
  | ⟨0, _⟩ => show win1_0.index t (0 : Fin 2) * 5000 + 1 * p.val = P.val; omega
  | ⟨1, _⟩ => show win1_0.index t (1 : Fin 2) * 64 + 1 * q.val = q.val; omega

/-- Window 1's block at every point is its whole one-row array (the channel means). -/
theorem iblk_1_apply (c : Dev nD) (t : Fin cfg1.N) (u : Fin 1) (q : Fin 64) :
    (iblk1 V c 1 t : Vec Ideal S1x64 .f32) (ix2 u q) = (V c main_v28 : S1x64.Idx → EReal) (ix2 u q) := by
  obtain ⟨e00, e01, e10, e11, e20, e21, e30, e31, e40, e41, e50, e51, ht⟩ := idx_facts t
  unfold iblk1
  rw [View.read_apply]
  show V c main_v28 _ = V c main_v28 _
  congr 1
  funext a
  apply Fin.ext
  match a with
  | ⟨0, _⟩ => show win1_1.index t (0 : Fin 2) * 1 + 1 * u.val = u.val; omega
  | ⟨1, _⟩ => show win1_1.index t (1 : Fin 2) * 64 + 1 * q.val = q.val; omega

/-- Window 2's block at every point is its whole one-row array (the channel variances). -/
theorem iblk_2_apply (c : Dev nD) (t : Fin cfg1.N) (u : Fin 1) (q : Fin 64) :
    (iblk1 V c 2 t : Vec Ideal S1x64 .f32) (ix2 u q) = (V c main_v29 : S1x64.Idx → EReal) (ix2 u q) := by
  obtain ⟨e00, e01, e10, e11, e20, e21, e30, e31, e40, e41, e50, e51, ht⟩ := idx_facts t
  unfold iblk1
  rw [View.read_apply]
  show V c main_v29 _ = V c main_v29 _
  congr 1
  funext a
  apply Fin.ext
  match a with
  | ⟨0, _⟩ => show win1_2.index t (0 : Fin 2) * 1 + 1 * u.val = u.val; omega
  | ⟨1, _⟩ => show win1_2.index t (1 : Fin 2) * 64 + 1 * q.val = q.val; omega

/-- Window 3's block at every point is its whole one-row array (the scale). -/
theorem iblk_3_apply (c : Dev nD) (t : Fin cfg1.N) (u : Fin 1) (q : Fin 64) :
    (iblk1 V c 3 t : Vec Ideal S1x64 .f32) (ix2 u q) = (V c main_v30 : S1x64.Idx → EReal) (ix2 u q) := by
  obtain ⟨e00, e01, e10, e11, e20, e21, e30, e31, e40, e41, e50, e51, ht⟩ := idx_facts t
  unfold iblk1
  rw [View.read_apply]
  show V c main_v30 _ = V c main_v30 _
  congr 1
  funext a
  apply Fin.ext
  match a with
  | ⟨0, _⟩ => show win1_3.index t (0 : Fin 2) * 1 + 1 * u.val = u.val; omega
  | ⟨1, _⟩ => show win1_3.index t (1 : Fin 2) * 64 + 1 * q.val = q.val; omega

/-- Window 4's block at every point is its whole one-row array (the shift). -/
theorem iblk_4_apply (c : Dev nD) (t : Fin cfg1.N) (u : Fin 1) (q : Fin 64) :
    (iblk1 V c 4 t : Vec Ideal S1x64 .f32) (ix2 u q) = (V c main_v31 : S1x64.Idx → EReal) (ix2 u q) := by
  obtain ⟨e00, e01, e10, e11, e20, e21, e30, e31, e40, e41, e50, e51, ht⟩ := idx_facts t
  unfold iblk1
  rw [View.read_apply]
  show V c main_v31 _ = V c main_v31 _
  congr 1
  funext a
  apply Fin.ext
  match a with
  | ⟨0, _⟩ => show win1_4.index t (0 : Fin 2) * 1 + 1 * u.val = u.val; omega
  | ⟨1, _⟩ => show win1_4.index t (1 : Fin 2) * 64 + 1 * q.val = q.val; omega

/-- The result window's block at point `t` sits at rows `5000 t …` of the result array. -/
theorem emb_5 (t : Fin cfg1.N) (p : Fin 5000) (q : Fin 64) (P : Fin 100000) (hP : P.val = 5000 * t.val + p.val) :
    ((cfg1.win 5).blk t).view.emb (ix2 p q) = (ix2 P q : S100000x64.Idx) := by
  obtain ⟨e00, e01, e10, e11, e20, e21, e30, e31, e40, e41, e50, e51, ht⟩ := idx_facts t
  funext a
  apply Fin.ext
  match a with
  | ⟨0, _⟩ => show win1_5.index t (0 : Fin 2) * 5000 + 1 * p.val = P.val; omega
  | ⟨1, _⟩ => show win1_5.index t (1 : Fin 2) * 64 + 1 * q.val = q.val; omega

/-- The arrays the region finds, normalised channel by channel, scaled, shifted and rectified. -/
abbrev G (c : Dev nD) : Cert.Sage.Mat 100000 64 :=
  Cert.Sage.bnRelu (V c main_v24) (row1 (V c main_v28)) (row1 (V c main_v29)) (row1 (V c main_v30)) (row1 (V c main_v31))

/-- What point `t` writes back is block `t` of that function of the whole arrays. -/
theorem flushed_eq (c : Dev nD) (t : Fin cfg1.N) :
    (dat1 V c).flushed 5 t = ((cfg1.win 5).blk t).view.read (Elt Ideal) (G V c) := by
  show (cfg1.win 5).cut (grid1.coords t) ((dat1 V c).after 5 t) = _
  rw [after1_5]
  unfold out1_5
  rw [View.canon_unit_zero hz]
  simp only [View.ld_unit_zero (S := S5000x64) hz, View.ld_unit_zero (S := S1x64) hz]
  obtain ⟨e00, e01, e10, e11, e20, e21, e30, e31, e40, e41, e50, e51, ht⟩ := idx_facts t
  funext j
  obtain ⟨p, q, rfl⟩ : ∃ (p : Fin 5000) (q : Fin 64), j = ix2 p q := ⟨j 0, j 1, eq_ix2 (n0 := 5000) (n1 := 64) j⟩
  have hP : 5000 * t.val + p.val < 100000 := by have := p.isLt; omega
  rw [View.read_apply, emb_5 t p q ⟨_, hP⟩ rfl]
  show k1_pay1 (iblk1 V c 2 t) (iblk1 V c 0 t) (iblk1 V c 1 t) (iblk1 V c 3 t) (iblk1 V c 4 t) (ix2 p q)
    = Cert.Sage.bnRelu (V c main_v24) (row1 (V c main_v28)) (row1 (V c main_v29)) (row1 (V c main_v30)) (row1 (V c main_v31)) (ix2 ⟨5000 * t.val + p.val, hP⟩ q)
  rw [pay1_apply, Cert.Sage.bnRelu_apply, row1_apply, row1_apply, row1_apply, row1_apply, row1_apply, row1_apply, row1_apply, row1_apply,
    iblk_0_apply V c t p q ⟨_, hP⟩ rfl, iblk_1_apply V c t 0 q, iblk_2_apply V c t 0 q, iblk_3_apply V c t 0 q, iblk_4_apply V c t 0 q]

/-- An index of the result array is in point `t`'s block iff each coordinate is in the block's range on its axis. -/
theorem mem_blk (t : Fin cfg1.N) (i : S100000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v32).slice (win1_5.rect t)).set ↔ _
  rw [View.set_slice_whole, Rect.mem_set_unit]
  exact Iff.rfl

/-- Every index of the result array lies in some point's block: row `r` in the block of point `r / 5000`. -/
theorem cover (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  have hN : cfg1.N = 20 := N_1
  refine ⟨⟨(i 0).val / 5000, by rw [hN]; omega⟩, flush1_5 _, ?_⟩
  rw [mem_blk]
  obtain ⟨e00, e01, e10, e11, e20, e21, e30, e31, e40, e41, e50, e51, ht⟩ := idx_facts ⟨(i 0).val / 5000, by rw [hN]; omega⟩
  intro a
  match a with
  | ⟨0, _⟩ =>
    show win1_5.index ⟨(i 0).val / 5000, _⟩ (0 : Fin 2) * 5000 ≤ (i 0).val ∧ (i 0).val < win1_5.index ⟨(i 0).val / 5000, _⟩ (0 : Fin 2) * 5000 + 5000
    rw [e50]
    show (i 0).val / 5000 * 5000 ≤ (i 0).val ∧ (i 0).val < (i 0).val / 5000 * 5000 + 5000
    omega
  | ⟨1, _⟩ =>
    show win1_5.index ⟨(i 0).val / 5000, _⟩ (1 : Fin 2) * 64 ≤ (i 1).val ∧ (i 1).val < win1_5.index ⟨(i 0).val / 5000, _⟩ (1 : Fin 2) * 64 + 64
    rw [e51]
    omega

end Cert.KernelIdeal.Regions.R1

namespace Cert.KernelIdeal.Regions

open Cert.KernelIdeal Idealize.ShloMosaic Idealize.ShloMosaic.TcCoe Idealize.SL.Sem

variable (V : (c : Dev nD) → (b : Ref sig .tc) → Buf (Elt Ideal) ((c : Thread nD τ).loc b))

/-- After region 1's twenty write-backs its result array holds the normalised and rectified array. -/
theorem region1_value (c : Dev nD) :
    (Gen.dat1 (F := Ideal) V c).arrAt 5 cfg1.N
      = Cert.Sage.bnRelu (V c main_v24) (row1 (V c main_v28)) (row1 (V c main_v29)) (row1 (V c main_v30)) (row1 (V c main_v31)) :=
  (Gen.dat1 V c).arrAt_eq_of_cover 5 (R1.G V c) (fun t _ => R1.flushed_eq V c t) R1.cover

end Cert.KernelIdeal.Regions

end
-- ==== Proof.Region2.lean ====
/-
  Region 2 (a linear layer) as one whole-array function of the buffers it finds.

  The region's grid has 20 points; point `t` takes rows `5000 t … 5000 t + 4999` of the neighbourhood means and of the
  node features, the whole of the two weight matrices and of the one-row bias, and writes back rows
  `5000 t … 5000 t + 4999` of the result.  What it writes back is those rows of the layer `Cert.Sage.lin` of the
  whole arrays, because an entry of the layer in row `r` reads only row `r` of the two row operands.  The twenty
  blocks cover all 100000 rows, so the result array ends holding the layer.
-/
import proofs.«106070_j38113539785173_1_alg».proof.Proof.Gen.KernelIdeal.Frame
import proofs.«106070_j38113539785173_1_alg».proof.Proof.RegionPay
import Idealize.ShloMosaic.Lib.Pipeline.Value

noncomputable section

namespace Cert.KernelIdeal.Regions.R2

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the 20 points: the two row operands and the result move by whole blocks of
    rows with the point, the weights and the bias stay at block (0, 0). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0
    ∧ t.val < 20 :=
  (by decide +kernel : ∀ t : Fin grid2.N, _)

/-- Window 0's block at point `t` is rows `5000 t …` of its array. -/
theorem iblk_0_apply (c : Dev nD) (t : Fin cfg2.N) (p : Fin 5000) (k : Fin 64) (P : Fin 100000) (hP : P.val = 5000 * t.val + p.val) :
    (iblk2 V c 0 t : Vec Ideal S5000x64 .f32) (ix2 p k) = (V c main_v51 : S100000x64.Idx → EReal) (ix2 P k) := by
  obtain ⟨e00, e01, e10, e11, e20, e21, e30, e31, e40, e41, e50, e51, ht⟩ := idx_facts t
  unfold iblk2
  rw [View.read_apply]
  show V c main_v51 _ = V c main_v51 _
  congr 1
  funext a
  apply Fin.ext
  match a with
  | ⟨0, _⟩ => show win2_0.index t (0 : Fin 2) * 5000 + 1 * p.val = P.val; omega
  | ⟨1, _⟩ => show win2_0.index t (1 : Fin 2) * 64 + 1 * k.val = k.val; omega

/-- Window 1's block at point `t` is rows `5000 t …` of its array. -/
theorem iblk_1_apply (c : Dev nD) (t : Fin cfg2.N) (p : Fin 5000) (k : Fin 64) (P : Fin 100000) (hP : P.val = 5000 * t.val + p.val) :
    (iblk2 V c 1 t : Vec Ideal S5000x64 .f32) (ix2 p k) = (V c main_v32 : S100000x64.Idx → EReal) (ix2 P k) := by
  obtain ⟨e00, e01, e10, e11, e20, e21, e30, e31, e40, e41, e50, e51, ht⟩ := idx_facts t
  unfold iblk2
  rw [View.read_apply]
  show V c main_v32 _ = V c main_v32 _
  congr 1
  funext a
  apply Fin.ext
  match a with
  | ⟨0, _⟩ => show win2_1.index t (0 : Fin 2) * 5000 + 1 * p.val = P.val; omega
  | ⟨1, _⟩ => show win2_1.index t (1 : Fin 2) * 64 + 1 * k.val = k.val; omega

/-- Window 2's block at every point is its whole array. -/
theorem iblk_2_apply (c : Dev nD) (t : Fin cfg2.N) (k : Fin 64) (q : Fin 64) :
    (iblk2 V c 2 t : Vec Ideal S64x64 .f32) (ix2 k q) = (V c main_arg5 : S64x64.Idx → EReal) (ix2 k q) := by
  obtain ⟨e00, e01, e10, e11, e20, e21, e30, e31, e40, e41, e50, e51, ht⟩ := idx_facts t
  unfold iblk2
  rw [View.read_apply]
  show V c main_arg5 _ = V c main_arg5 _
  congr 1
  funext a
  apply Fin.ext
  match a with
  | ⟨0, _⟩ => show win2_2.index t (0 : Fin 2) * 64 + 1 * k.val = k.val; omega
  | ⟨1, _⟩ => show win2_2.index t (1 : Fin 2) * 64 + 1 * q.val = q.val; omega

/-- Window 3's block at every point is its whole array. -/
theorem iblk_3_apply (c : Dev nD) (t : Fin cfg2.N) (k : Fin 64) (q : Fin 64) :
    (iblk2 V c 3 t : Vec Ideal S64x64 .f32) (ix2 k q) = (V c main_arg6 : S64x64.Idx → EReal) (ix2 k q) := by
  obtain ⟨e00, e01, e10, e11, e20, e21, e30, e31, e40, e41, e50, e51, ht⟩ := idx_facts t
  unfold iblk2
  rw [View.read_apply]
  show V c main_arg6 _ = V c main_arg6 _
  congr 1
  funext a
  apply Fin.ext
  match a with
  | ⟨0, _⟩ => show win2_3.index t (0 : Fin 2) * 64 + 1 * k.val = k.val; omega
  | ⟨1, _⟩ => show win2_3.index t (1 : Fin 2) * 64 + 1 * q.val = q.val; omega

/-- Window 4's block at every point is its whole one-row array. -/
theorem iblk_4_apply (c : Dev nD) (t : Fin cfg2.N) (u : Fin 1) (q : Fin 64) :
    (iblk2 V c 4 t : Vec Ideal S1x64 .f32) (ix2 u q) = (V c main_v52 : S1x64.Idx → EReal) (ix2 u q) := by
  obtain ⟨e00, e01, e10, e11, e20, e21, e30, e31, e40, e41, e50, e51, ht⟩ := idx_facts t
  unfold iblk2
  rw [View.read_apply]
  show V c main_v52 _ = V c main_v52 _
  congr 1
  funext a
  apply Fin.ext
  match a with
  | ⟨0, _⟩ => show win2_4.index t (0 : Fin 2) * 1 + 1 * u.val = u.val; omega
  | ⟨1, _⟩ => show win2_4.index t (1 : Fin 2) * 64 + 1 * q.val = q.val; omega

/-- The result window's block at point `t` sits at rows `5000 t …` of the result array. -/
theorem emb_5 (t : Fin cfg2.N) (p : Fin 5000) (q : Fin 64) (P : Fin 100000) (hP : P.val = 5000 * t.val + p.val) :
    ((cfg2.win 5).blk t).view.emb (ix2 p q) = (ix2 P q : S100000x64.Idx) := by
  obtain ⟨e00, e01, e10, e11, e20, e21, e30, e31, e40, e41, e50, e51, ht⟩ := idx_facts t
  funext a
  apply Fin.ext
  match a with
  | ⟨0, _⟩ => show win2_5.index t (0 : Fin 2) * 5000 + 1 * p.val = P.val; omega
  | ⟨1, _⟩ => show win2_5.index t (1 : Fin 2) * 64 + 1 * q.val = q.val; omega

/-- The layer of the arrays the region finds. -/
abbrev G (c : Dev nD) : Cert.Sage.Mat 100000 64 :=
  Cert.Sage.lin (V c main_v51) (V c main_v32) (V c main_arg5) (V c main_arg6) (row1 (V c main_v52))

/-- What point `t` writes back is block `t` of the layer of the whole arrays. -/
theorem flushed_eq (c : Dev nD) (t : Fin cfg2.N) :
    (dat2 V c).flushed 5 t = ((cfg2.win 5).blk t).view.read (Elt Ideal) (G V c) := by
  show (cfg2.win 5).cut (grid2.coords t) ((dat2 V c).after 5 t) = _
  rw [after2_5]
  unfold out2_5
  rw [View.canon_unit_zero hz]
  simp only [View.ld_unit_zero (S := S5000x64) hz, View.ld_unit_zero (S := S64x64) hz, View.ld_unit_zero (S := S1x64) hz]
  obtain ⟨e00, e01, e10, e11, e20, e21, e30, e31, e40, e41, e50, e51, ht⟩ := idx_facts t
  funext j
  obtain ⟨p, q, rfl⟩ : ∃ (p : Fin 5000) (q : Fin 64), j = ix2 p q := ⟨j 0, j 1, eq_ix2 (n0 := 5000) (n1 := 64) j⟩
  have hP : 5000 * t.val + p.val < 100000 := by have := p.isLt; omega
  rw [View.read_apply, emb_5 t p q ⟨_, hP⟩ rfl]
  show k2_pay1 (iblk2 V c 0 t) (iblk2 V c 1 t) (iblk2 V c 2 t) (iblk2 V c 3 t) (iblk2 V c 4 t) (ix2 p q)
    = Cert.Sage.lin (V c main_v51) (V c main_v32) (V c main_arg5) (V c main_arg6) (row1 (V c main_v52)) (ix2 ⟨5000 * t.val + p.val, hP⟩ q)
  rw [pay2_apply, Cert.Sage.lin_apply]
  unfold Cert.Sage.linAt
  refine congrArg₂ (· + ·) (congrArg₂ (· + ·) ?_ ?_) ?_
  · exact Finset.sum_congr rfl fun k _ => congrArg₂ (· * ·) (iblk_0_apply V c t p k ⟨_, hP⟩ rfl) (iblk_2_apply V c t k q)
  · exact Finset.sum_congr rfl fun k _ => congrArg₂ (· * ·) (iblk_1_apply V c t p k ⟨_, hP⟩ rfl) (iblk_3_apply V c t k q)
  · exact iblk_4_apply V c t 0 q

/-- An index of the result array is in point `t`'s block iff each coordinate is in the block's range on its axis. -/
theorem mem_blk (t : Fin cfg2.N) (i : S100000x64.Idx) :
    i ∈ ((cfg2.win 5).blk t).view.set ↔ ∀ a : Fin 2, win2_5.index t a * S5000x64.size a ≤ (i a).val ∧ (i a).val < win2_5.index t a * S5000x64.size a + S5000x64.size a := by
  show i ∈ ((View.whole main_v53).slice (win2_5.rect t)).set ↔ _
  rw [View.set_slice_whole, Rect.mem_set_unit]
  exact Iff.rfl

/-- Every index of the result array lies in some point's block: row `r` in the block of point `r / 5000`. -/
theorem cover (i : S100000x64.Idx) :
    ∃ t : Fin cfg2.N, (cfg2.win 5).flush t = true ∧ i ∈ ((cfg2.win 5).blk t).view.set := by
  have hi0 : (i 0).val < 100000 := (i 0).isLt
  have hi1 : (i 1).val < 64 := (i 1).isLt
  have hN : cfg2.N = 20 := N_2
  refine ⟨⟨(i 0).val / 5000, by rw [hN]; omega⟩, flush2_5 _, ?_⟩
  rw [mem_blk]
  obtain ⟨e00, e01, e10, e11, e20, e21, e30, e31, e40, e41, e50, e51, ht⟩ := idx_facts ⟨(i 0).val / 5000, by rw [hN]; omega⟩
  intro a
  match a with
  | ⟨0, _⟩ =>
    show win2_5.index ⟨(i 0).val / 5000, _⟩ (0 : Fin 2) * 5000 ≤ (i 0).val ∧ (i 0).val < win2_5.index ⟨(i 0).val / 5000, _⟩ (0 : Fin 2) * 5000 + 5000
    rw [e50]
    show (i 0).val / 5000 * 5000 ≤ (i 0).val ∧ (i 0).val < (i 0).val / 5000 * 5000 + 5000
    omega
  | ⟨1, _⟩ =>
    show win2_5.index ⟨(i 0).val / 5000, _⟩ (1 : Fin 2) * 64 ≤ (i 1).val ∧ (i 1).val < win2_5.index ⟨(i 0).val / 5000, _⟩ (1 : Fin 2) * 64 + 64
    rw [e51]
    omega

end Cert.KernelIdeal.Regions.R2

namespace Cert.KernelIdeal.Regions

open Cert.KernelIdeal Idealize.ShloMosaic Idealize.ShloMosaic.TcCoe Idealize.SL.Sem

variable (V : (c : Dev nD) → (b : Ref sig .tc) → Buf (Elt Ideal) ((c : Thread nD τ).loc b))

/-- After region 2's twenty write-backs its result array holds the layer of the arrays the region found. -/
theorem region2_value (c : Dev nD) :
    (Gen.dat2 (F := Ideal) V c).arrAt 5 cfg2.N
      = Cert.Sage.lin (V c main_v51) (V c main_v32) (V c main_arg5) (V c main_arg6) (row1 (V c main_v52)) :=
  (Gen.dat2 V c).arrAt_eq_of_cover 5 (R2.G V c) (fun t _ => R2.flushed_eq V c t) R2.cover

end Cert.KernelIdeal.Regions

end
-- ==== Proof.Region3.lean ====
/-
  Region 3 (normalise and rectify) as one whole-array function of the buffers it finds.

  The region's grid has 20 points; point `t` takes rows `5000 t … 5000 t + 4999` of the layer's output and the whole
  of the four one-row arrays (the channel means, the channel variances, the scale and the shift), and writes back rows
  `5000 t … 5000 t + 4999` of the result.  The stored entry at `(p, q)` depends only on the input's entry at `(p, q)`
  and on entry `q` of each row, so what a point writes back is its block of `Cert.Sage.bnRelu` of the whole arrays.
  The twenty blocks cover all 100000 rows, so the result array ends holding that function.
-/
import proofs.«106070_j38113539785173_1_alg».proof.Proof.Gen.KernelIdeal.Frame
import proofs.«106070_j38113539785173_1_alg».proof.Proof.RegionPay
import Idealize.ShloMosaic.Lib.Pipeline.Value

noncomputable section

namespace Cert.KernelIdeal.Regions.R3

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the 20 points: the input and the result move by whole blocks of rows with
    the point, the four one-row arrays stay at block (0, 0). -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0
    ∧ t.val < 20 :=
  (by decide +kernel : ∀ t : Fin grid3.N, _)

/-- Window 0's block at point `t` is rows `5000 t …` of its array. -/
theorem iblk_0_apply (c : Dev nD) (t : Fin cfg3.N) (p : Fin 5000) (q : Fin 64) (P : Fin 100000) (hP : P.val = 5000 * t.val + p.val) :
    (iblk3 V c 0 t : Vec Ideal S5000x64 .f32) (ix2 p q) = (V c main_v53 : S100000x64.Idx → EReal) (ix2 P q) := by
  obtain ⟨e00, e01, e10, e11, e20, e21, e30, e31, e40, e41, e50, e51, ht⟩ := idx_facts t
  unfold iblk3
  rw [View.read_apply]
  show V c main_v53 _ = V c main_v53 _
  congr 1
  funext a
  apply Fin.ext
  match a with
  | ⟨0, _⟩ => show win3_0.index t (0 : Fin 2) * 5000 + 1 * p.val = P.val; omega
  | ⟨1, _⟩ => show win3_0.index t (1 : Fin 2) * 64 + 1 * q.val = q.val; omega

/-- Window 1's block at every point is its whole one-row array (the channel means). -/
theorem iblk_1_apply (c : Dev nD) (t : Fin cfg3.N) (u : Fin 1) (q : Fin 64) :
    (iblk3 V c 1 t : Vec Ideal S1x64 .f32) (ix2 u q) = (V c main_v57 : S1x64.Idx → EReal) (ix2 u q) := by
  obtain ⟨e00, e01, e10, e11, e20, e21, e30, e31, e40, e41, e50, e51, ht⟩ := idx_facts t
  unfold iblk3
  rw [View.read_apply]
  show V c main_v57 _ = V c main_v57 _
  congr 1
  funext a
  apply Fin.ext
  match a with
  | ⟨0, _⟩ => show win3_1.index t (0 : Fin 2) * 1 + 1 * u.val = u.val; omega
  | ⟨1, _⟩ => show win3_1.index t (1 : Fin 2) * 64 + 1 * q.val = q.val; omega

/-- Window 2's block at every point is its whole one-row array (the channel variances). -/
theorem iblk_2_apply (c : Dev nD) (t : Fin cfg3.N) (u : Fin 1) (q : Fin 64) :
    (iblk3 V c 2 t : Vec Ideal S1x64 .f32) (ix2 u q) = (V c main_v58 : S1x64.Idx → EReal) (ix2 u q) := by
  obtain ⟨e00, e01, e10, e11, e20, e21, e30, e31, e40, e41, e50, e51, ht⟩ := idx_facts t
  unfold iblk3
  rw [View.read_apply]
  show V c main_v58 _ = V c main_v58 _
  congr 1
  funext a
  apply Fin.ext
  match a with
  | ⟨0, _⟩ => show win3_2.index t (0 : Fin 2) * 1 + 1 * u.val = u.val; omega
  | ⟨1, _⟩ => show win3_2.index t (1 : Fin 2) * 64 + 1 * q.val = q.val; omega

/-- Window 3's block at every point is its whole one-row array (the scale). -/
theorem iblk_3_apply (c : Dev nD) (t : Fin cfg3.N) (u : Fin 1) (q : Fin 64) :
    (iblk3 V c 3 t : Vec Ideal S1x64 .f32) (ix2 u q) = (V c main_v59 : S1x64.Idx → EReal) (ix2 u q) := by
  obtain ⟨e00, e01, e10, e11, e20, e21, e30, e31, e40, e41, e50, e51, ht⟩ := idx_facts t
  unfold iblk3
  rw [View.read_apply]
  show V c main_v59 _ = V c main_v59 _
  congr 1
  funext a
  apply Fin.ext
  match a with
  | ⟨0, _⟩ => show win3_3.index t (0 : Fin 2) * 1 + 1 * u.val = u.val; omega
  | ⟨1, _⟩ => show win3_3.index t (1 : Fin 2) * 64 + 1 * q.val = q.val; omega

/-- Window 4's block at every point is its whole one-row array (the shift). -/
theorem iblk_4_apply (c : Dev nD) (t : Fin cfg3.N) (u : Fin 1) (q : Fin 64) :
    (iblk3 V c 4 t : Vec Ideal S1x64 .f32) (ix2 u q) = (V c main_v60 : S1x64.Idx → EReal) (ix2 u q) := by
  obtain ⟨e00, e01, e10, e11, e20, e21, e30, e31, e40, e41, e50, e51, ht⟩ := idx_facts t
  unfold iblk3
  rw [View.read_apply]
  show V c main_v60 _ = V c main_v60 _
  congr 1
  funext a
  apply Fin.ext
  match a with
  | ⟨0, _⟩ => show win3_4.index t (0 : Fin 2) * 1 + 1 * u.val = u.val; omega
  | ⟨1, _⟩ => show win3_4.index t (1 : Fin 2) * 64 + 1 * q.val = q.val; omega

/-- The result window's block at point `t` sits at rows `5000 t …` of the result array. -/
theorem emb_5 (t : Fin cfg3.N) (p : Fin 5000) (q : Fin 64) (P : Fin 100000) (hP : P.val = 5000 * t.val + p.val) :
    ((cfg3.win 5).blk t).view.emb (ix2 p q) = (ix2 P q : S100000x64.Idx) := by
  obtain ⟨e00, e01, e10, e11, e20, e21, e30, e31, e40, e41, e50, e51, ht⟩ := idx_facts t
  funext a
  apply Fin.ext
  match a with
  | ⟨0, _⟩ => show win3_5.index t (0 : Fin 2) * 5000 + 1 * p.val = P.val; omega
  | ⟨1, _⟩ => show win3_5.index t (1 : Fin 2) * 64 + 1 * q.val = q.val; omega

/-- The arrays the region finds, normalised channel by channel, scaled, shifted and rectified. -/
abbrev G (c : Dev nD) : Cert.Sage.Mat 100000 64 :=
  Cert.Sage.bnRelu (V c main_v53) (row1 (V c main_v57)) (row1 (V c main_v58)) (row1 (V c main_v59)) (row1 (V c main_v60))

/-- What point `t` writes back is block `t` of that function of the whole arrays. -/
theorem flushed_eq (c : Dev nD) (t : Fin cfg3.N) :
    (dat3 V c).flushed 5 t = ((cfg3.win 5).blk t).view.read (Elt Ideal) (G V c) := by
  show (cfg3.win 5).cut (grid3.coords t) ((dat3 V c).after 5 t) = _
  rw [after3_5]
  unfold out3_5
  rw [View.canon_unit_zero hz]
  simp only [View.ld_unit_zero (S := S5000x64) hz, View.ld_unit_zero (S := S1x64) hz]
  obtain ⟨e00, e01, e10, e11, e20, e21, e30, e31, e40, e41, e50, e51, ht⟩ := idx_facts t
  funext j
  obtain ⟨p, q, rfl⟩ : ∃ (p : Fin 5000) (q : Fin 64), j = ix2 p q := ⟨j 0, j 1, eq_ix2 (n0 := 5000) (n1 := 64) j⟩
  have hP : 5000 * t.val + p.val < 100000 := by have := p.isLt; omega
  rw [View.read_apply, emb_5 t p q ⟨_, hP⟩ rfl]
  show k3_pay1 (iblk3 V c 2 t) (iblk3 V c 0 t) (iblk3 V c 1 t) (iblk3 V c 3 t) (iblk3 V c 4 t) (ix2 p q)
    = Cert.Sage.bnRelu (V c main_v53) (row1 (V c main_v57)) (row1 (V c main_v58)) (row1 (V c main_v59)) (row1 (V c main_v60)) (ix2 ⟨5000 * t.val + p.val, hP⟩ q)
  rw [pay3_apply, Cert.Sage.bnRelu_apply, row1_apply, row1_apply, row1_apply, row1_apply, row1_apply, row1_apply, row1_apply, row1_apply,
    iblk_0_apply V c t p q ⟨_, hP⟩ rfl, iblk_1_apply V c t 0 q, iblk_2_apply V c t 0 q, iblk_3_apply V c t 0 q, iblk_4_apply V c t 0 q]

/-- An index of the result array is in point `t`'s block iff each coordinate is in the block's range on its axis. -/
theorem mem_blk (t : Fin cfg3.N) (i : S100000x64.Idx) :
    i ∈ ((cfg3.win 5).blk t).view.set ↔ ∀ a : Fin 2, win3_5.index t a * S5000x64.size a ≤ (i a).val ∧ (i a).val < win3_5.index t a * S5000x64.size a + S5000x64.size a := by
  show i ∈ ((View.whole main_v61).slice (win3_5.rect t)).set ↔ _
  rw [View.set_slice_whole, Rect.mem_set_unit]
  exact Iff.rfl

/-- Every index of the result array lies in some point's block: row `r` in the block of point `r / 5000`. -/
theorem cover (i : S100000x64.Idx) :
    ∃ t : Fin cfg3.N, (cfg3.win 5).flush t = true ∧ i ∈ ((cfg3.win 5).blk t).view.set := by
  have hi0 : (i 0).val < 100000 := (i 0).isLt
  have hi1 : (i 1).val < 64 := (i 1).isLt
  have hN : cfg3.N = 20 := N_3
  refine ⟨⟨(i 0).val / 5000, by rw [hN]; omega⟩, flush3_5 _, ?_⟩
  rw [mem_blk]
  obtain ⟨e00, e01, e10, e11, e20, e21, e30, e31, e40, e41, e50, e51, ht⟩ := idx_facts ⟨(i 0).val / 5000, by rw [hN]; omega⟩
  intro a
  match a with
  | ⟨0, _⟩ =>
    show win3_5.index ⟨(i 0).val / 5000, _⟩ (0 : Fin 2) * 5000 ≤ (i 0).val ∧ (i 0).val < win3_5.index ⟨(i 0).val / 5000, _⟩ (0 : Fin 2) * 5000 + 5000
    rw [e50]
    show (i 0).val / 5000 * 5000 ≤ (i 0).val ∧ (i 0).val < (i 0).val / 5000 * 5000 + 5000
    omega
  | ⟨1, _⟩ =>
    show win3_5.index ⟨(i 0).val / 5000, _⟩ (1 : Fin 2) * 64 ≤ (i 1).val ∧ (i 1).val < win3_5.index ⟨(i 0).val / 5000, _⟩ (1 : Fin 2) * 64 + 64
    rw [e51]
    omega

end Cert.KernelIdeal.Regions.R3

namespace Cert.KernelIdeal.Regions

open Cert.KernelIdeal Idealize.ShloMosaic Idealize.ShloMosaic.TcCoe Idealize.SL.Sem

variable (V : (c : Dev nD) → (b : Ref sig .tc) → Buf (Elt Ideal) ((c : Thread nD τ).loc b))

/-- After region 3's twenty write-backs its result array holds the normalised and rectified array. -/
theorem region3_value (c : Dev nD) :
    (Gen.dat3 (F := Ideal) V c).arrAt 5 cfg3.N
      = Cert.Sage.bnRelu (V c main_v53) (row1 (V c main_v57)) (row1 (V c main_v58)) (row1 (V c main_v59)) (row1 (V c main_v60)) :=
  (Gen.dat3 V c).arrAt_eq_of_cover 5 (R3.G V c) (fun t _ => R3.flushed_eq V c t) R3.cover

end Cert.KernelIdeal.Regions

end
-- ==== Proof.Region4.lean ====
/-
  Region 4 (a linear layer) as one whole-array function of the buffers it finds.

  The region's grid has 20 points; point `t` takes rows `5000 t … 5000 t + 4999` of the neighbourhood means and of the
  node features, the whole of the two weight matrices and of the one-row bias, and writes back rows
  `5000 t … 5000 t + 4999` of the result.  What it writes back is those rows of the layer `Cert.Sage.lin` of the
  whole arrays, because an entry of the layer in row `r` reads only row `r` of the two row operands.  The twenty
  blocks cover all 100000 rows, so the result array ends holding the layer.
-/
import proofs.«106070_j38113539785173_1_alg».proof.Proof.Gen.KernelIdeal.Frame
import proofs.«106070_j38113539785173_1_alg».proof.Proof.RegionPay
import Idealize.ShloMosaic.Lib.Pipeline.Value

noncomputable section

namespace Cert.KernelIdeal.Regions.R4

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the 20 points: the two row operands and the result move by whole blocks of
    rows with the point, the weights and the bias stay at block (0, 0). -/
theorem idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0
    ∧ t.val < 20 :=
  (by decide +kernel : ∀ t : Fin grid4.N, _)

/-- Window 0's block at point `t` is rows `5000 t …` of its array. -/
theorem iblk_0_apply (c : Dev nD) (t : Fin cfg4.N) (p : Fin 5000) (k : Fin 64) (P : Fin 100000) (hP : P.val = 5000 * t.val + p.val) :
    (iblk4 V c 0 t : Vec Ideal S5000x64 .f32) (ix2 p k) = (V c main_v80 : S100000x64.Idx → EReal) (ix2 P k) := by
  obtain ⟨e00, e01, e10, e11, e20, e21, e30, e31, e40, e41, e50, e51, ht⟩ := idx_facts t
  unfold iblk4
  rw [View.read_apply]
  show V c main_v80 _ = V c main_v80 _
  congr 1
  funext a
  apply Fin.ext
  match a with
  | ⟨0, _⟩ => show win4_0.index t (0 : Fin 2) * 5000 + 1 * p.val = P.val; omega
  | ⟨1, _⟩ => show win4_0.index t (1 : Fin 2) * 64 + 1 * k.val = k.val; omega

/-- Window 1's block at point `t` is rows `5000 t …` of its array. -/
theorem iblk_1_apply (c : Dev nD) (t : Fin cfg4.N) (p : Fin 5000) (k : Fin 64) (P : Fin 100000) (hP : P.val = 5000 * t.val + p.val) :
    (iblk4 V c 1 t : Vec Ideal S5000x64 .f32) (ix2 p k) = (V c main_v61 : S100000x64.Idx → EReal) (ix2 P k) := by
  obtain ⟨e00, e01, e10, e11, e20, e21, e30, e31, e40, e41, e50, e51, ht⟩ := idx_facts t
  unfold iblk4
  rw [View.read_apply]
  show V c main_v61 _ = V c main_v61 _
  congr 1
  funext a
  apply Fin.ext
  match a with
  | ⟨0, _⟩ => show win4_1.index t (0 : Fin 2) * 5000 + 1 * p.val = P.val; omega
  | ⟨1, _⟩ => show win4_1.index t (1 : Fin 2) * 64 + 1 * k.val = k.val; omega

/-- Window 2's block at every point is its whole array. -/
theorem iblk_2_apply (c : Dev nD) (t : Fin cfg4.N) (k : Fin 64) (q : Fin 40) :
    (iblk4 V c 2 t : Vec Ideal S64x40 .f32) (ix2 k q) = (V c main_arg8 : S64x40.Idx → EReal) (ix2 k q) := by
  obtain ⟨e00, e01, e10, e11, e20, e21, e30, e31, e40, e41, e50, e51, ht⟩ := idx_facts t
  unfold iblk4
  rw [View.read_apply]
  show V c main_arg8 _ = V c main_arg8 _
  congr 1
  funext a
  apply Fin.ext
  match a with
  | ⟨0, _⟩ => show win4_2.index t (0 : Fin 2) * 64 + 1 * k.val = k.val; omega
  | ⟨1, _⟩ => show win4_2.index t (1 : Fin 2) * 40 + 1 * q.val = q.val; omega

/-- Window 3's block at every point is its whole array. -/
theorem iblk_3_apply (c : Dev nD) (t : Fin cfg4.N) (k : Fin 64) (q : Fin 40) :
    (iblk4 V c 3 t : Vec Ideal S64x40 .f32) (ix2 k q) = (V c main_arg9 : S64x40.Idx → EReal) (ix2 k q) := by
  obtain ⟨e00, e01, e10, e11, e20, e21, e30, e31, e40, e41, e50, e51, ht⟩ := idx_facts t
  unfold iblk4
  rw [View.read_apply]
  show V c main_arg9 _ = V c main_arg9 _
  congr 1
  funext a
  apply Fin.ext
  match a with
  | ⟨0, _⟩ => show win4_3.index t (0 : Fin 2) * 64 + 1 * k.val = k.val; omega
  | ⟨1, _⟩ => show win4_3.index t (1 : Fin 2) * 40 + 1 * q.val = q.val; omega

/-- Window 4's block at every point is its whole one-row array. -/
theorem iblk_4_apply (c : Dev nD) (t : Fin cfg4.N) (u : Fin 1) (q : Fin 40) :
    (iblk4 V c 4 t : Vec Ideal S1x40 .f32) (ix2 u q) = (V c main_v81 : S1x40.Idx → EReal) (ix2 u q) := by
  obtain ⟨e00, e01, e10, e11, e20, e21, e30, e31, e40, e41, e50, e51, ht⟩ := idx_facts t
  unfold iblk4
  rw [View.read_apply]
  show V c main_v81 _ = V c main_v81 _
  congr 1
  funext a
  apply Fin.ext
  match a with
  | ⟨0, _⟩ => show win4_4.index t (0 : Fin 2) * 1 + 1 * u.val = u.val; omega
  | ⟨1, _⟩ => show win4_4.index t (1 : Fin 2) * 40 + 1 * q.val = q.val; omega

/-- The result window's block at point `t` sits at rows `5000 t …` of the result array. -/
theorem emb_5 (t : Fin cfg4.N) (p : Fin 5000) (q : Fin 40) (P : Fin 100000) (hP : P.val = 5000 * t.val + p.val) :
    ((cfg4.win 5).blk t).view.emb (ix2 p q) = (ix2 P q : S100000x40.Idx) := by
  obtain ⟨e00, e01, e10, e11, e20, e21, e30, e31, e40, e41, e50, e51, ht⟩ := idx_facts t
  funext a
  apply Fin.ext
  match a with
  | ⟨0, _⟩ => show win4_5.index t (0 : Fin 2) * 5000 + 1 * p.val = P.val; omega
  | ⟨1, _⟩ => show win4_5.index t (1 : Fin 2) * 40 + 1 * q.val = q.val; omega

/-- The layer of the arrays the region finds. -/
abbrev G (c : Dev nD) : Cert.Sage.Mat 100000 40 :=
  Cert.Sage.lin (V c main_v80) (V c main_v61) (V c main_arg8) (V c main_arg9) (row1 (V c main_v81))

/-- What point `t` writes back is block `t` of the layer of the whole arrays. -/
theorem flushed_eq (c : Dev nD) (t : Fin cfg4.N) :
    (dat4 V c).flushed 5 t = ((cfg4.win 5).blk t).view.read (Elt Ideal) (G V c) := by
  show (cfg4.win 5).cut (grid4.coords t) ((dat4 V c).after 5 t) = _
  rw [after4_5]
  unfold out4_5
  rw [View.canon_unit_zero hz]
  simp only [View.ld_unit_zero (S := S5000x64) hz, View.ld_unit_zero (S := S64x40) hz, View.ld_unit_zero (S := S1x40) hz]
  obtain ⟨e00, e01, e10, e11, e20, e21, e30, e31, e40, e41, e50, e51, ht⟩ := idx_facts t
  funext j
  obtain ⟨p, q, rfl⟩ : ∃ (p : Fin 5000) (q : Fin 40), j = ix2 p q := ⟨j 0, j 1, eq_ix2 (n0 := 5000) (n1 := 40) j⟩
  have hP : 5000 * t.val + p.val < 100000 := by have := p.isLt; omega
  rw [View.read_apply, emb_5 t p q ⟨_, hP⟩ rfl]
  show k4_pay1 (iblk4 V c 0 t) (iblk4 V c 1 t) (iblk4 V c 2 t) (iblk4 V c 3 t) (iblk4 V c 4 t) (ix2 p q)
    = Cert.Sage.lin (V c main_v80) (V c main_v61) (V c main_arg8) (V c main_arg9) (row1 (V c main_v81)) (ix2 ⟨5000 * t.val + p.val, hP⟩ q)
  rw [pay4_apply, Cert.Sage.lin_apply]
  unfold Cert.Sage.linAt
  refine congrArg₂ (· + ·) (congrArg₂ (· + ·) ?_ ?_) ?_
  · exact Finset.sum_congr rfl fun k _ => congrArg₂ (· * ·) (iblk_0_apply V c t p k ⟨_, hP⟩ rfl) (iblk_2_apply V c t k q)
  · exact Finset.sum_congr rfl fun k _ => congrArg₂ (· * ·) (iblk_1_apply V c t p k ⟨_, hP⟩ rfl) (iblk_3_apply V c t k q)
  · exact iblk_4_apply V c t 0 q

/-- An index of the result array is in point `t`'s block iff each coordinate is in the block's range on its axis. -/
theorem mem_blk (t : Fin cfg4.N) (i : S100000x40.Idx) :
    i ∈ ((cfg4.win 5).blk t).view.set ↔ ∀ a : Fin 2, win4_5.index t a * S5000x40.size a ≤ (i a).val ∧ (i a).val < win4_5.index t a * S5000x40.size a + S5000x40.size a := by
  show i ∈ ((View.whole main_v82).slice (win4_5.rect t)).set ↔ _
  rw [View.set_slice_whole, Rect.mem_set_unit]
  exact Iff.rfl

/-- Every index of the result array lies in some point's block: row `r` in the block of point `r / 5000`. -/
theorem cover (i : S100000x40.Idx) :
    ∃ t : Fin cfg4.N, (cfg4.win 5).flush t = true ∧ i ∈ ((cfg4.win 5).blk t).view.set := by
  have hi0 : (i 0).val < 100000 := (i 0).isLt
  have hi1 : (i 1).val < 40 := (i 1).isLt
  have hN : cfg4.N = 20 := N_4
  refine ⟨⟨(i 0).val / 5000, by rw [hN]; omega⟩, flush4_5 _, ?_⟩
  rw [mem_blk]
  obtain ⟨e00, e01, e10, e11, e20, e21, e30, e31, e40, e41, e50, e51, ht⟩ := idx_facts ⟨(i 0).val / 5000, by rw [hN]; omega⟩
  intro a
  match a with
  | ⟨0, _⟩ =>
    show win4_5.index ⟨(i 0).val / 5000, _⟩ (0 : Fin 2) * 5000 ≤ (i 0).val ∧ (i 0).val < win4_5.index ⟨(i 0).val / 5000, _⟩ (0 : Fin 2) * 5000 + 5000
    rw [e50]
    show (i 0).val / 5000 * 5000 ≤ (i 0).val ∧ (i 0).val < (i 0).val / 5000 * 5000 + 5000
    omega
  | ⟨1, _⟩ =>
    show win4_5.index ⟨(i 0).val / 5000, _⟩ (1 : Fin 2) * 40 ≤ (i 1).val ∧ (i 1).val < win4_5.index ⟨(i 0).val / 5000, _⟩ (1 : Fin 2) * 40 + 40
    rw [e51]
    omega

end Cert.KernelIdeal.Regions.R4

namespace Cert.KernelIdeal.Regions

open Cert.KernelIdeal Idealize.ShloMosaic Idealize.ShloMosaic.TcCoe Idealize.SL.Sem

variable (V : (c : Dev nD) → (b : Ref sig .tc) → Buf (Elt Ideal) ((c : Thread nD τ).loc b))

/-- After region 4's twenty write-backs its result array holds the layer of the arrays the region found. -/
theorem region4_value (c : Dev nD) :
    (Gen.dat4 (F := Ideal) V c).arrAt 5 cfg4.N
      = Cert.Sage.lin (V c main_v80) (V c main_v61) (V c main_arg8) (V c main_arg9) (row1 (V c main_v81)) :=
  (Gen.dat4 V c).arrAt_eq_of_cover 5 (R4.G V c) (fun t _ => R4.flushed_eq V c t) R4.cover

end Cert.KernelIdeal.Regions

end
-- ==== Proof.KValue.lean ====
/-
  The idealized kernel program's result as the network of the specification.

  Following the program's segments in order: the first stretch of host operations cuts the edge endpoints from the edge
  list and forms the neighbourhood means of the input features; region 0 is the first layer; the next stretch takes the
  layer's per-channel mean and variance; region 1 normalises and rectifies; and so on twice more, the last layer
  without the normalisation. At each boundary the buffers the next segment reads hold the values named below, so the
  result buffer ends at three layers `lin`, with `bnRelu` after the first two, of the launch contents of the
  arguments — the specification's `net` with the neighbourhood mean and the statistics being this program's own host
  chains (`aggIdx` of the edge endpoints, `muK`, `varK` read as rows).
-/
import proofs.«106070_j38113539785173_1_alg».proof.Proof.Spec
import proofs.«106070_j38113539785173_1_alg».proof.Proof.KHost
import proofs.«106070_j38113539785173_1_alg».proof.Proof.KCarry
import proofs.«106070_j38113539785173_1_alg».proof.Proof.Region0
import proofs.«106070_j38113539785173_1_alg».proof.Proof.Region1
import proofs.«106070_j38113539785173_1_alg».proof.Proof.Region2
import proofs.«106070_j38113539785173_1_alg».proof.Proof.Region3
import proofs.«106070_j38113539785173_1_alg».proof.Proof.Region4
import Idealize.ShloMosaic.Lib.ValueLayout

set_option maxRecDepth 16384

noncomputable section

namespace Cert.KernelIdeal.Net

open Cert.KernelIdeal Cert.KernelIdeal.Gen Idealize.ShloMosaic Idealize.ShloMosaic.TcCoe Idealize.ShloMosaic.StableHlo
open Idealize.ShloMosaic.ValueIdx
open Cert.KernelIdeal.HostVal Cert.KernelIdeal.Carry Cert.KernelIdeal.Regions Cert.Sage

/-! ## Equal inputs give equal layers -/

theorem lin_congr {n c d : ℕ} {a a' x x' : Mat n c} {Wl Wl' Wr Wr' : Mat c d} {b b' : Row d}
    (ha : a = a') (hx : x = x') (hl : Wl = Wl') (hr : Wr = Wr') (hb : b = b') :
    lin a x Wl Wr b = lin a' x' Wl' Wr' b' := by subst ha hx hl hr hb; rfl

theorem bnRelu_congr {n c : ℕ} {y y' : Mat n c} {mu mu' var var' g g' be be' : Row c}
    (hy : y = y') (hm : mu = mu') (hv : var = var') (hg : g = g') (hb : be = be') :
    bnRelu y mu var g be = bnRelu y' mu' var' g' be' := by subst hy hm hv hg hb; rfl

/-- A length-`d` vector written as a `1 × d` row and read back along that row is the vector. -/
theorem row1_asRow64 (v : C S64 .f32) : row1 (asRow64 v) = v := by
  funext j
  rw [eq_ix1 j]
  exact shapeCast_a_1a_apply v shapeCasts_S64_S1x64 0 (j 0)
theorem row1_asRow40 (v : C S40 .f32) : row1 (asRow40 v) = v := by
  funext j
  rw [eq_ix1 j]
  exact shapeCast_a_1a_apply v shapeCasts_S40_S1x40 0 (j 0)

variable (m : (ℓ : Loc nD τ sig) → Buf (Elt Ideal) ℓ) (ρ : Dev nD → PrngReg) (c : Dev nD)

/-- The launch contents of a buffer on core `c`. -/
abbrev at0 (b : Ref sig .tc) : Buf (Elt Ideal) ((c : Thread nD τ).loc b) := m ((c : Thread nD τ).loc b)

/-- The edge endpoints. -/
def src : C S1600000 .i32 := srcOf (at0 m c main_arg1)
def dst : C S1600000 .i32 := dstOf (at0 m c main_arg1)
/-- The variance's correction as the program passes it: the integer zero. -/
abbrev k0 : C S_ .i32 := constantI S_ 32 0#32

/-- The per-channel statistics as rows of 64. -/
def muRow (h : Mat 100000 64) : Row 64 := row1 (muK h)
def varRow (h : Mat 100000 64) : Row 64 := row1 (varK k0 h)

def y0 : Mat 100000 64 :=
  lin (aggIdx (src m c) (dst m c) (at0 m c main_arg0)) (at0 m c main_arg0) (at0 m c main_arg2) (at0 m c main_arg3) (at0 m c main_arg4)
def h1 : Mat 100000 64 :=
  bnRelu (y0 m c) (muRow (y0 m c)) (varRow (y0 m c)) (at0 m c main_arg11) (at0 m c main_arg12)
def y1 : Mat 100000 64 :=
  lin (aggIdx (src m c) (dst m c) (h1 m c)) (h1 m c) (at0 m c main_arg5) (at0 m c main_arg6) (at0 m c main_arg7)
def h2 : Mat 100000 64 :=
  bnRelu (y1 m c) (muRow (y1 m c)) (varRow (y1 m c)) (at0 m c main_arg13) (at0 m c main_arg14)
def out : Mat 100000 40 :=
  lin (aggIdx (src m c) (dst m c) (h2 m c)) (h2 m c) (at0 m c main_arg8) (at0 m c main_arg9) (at0 m c main_arg10)

/-- The five values are the specification's network. -/
theorem out_eq_net : out m c = net (aggIdx (src m c) (dst m c)) muRow varRow (at0 m c main_arg0) (at0 m c main_arg2)
    (at0 m c main_arg3) (at0 m c main_arg4) (at0 m c main_arg5) (at0 m c main_arg6) (at0 m c main_arg7) (at0 m c main_arg8)
    (at0 m c main_arg9) (at0 m c main_arg10) (at0 m c main_arg11) (at0 m c main_arg12) (at0 m c main_arg13) (at0 m c main_arg14) := rfl

/-! ## When region 0 is entered -/

theorem w1_arg (b : Ref sig .tc) (hb : b ∈ argRefs) : W1 m ρ c (Proc.devRef .tc b) = at0 m c b := arg_W1 m ρ c b hb
theorem w1_v1 : W1 m ρ c (Proc.devRef .tc main_v1) = src m c := h0_v1 (W0 m ρ c)
theorem w1_v3 : W1 m ρ c (Proc.devRef .tc main_v3) = dst m c := h0_v3 (W0 m ρ c)
theorem w1_v22 : W1 m ρ c (Proc.devRef .tc main_v22) = aggIdx (src m c) (dst m c) (at0 m c main_arg0) := h0_v22 (W0 m ρ c)
theorem w1_v23 : W1 m ρ c (Proc.devRef .tc main_v23) = asRow64 (at0 m c main_arg4) := h0_v23 (W0 m ρ c)

/-- A kept buffer at a later boundary, from what it held when region 0 was entered. -/
theorem late_arg {L : List (Ref sig .tc)} {Wj : Valuation τ sig (Elt Ideal)} (h : Same L Wj (W1 m ρ c))
    (b : Ref sig .tc) (hb : b ∈ L) (ha : b ∈ argRefs) : Wj (Proc.devRef .tc b) = at0 m c b := (h b hb).trans (w1_arg m ρ c b ha)

/-! ## Layer 0 -/

theorem w2_v24 : W2 m ρ c (Proc.devRef .tc main_v24) = y0 m c :=
  (W2_arr m ρ c 5).trans ((region0_value (V1 m ρ) c).trans
    (lin_congr (w1_v22 m ρ c) (w1_arg m ρ c main_arg0 (by decide)) (w1_arg m ρ c main_arg2 (by decide))
      (w1_arg m ρ c main_arg3 (by decide)) ((congrArg row1 (w1_v23 m ρ c)).trans (row1_asRow64 _))))

theorem w3_v24 : W3 m ρ c (Proc.devRef .tc main_v24) = y0 m c :=
  (after_of_forall_not_mem _ _ (nwY1 main_v24 (by decide))).trans (w2_v24 m ρ c)
theorem w3_v28 : W3 m ρ c (Proc.devRef .tc main_v28) = muK (y0 m c) :=
  (h1_v28 (W2 m ρ c)).trans (congrArg muK (w2_v24 m ρ c))
theorem w3_c6 : W3 m ρ c (Proc.devRef .tc main_c_6) = k0 := h1_c6 (W2 m ρ c)

theorem w4_v24 : W4 m ρ c (Proc.devRef .tc main_v24) = y0 m c :=
  (after_of_forall_not_mem _ _ (nwY1_1 main_v24 (by decide))).trans (w3_v24 m ρ c)
theorem w4_v28 : W4 m ρ c (Proc.devRef .tc main_v28) = muK (y0 m c) :=
  (after_of_forall_not_mem _ _ (nwY1_1 main_v28 (by decide))).trans (w3_v28 m ρ c)
theorem w4_v29 : W4 m ρ c (Proc.devRef .tc main_v29) = varK k0 (y0 m c) :=
  (h11_v29 (W3 m ρ c)).trans (congrArg₂ varK (w3_c6 m ρ c) (w3_v24 m ρ c))

theorem w5_v24 : W5 m ρ c (Proc.devRef .tc main_v24) = y0 m c :=
  (after_of_forall_not_mem _ _ (nwY1_2 main_v24 (by decide))).trans (w4_v24 m ρ c)
theorem w5_v28 : W5 m ρ c (Proc.devRef .tc main_v28) = muK (y0 m c) :=
  (after_of_forall_not_mem _ _ (nwY1_2 main_v28 (by decide))).trans (w4_v28 m ρ c)
theorem w5_v29 : W5 m ρ c (Proc.devRef .tc main_v29) = varK k0 (y0 m c) :=
  (after_of_forall_not_mem _ _ (nwY1_2 main_v29 (by decide))).trans (w4_v29 m ρ c)
theorem w5_v30 : W5 m ρ c (Proc.devRef .tc main_v30) = asRow64 (at0 m c main_arg11) :=
  (h12_v30 (W4 m ρ c)).trans (congrArg asRow64 (late_arg m ρ c (same4 m ρ c) main_arg11 (by decide) (by decide)))
theorem w5_v31 : W5 m ρ c (Proc.devRef .tc main_v31) = asRow64 (at0 m c main_arg12) :=
  (h12_v31 (W4 m ρ c)).trans (congrArg asRow64 (late_arg m ρ c (same4 m ρ c) main_arg12 (by decide) (by decide)))

theorem w6_v32 : W6 m ρ c (Proc.devRef .tc main_v32) = h1 m c :=
  (W6_arr m ρ c 5).trans ((region1_value (V5 m ρ) c).trans
    (bnRelu_congr (w5_v24 m ρ c) (congrArg row1 (w5_v28 m ρ c)) (congrArg row1 (w5_v29 m ρ c))
      ((congrArg row1 (w5_v30 m ρ c)).trans (row1_asRow64 _)) ((congrArg row1 (w5_v31 m ρ c)).trans (row1_asRow64 _))))

/-! ## Layer 1 -/

theorem w7_v32 : W7 m ρ c (Proc.devRef .tc main_v32) = h1 m c :=
  (after_of_forall_not_mem _ _ (nwY2 main_v32 (by decide))).trans (w6_v32 m ρ c)
theorem w7_v51 : W7 m ρ c (Proc.devRef .tc main_v51) = aggIdx (src m c) (dst m c) (h1 m c) := by
  refine (h2_v51 (W6 m ρ c)).trans ?_
  rw [(same6 m ρ c main_v1 (by decide)).trans (w1_v1 m ρ c), (same6 m ρ c main_v3 (by decide)).trans (w1_v3 m ρ c), w6_v32 m ρ c]
theorem w7_v52 : W7 m ρ c (Proc.devRef .tc main_v52) = asRow64 (at0 m c main_arg7) :=
  (h2_v52 (W6 m ρ c)).trans (congrArg asRow64 (late_arg m ρ c (same6 m ρ c) main_arg7 (by decide) (by decide)))

theorem w8_v53 : W8 m ρ c (Proc.devRef .tc main_v53) = y1 m c :=
  (W8_arr m ρ c 5).trans ((region2_value (V7 m ρ) c).trans
    (lin_congr (w7_v51 m ρ c) (w7_v32 m ρ c) (late_arg m ρ c (same7 m ρ c) main_arg5 (by decide) (by decide))
      (late_arg m ρ c (same7 m ρ c) main_arg6 (by decide) (by decide)) ((congrArg row1 (w7_v52 m ρ c)).trans (row1_asRow64 _))))

theorem w9_v53 : W9 m ρ c (Proc.devRef .tc main_v53) = y1 m c :=
  (after_of_forall_not_mem _ _ (nwY3 main_v53 (by decide))).trans (w8_v53 m ρ c)
theorem w9_v57 : W9 m ρ c (Proc.devRef .tc main_v57) = muK (y1 m c) :=
  (h3_v57 (W8 m ρ c)).trans (congrArg muK (w8_v53 m ρ c))
theorem w9_c15 : W9 m ρ c (Proc.devRef .tc main_c_15) = k0 := h3_c15 (W8 m ρ c)

theorem w10_v53 : W10 m ρ c (Proc.devRef .tc main_v53) = y1 m c :=
  (after_of_forall_not_mem _ _ (nwY3_1 main_v53 (by decide))).trans (w9_v53 m ρ c)
theorem w10_v57 : W10 m ρ c (Proc.devRef .tc main_v57) = muK (y1 m c) :=
  (after_of_forall_not_mem _ _ (nwY3_1 main_v57 (by decide))).trans (w9_v57 m ρ c)
theorem w10_v58 : W10 m ρ c (Proc.devRef .tc main_v58) = varK k0 (y1 m c) :=
  (h31_v58 (W9 m ρ c)).trans (congrArg₂ varK (w9_c15 m ρ c) (w9_v53 m ρ c))

theorem w11_v53 : W11 m ρ c (Proc.devRef .tc main_v53) = y1 m c :=
  (after_of_forall_not_mem _ _ (nwY3_2 main_v53 (by decide))).trans (w10_v53 m ρ c)
theorem w11_v57 : W11 m ρ c (Proc.devRef .tc main_v57) = muK (y1 m c) :=
  (after_of_forall_not_mem _ _ (nwY3_2 main_v57 (by decide))).trans (w10_v57 m ρ c)
theorem w11_v58 : W11 m ρ c (Proc.devRef .tc main_v58) = varK k0 (y1 m c) :=
  (after_of_forall_not_mem _ _ (nwY3_2 main_v58 (by decide))).trans (w10_v58 m ρ c)
theorem w11_v59 : W11 m ρ c (Proc.devRef .tc main_v59) = asRow64 (at0 m c main_arg13) :=
  (h32_v59 (W10 m ρ c)).trans (congrArg asRow64 (late_arg m ρ c (same10 m ρ c) main_arg13 (by decide) (by decide)))
theorem w11_v60 : W11 m ρ c (Proc.devRef .tc main_v60) = asRow64 (at0 m c main_arg14) :=
  (h32_v60 (W10 m ρ c)).trans (congrArg asRow64 (late_arg m ρ c (same10 m ρ c) main_arg14 (by decide) (by decide)))

theorem w12_v61 : W12 m ρ c (Proc.devRef .tc main_v61) = h2 m c :=
  (W12_arr m ρ c 5).trans ((region3_value (V11 m ρ) c).trans
    (bnRelu_congr (w11_v53 m ρ c) (congrArg row1 (w11_v57 m ρ c)) (congrArg row1 (w11_v58 m ρ c))
      ((congrArg row1 (w11_v59 m ρ c)).trans (row1_asRow64 _)) ((congrArg row1 (w11_v60 m ρ c)).trans (row1_asRow64 _))))

/-! ## Layer 2 -/

theorem w13_v61 : W13 m ρ c (Proc.devRef .tc main_v61) = h2 m c :=
  (after_of_forall_not_mem _ _ (nwY4 main_v61 (by decide))).trans (w12_v61 m ρ c)
theorem w13_v80 : W13 m ρ c (Proc.devRef .tc main_v80) = aggIdx (src m c) (dst m c) (h2 m c) := by
  refine (h4_v80 (W12 m ρ c)).trans ?_
  rw [(same12 m ρ c main_v1 (by decide)).trans (w1_v1 m ρ c), (same12 m ρ c main_v3 (by decide)).trans (w1_v3 m ρ c), w12_v61 m ρ c]
theorem w13_v81 : W13 m ρ c (Proc.devRef .tc main_v81) = asRow40 (at0 m c main_arg10) :=
  (h4_v81 (W12 m ρ c)).trans (congrArg asRow40 (late_arg m ρ c (same12 m ρ c) main_arg10 (by decide) (by decide)))

/-- THE RESULT: what the result buffer holds after the last region. -/
theorem w14_v82 : W14 m ρ c (Proc.devRef .tc main_v82) = out m c :=
  (W14_arr m ρ c 5).trans ((region4_value (V13 m ρ) c).trans
    (lin_congr (w13_v80 m ρ c) (w13_v61 m ρ c) (late_arg m ρ c (same13 m ρ c) main_arg8 (by decide) (by decide))
      (late_arg m ρ c (same13 m ρ c) main_arg9 (by decide) (by decide)) ((congrArg row1 (w13_v81 m ρ c)).trans (row1_asRow40 _))))

end Cert.KernelIdeal.Net

end
-- ==== Proof.LibAfter.lean ====
/-
  Two facts about a straight line of host operations, for running a long line in segments.

  The contents of the buffers after a line of operations is a fold over the line (each operation rewrites the buffers
  it writes and leaves the rest), so the contents after a concatenation of two lines are the contents after the second
  line, started from the contents after the first (`after_append`). And the side condition "no operation of the line
  allocates a buffer", which a run of the line asks for every member of the list, follows from the same condition
  stated as one conjunction over the list (`fresh_of_forall`), which splits along a concatenation (`forall_append`)
  and which, for a list written out operation by operation, holds by computation (`all_fresh`).
-/
import Idealize.ShloMosaic.Lib.StableHlo.Run

namespace Cert.LibAfter

open Idealize.ShloMosaic Idealize.ShloMosaic.StableHlo

variable {τ : Topo} {sig : RefSig} {Val : EltTy → Type}

/-- The buffer contents after a concatenation of two lines of operations are the contents after the second line,
    started from the contents after the first. -/
theorem after_append (a b : List (HloOp τ sig Val)) (V : Valuation τ sig Val) :
    after (a ++ b) V = after b (after a V) := by
  induction a generalizing V with
  | nil => rfl
  | cons op a ih => rw [List.cons_append, after_cons, after_cons, ih]

/-- A property of every operation of a concatenation is the property of every operation of each part. -/
theorem forall_append {α : Type} (p : α → Prop) (a b : List α) :
    (a ++ b).Forall p ↔ a.Forall p ∧ b.Forall p :=
  List.forall_append

/-- The property of each part gives the property of the concatenation. -/
theorem Forall.append {α : Type} {p : α → Prop} {a b : List α} (ha : a.Forall p) (hb : b.Forall p) :
    (a ++ b).Forall p :=
  (forall_append p a b).mpr ⟨ha, hb⟩

/-- "No operation allocates a buffer", stated as one conjunction over the list, gives it for every member. -/
theorem fresh_of_forall {ops : List (HloOp τ sig Val)} (h : ops.Forall fun op => op.fresh = ∅) :
    ∀ op ∈ ops, op.fresh = ∅ :=
  List.forall_iff_forall_mem.mp h

/-- The same for a family of lines, one per device: the form a run of the line asks for. -/
theorem fresh_of_forall_dev {ι : Type} {ops : ι → List (HloOp τ sig Val)}
    (h : ∀ d, (ops d).Forall fun op => op.fresh = ∅) : ∀ d, ∀ op ∈ ops d, op.fresh = ∅ :=
  fun d => fresh_of_forall (h d)

/-- `all_fresh ops` proves `ops.Forall fun op => op.fresh = ∅` for a list `ops` written out operation by operation
    (under a name, which is unfolded first): the conjunction over the list is split, and each operation built by a
    non-allocating builder has the empty set of fresh buffers by computation. -/
macro "all_fresh " ops:ident : tactic =>
  `(tactic| (first | simp only [$ops:ident, List.Forall] | simp only [List.Forall]
             repeat' constructor))

end Cert.LibAfter
-- ==== Proof.RefOps.lean ====
/-
  The reference program's run, read as one straight line of host operations.

  The program is three layers of the same shape: a neighbourhood mean (gather the source rows, add them up per
  destination, divide by the in-degree), a linear part (two matrix products, their sum, a bias), and after the first two
  layers a normalisation by the batch statistics followed by a rectifier.  Its entry function calls two outlined
  functions (the variance, which itself calls a selection on a scalar predicate, and the rectifier); a call means the
  callee's operations over that call's own buffers, so the whole program is one list of operations.  The list is cut
  here into consecutive pieces, one per stage; the entry function is written in three consecutive parts, each an append
  of whole pieces.  Every weakly fair execution of the line terminates, and each buffer ends at the fold of the operations'
  results over the launch contents.
-/
import proofs.«106070_j38113539785173_1_alg».proof.Proof.Gen.ReferenceIdeal
import proofs.«106070_j38113539785173_1_alg».proof.Proof.LibAfter
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The two rows of the edge table, each as a flat list of node numbers: the sources and the destinations. -/
abbrev pPre : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000 ]
theorem pPre_sub : (pPre : List (HloOp τ sig (Elt F))).Forall fun op => op.bufs ⊆ tcRefs τ sig :=
  ⟨StableHlo.unary_bufs_sub .., StableHlo.reshape_bufs_sub .., StableHlo.unary_bufs_sub .., StableHlo.reshape_bufs_sub ..⟩
theorem pPre_fresh : (pPre : List (HloOp τ sig (Elt F))).Forall fun op => op.fresh = ∅ := by
  simp only [List.Forall]; repeat' constructor

/-- Layer 0's neighbourhood mean: negative node numbers wrapped, the source rows gathered, summed per destination, and divided by the destination's in-degree (at least one). -/
abbrev pAgg0 : List (HloOp τ sig (Elt F)) :=
  [ StableHlo.nullary main_c (constantI S_ 32 0#32),
    StableHlo.unary main_c main_v4 (broadcastInDim S1600000 ![] bcast_S_S1600000 : (⟨S_, .i32⟩ : BufTy).Contents (Elt F) → (⟨S1600000, .i32⟩ : BufTy).Contents (Elt F)),
    StableHlo.binary main_v1 main_v4 main_v5 (cmpi .slt : (⟨S1600000, .i32⟩ : BufTy).Contents (Elt F) → (⟨S1600000, .i32⟩ : BufTy).Contents (Elt F) → (⟨S1600000, .i1⟩ : BufTy).Contents (Elt F)),
    StableHlo.nullary main_c_0 (constantI S_ 32 100000#32),
    StableHlo.unary main_c_0 main_v6 (broadcastInDim S1600000 ![] bcast_S_S1600000 : (⟨S_, .i32⟩ : BufTy).Contents (Elt F) → (⟨S1600000, .i32⟩ : BufTy).Contents (Elt F)),
    StableHlo.binary main_v1 main_v6 main_v7 (addi : (⟨S1600000, .i32⟩ : BufTy).Contents (Elt F) → (⟨S1600000, .i32⟩ : BufTy).Contents (Elt F) → (⟨S1600000, .i32⟩ : BufTy).Contents (Elt F)),
    StableHlo.ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v8 main_v9 (broadcastInDim S1600000x1 ![0] bcast_S1600000_S1600000x1_0 : (⟨S1600000, .i32⟩ : BufTy).Contents (Elt F) → (⟨S1600000x1, .i32⟩ : BufTy).Contents (Elt F)),
    StableHlo.binary main_arg0 main_v9 main_v10 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.nullary main_cst (constant S_ .f32 0x00000000#32),
    StableHlo.unary main_cst main_v11 (broadcastInDim S100000x64 ![] bcast_S_S100000x64 : (⟨S_, .f32⟩ : BufTy).Contents (Elt F) → (⟨S100000x64, .f32⟩ : BufTy).Contents (Elt F)),
    StableHlo.unary main_v3 main_v12 (broadcastInDim S1600000x1 ![0] bcast_S1600000_S1600000x1_0 : (⟨S1600000, .i32⟩ : BufTy).Contents (Elt F) → (⟨S1600000x1, .i32⟩ : BufTy).Contents (Elt F)),
    StableHlo.ternary main_v11 main_v12 main_v10 main_v13 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.nullary main_cst_1 (constant S_ .f32 0x3F800000#32),
    StableHlo.unary main_cst_1 main_v14 (broadcastInDim S1600000 ![] bcast_S_S1600000 : (⟨S_, .f32⟩ : BufTy).Contents (Elt F) → (⟨S1600000, .f32⟩ : BufTy).Contents (Elt F)),
    StableHlo.nullary main_cst_2 (constant S_ .f32 0x00000000#32),
    StableHlo.unary main_cst_2 main_v15 (broadcastInDim S100000 ![] bcast_S_S100000 : (⟨S_, .f32⟩ : BufTy).Contents (Elt F) → (⟨S100000, .f32⟩ : BufTy).Contents (Elt F)),
    StableHlo.unary main_v3 main_v16 (broadcastInDim S1600000x1 ![0] bcast_S1600000_S1600000x1_0 : (⟨S1600000, .i32⟩ : BufTy).Contents (Elt F) → (⟨S1600000x1, .i32⟩ : BufTy).Contents (Elt F)),
    StableHlo.ternary main_v15 main_v16 main_v14 main_v17 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_3 (constant S_ .f32 0x3F800000#32),
    StableHlo.unary main_cst_3 main_v18 (broadcastInDim S100000 ![] bcast_S_S100000 : (⟨S_, .f32⟩ : BufTy).Contents (Elt F) → (⟨S100000, .f32⟩ : BufTy).Contents (Elt F)),
    StableHlo.binary main_v17 main_v18 main_v19 (maximumf : (⟨S100000, .f32⟩ : BufTy).Contents (Elt F) → (⟨S100000, .f32⟩ : BufTy).Contents (Elt F) → (⟨S100000, .f32⟩ : BufTy).Contents (Elt F)),
    StableHlo.unary main_v19 main_v20 (broadcastInDim S100000x1 ![0] bcast_S100000_S100000x1_0 : (⟨S100000, .f32⟩ : BufTy).Contents (Elt F) → (⟨S100000x1, .f32⟩ : BufTy).Contents (Elt F)),
    StableHlo.unary main_v20 main_v21 (broadcastInDim S100000x64 ![0, 1] bcast_S100000x1_S100000x64_0_1 : (⟨S100000x1, .f32⟩ : BufTy).Contents (Elt F) → (⟨S100000x64, .f32⟩ : BufTy).Contents (Elt F)),
    StableHlo.binary main_v13 main_v21 main_v22 (Host.divf : (⟨S100000x64, .f32⟩ : BufTy).Contents (Elt F) → (⟨S100000x64, .f32⟩ : BufTy).Contents (Elt F) → (⟨S100000x64, .f32⟩ : BufTy).Contents (Elt F)) ]
theorem pAgg0_sub : (pAgg0 : List (HloOp τ sig (Elt F))).Forall fun op => op.bufs ⊆ tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.unary_bufs_sub .., StableHlo.ternary_bufs_sub .., StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.unary_bufs_sub .., StableHlo.unary_bufs_sub .., StableHlo.binary_bufs_sub ..⟩
theorem pAgg0_fresh : (pAgg0 : List (HloOp τ sig (Elt F))).Forall fun op => op.fresh = ∅ := by
  simp only [List.Forall]; repeat' constructor

/-- Layer 0's linear part: the two matrix products, their sum, and the bias broadcast over the rows. -/
abbrev pLin0 : List (HloOp τ sig (Elt F)) :=
  [ StableHlo.binary main_v22 main_arg2 main_v23 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.binary main_arg0 main_arg3 main_v24 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.binary main_v23 main_v24 main_v25 (addf : (⟨S100000x64, .f32⟩ : BufTy).Contents (Elt F) → (⟨S100000x64, .f32⟩ : BufTy).Contents (Elt F) → (⟨S100000x64, .f32⟩ : BufTy).Contents (Elt F)),
    StableHlo.unary main_arg4 main_v26 (broadcastInDim S1x64 ![1] bcast_S64_S1x64_1 : (⟨S64, .f32⟩ : BufTy).Contents (Elt F) → (⟨S1x64, .f32⟩ : BufTy).Contents (Elt F)),
    StableHlo.unary main_v26 main_v27 (broadcastInDim S100000x64 ![0, 1] bcast_S1x64_S100000x64_0_1 : (⟨S1x64, .f32⟩ : BufTy).Contents (Elt F) → (⟨S100000x64, .f32⟩ : BufTy).Contents (Elt F)),
    StableHlo.binary main_v25 main_v27 main_v28 (addf : (⟨S100000x64, .f32⟩ : BufTy).Contents (Elt F) → (⟨S100000x64, .f32⟩ : BufTy).Contents (Elt F) → (⟨S100000x64, .f32⟩ : BufTy).Contents (Elt F)) ]
theorem pLin0_sub : (pLin0 : List (HloOp τ sig (Elt F))).Forall fun op => op.bufs ⊆ tcRefs τ sig :=
  ⟨StableHlo.binary_bufs_sub .., StableHlo.binary_bufs_sub .., StableHlo.binary_bufs_sub .., StableHlo.unary_bufs_sub .., StableHlo.unary_bufs_sub .., StableHlo.binary_bufs_sub ..⟩
theorem pLin0_fresh : (pLin0 : List (HloOp τ sig (Elt F))).Forall fun op => op.fresh = ∅ := by
  simp only [List.Forall]; repeat' constructor

/-- Layer 0's batch statistics (mean, then the variance through its own function), the normalisation, scale and shift, and the rectifier. -/
abbrev pBn0 : List (HloOp τ sig (Elt F)) :=
  [ StableHlo.nullary main_cst_4 (constant S_ .f32 0x00000000#32),
    StableHlo.binary main_v28 main_cst_4 main_v29 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_5 (constant S_ .f32 0x47C35000#32),
    StableHlo.unary main_cst_5 main_v30 (broadcastInDim S64 ![] bcast_S_S64 : (⟨S_, .f32⟩ : BufTy).Contents (Elt F) → (⟨S64, .f32⟩ : BufTy).Contents (Elt F)),
    StableHlo.binary main_v29 main_v30 main_v31 (Host.divf : (⟨S64, .f32⟩ : BufTy).Contents (Elt F) → (⟨S64, .f32⟩ : BufTy).Contents (Elt F) → (⟨S64, .f32⟩ : BufTy).Contents (Elt F)),
    StableHlo.nullary main_c_6 (constantI S_ 32 0#32),
    StableHlo.TRef.nullary (.of main_call0_cst : StableHlo.TRef sig ⟨S_, .f32⟩) (constant S_ .f32 0x00000000#32),
    StableHlo.TRef.binary (.of main_v28 : StableHlo.TRef sig ⟨S100000x64, .f32⟩) (.of main_call0_cst : StableHlo.TRef sig ⟨S_, .f32⟩) (.of main_call0_v0 : StableHlo.TRef sig ⟨S64, .f32⟩) (fun x v => Host.reduceAdd x v reducesTo_S100000x64_S64_d0 h_S_),
    StableHlo.TRef.unary (.of main_call0_v0 : StableHlo.TRef sig ⟨S64, .f32⟩) (.of main_call0_v1 : StableHlo.TRef sig ⟨S1x64, .f32⟩) (broadcastInDim S1x64 ![1] bcast_S64_S1x64_1),
    StableHlo.TRef.nullary (.of main_call0_cst_0 : StableHlo.TRef sig ⟨S_, .f32⟩) (constant S_ .f32 0x47C35000#32),
    StableHlo.TRef.unary (.of main_call0_cst_0 : StableHlo.TRef sig ⟨S_, .f32⟩) (.of main_call0_v2 : StableHlo.TRef sig ⟨S1x64, .f32⟩) (broadcastInDim S1x64 ![] bcast_S_S1x64),
    StableHlo.TRef.binary (.of main_call0_v1 : StableHlo.TRef sig ⟨S1x64, .f32⟩) (.of main_call0_v2 : StableHlo.TRef sig ⟨S1x64, .f32⟩) (.of main_call0_v3 : StableHlo.TRef sig ⟨S1x64, .f32⟩) Host.divf,
    StableHlo.TRef.unary (.of main_call0_v3 : StableHlo.TRef sig ⟨S1x64, .f32⟩) (.of main_call0_v4 : StableHlo.TRef sig ⟨S100000x64, .f32⟩) (broadcastInDim S100000x64 ![0, 1] bcast_S1x64_S100000x64_0_1),
    StableHlo.TRef.binary (.of main_v28 : StableHlo.TRef sig ⟨S100000x64, .f32⟩) (.of main_call0_v4 : StableHlo.TRef sig ⟨S100000x64, .f32⟩) (.of main_call0_v5 : StableHlo.TRef sig ⟨S100000x64, .f32⟩) subf,
    StableHlo.TRef.binary (.of main_call0_v5 : StableHlo.TRef sig ⟨S100000x64, .f32⟩) (.of main_call0_v5 : StableHlo.TRef sig ⟨S100000x64, .f32⟩) (.of main_call0_v6 : StableHlo.TRef sig ⟨S100000x64, .f32⟩) mulf,
    StableHlo.TRef.unary (.of main_c_6 : StableHlo.TRef sig ⟨S_, .i32⟩) (.of main_call0_v7 : StableHlo.TRef sig ⟨S_, .f32⟩) (sitofp .f32),
    StableHlo.TRef.nullary (.of main_call0_cst_1 : StableHlo.TRef sig ⟨S_, .f32⟩) (constant S_ .f32 0x47C35000#32),
    StableHlo.TRef.binary (.of main_call0_cst_1 : StableHlo.TRef sig ⟨S_, .f32⟩) (.of main_call0_v7 : StableHlo.TRef sig ⟨S_, .f32⟩) (.of main_call0_v8 : StableHlo.TRef sig ⟨S_, .f32⟩) subf,
    StableHlo.TRef.nullary (.of main_call0_cst_2 : StableHlo.TRef sig ⟨S_, .f32⟩) (constant S_ .f32 0x00000000#32),
    StableHlo.TRef.binary (.of main_call0_v6 : StableHlo.TRef sig ⟨S100000x64, .f32⟩) (.of main_call0_cst_2 : StableHlo.TRef sig ⟨S_, .f32⟩) (.of main_call0_v9 : StableHlo.TRef sig ⟨S64, .f32⟩) (fun x v => Host.reduceAdd x v reducesTo_S100000x64_S64_d0 h_S_),
    StableHlo.TRef.unary (.of main_call0_v8 : StableHlo.TRef sig ⟨S_, .f32⟩) (.of main_call0_v10 : StableHlo.TRef sig ⟨S64, .f32⟩) (broadcastInDim S64 ![] bcast_S_S64),
    StableHlo.TRef.binary (.of main_call0_v9 : StableHlo.TRef sig ⟨S64, .f32⟩) (.of main_call0_v10 : StableHlo.TRef sig ⟨S64, .f32⟩) (.of main_call0_v11 : StableHlo.TRef sig ⟨S64, .f32⟩) Host.divf,
    StableHlo.TRef.nullary (.of main_call0_cst_3 : StableHlo.TRef sig ⟨S_, .f32⟩) (constant S_ .f32 0x00000000#32),
    StableHlo.TRef.binary (.of main_call0_v8 : StableHlo.TRef sig ⟨S_, .f32⟩) (.of main_call0_cst_3 : StableHlo.TRef sig ⟨S_, .f32⟩) (.of main_call0_v12 : StableHlo.TRef sig ⟨S_, .i1⟩) (cmpf .ogt),
    StableHlo.TRef.nullary (.of main_call0_cst_4 : StableHlo.TRef sig ⟨S_, .f32⟩) (constant S_ .f32 0x7FC00000#32),
    StableHlo.TRef.unary (.of main_call0_cst_4 : StableHlo.TRef sig ⟨S_, .f32⟩) (.of main_call0_call0_v0 : StableHlo.TRef sig ⟨S_, .f32⟩) id,
    StableHlo.TRef.unary (.of main_call0_call0_v0 : StableHlo.TRef sig ⟨S_, .f32⟩) (.of main_call0_call0_v1 : StableHlo.TRef sig ⟨S64, .f32⟩) (broadcastInDim S64 ![] bcast_S_S64),
    StableHlo.TRef.ternary (.of main_call0_v12 : StableHlo.TRef sig ⟨S_, .i1⟩) (.of main_call0_v11 : StableHlo.TRef sig ⟨S64, .f32⟩) (.of main_call0_call0_v1 : StableHlo.TRef sig ⟨S64, .f32⟩) (.of main_v32 : StableHlo.TRef sig ⟨S64, .f32⟩) (fun p a b => select (broadcastInDim S64 ![] bcast_S_S64 p) a b),
    StableHlo.unary main_v31 main_v33 (broadcastInDim S1x64 ![1] bcast_S64_S1x64_1 : (⟨S64, .f32⟩ : BufTy).Contents (Elt F) → (⟨S1x64, .f32⟩ : BufTy).Contents (Elt F)),
    StableHlo.unary main_v33 main_v34 (broadcastInDim S100000x64 ![0, 1] bcast_S1x64_S100000x64_0_1 : (⟨S1x64, .f32⟩ : BufTy).Contents (Elt F) → (⟨S100000x64, .f32⟩ : BufTy).Contents (Elt F)),
    StableHlo.binary main_v28 main_v34 main_v35 (subf : (⟨S100000x64, .f32⟩ : BufTy).Contents (Elt F) → (⟨S100000x64, .f32⟩ : BufTy).Contents (Elt F) → (⟨S100000x64, .f32⟩ : BufTy).Contents (Elt F)),
    StableHlo.nullary main_cst_7 (constant S_ .f32 0x3727C5AC#32),
    StableHlo.unary main_cst_7 main_v36 (broadcastInDim S64 ![] bcast_S_S64 : (⟨S_, .f32⟩ : BufTy).Contents (Elt F) → (⟨S64, .f32⟩ : BufTy).Contents (Elt F)),
    StableHlo.binary main_v32 main_v36 main_v37 (addf : (⟨S64, .f32⟩ : BufTy).Contents (Elt F) → (⟨S64, .f32⟩ : BufTy).Contents (Elt F) → (⟨S64, .f32⟩ : BufTy).Contents (Elt F)),
    StableHlo.unary main_v37 main_v38 (Host.rsqrt : (⟨S64, .f32⟩ : BufTy).Contents (Elt F) → (⟨S64, .f32⟩ : BufTy).Contents (Elt F)),
    StableHlo.unary main_v38 main_v39 (broadcastInDim S1x64 ![1] bcast_S64_S1x64_1 : (⟨S64, .f32⟩ : BufTy).Contents (Elt F) → (⟨S1x64, .f32⟩ : BufTy).Contents (Elt F)),
    StableHlo.unary main_v39 main_v40 (broadcastInDim S100000x64 ![0, 1] bcast_S1x64_S100000x64_0_1 : (⟨S1x64, .f32⟩ : BufTy).Contents (Elt F) → (⟨S100000x64, .f32⟩ : BufTy).Contents (Elt F)),
    StableHlo.binary main_v35 main_v40 main_v41 (mulf : (⟨S100000x64, .f32⟩ : BufTy).Contents (Elt F) → (⟨S100000x64, .f32⟩ : BufTy).Contents (Elt F) → (⟨S100000x64, .f32⟩ : BufTy).Contents (Elt F)),
    StableHlo.unary main_arg11 main_v42 (broadcastInDim S1x64 ![1] bcast_S64_S1x64_1 : (⟨S64, .f32⟩ : BufTy).Contents (Elt F) → (⟨S1x64, .f32⟩ : BufTy).Contents (Elt F)),
    StableHlo.unary main_v42 main_v43 (broadcastInDim S100000x64 ![0, 1] bcast_S1x64_S100000x64_0_1 : (⟨S1x64, .f32⟩ : BufTy).Contents (Elt F) → (⟨S100000x64, .f32⟩ : BufTy).Contents (Elt F)),
    StableHlo.binary main_v41 main_v43 main_v44 (mulf : (⟨S100000x64, .f32⟩ : BufTy).Contents (Elt F) → (⟨S100000x64, .f32⟩ : BufTy).Contents (Elt F) → (⟨S100000x64, .f32⟩ : BufTy).Contents (Elt F)),
    StableHlo.unary main_arg12 main_v45 (broadcastInDim S1x64 ![1] bcast_S64_S1x64_1 : (⟨S64, .f32⟩ : BufTy).Contents (Elt F) → (⟨S1x64, .f32⟩ : BufTy).Contents (Elt F)),
    StableHlo.unary main_v45 main_v46 (broadcastInDim S100000x64 ![0, 1] bcast_S1x64_S100000x64_0_1 : (⟨S1x64, .f32⟩ : BufTy).Contents (Elt F) → (⟨S100000x64, .f32⟩ : BufTy).Contents (Elt F)),
    StableHlo.binary main_v44 main_v46 main_v47 (addf : (⟨S100000x64, .f32⟩ : BufTy).Contents (Elt F) → (⟨S100000x64, .f32⟩ : BufTy).Contents (Elt F) → (⟨S100000x64, .f32⟩ : BufTy).Contents (Elt F)),
    StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_v0 : StableHlo.TRef sig ⟨S100000x64, .f32⟩) (broadcastInDim S100000x64 ![] bcast_S_S100000x64),
    StableHlo.TRef.binary (.of main_v47 : StableHlo.TRef sig ⟨S100000x64, .f32⟩) (.of main_call1_v0 : StableHlo.TRef sig ⟨S100000x64, .f32⟩) (.of main_v48 : StableHlo.TRef sig ⟨S100000x64, .f32⟩) maximumf ]
theorem pBn0_sub : (pBn0 : List (HloOp τ sig (Elt F))).Forall fun op => op.bufs ⊆ tcRefs τ sig :=
  ⟨StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub ..⟩
theorem pBn0_fresh : (pBn0 : List (HloOp τ sig (Elt F))).Forall fun op => op.fresh = ∅ := by
  simp only [List.Forall]; repeat' constructor

/-- The integer zero that opens layer 1's index wrap. -/
abbrev pC8 : List (HloOp τ sig (Elt F)) :=
  [ StableHlo.nullary main_c_8 (constantI S_ 32 0#32) ]
theorem pC8_sub : (pC8 : List (HloOp τ sig (Elt F))).Forall fun op => op.bufs ⊆ tcRefs τ sig :=
  StableHlo.nullary_bufs_sub ..
theorem pC8_fresh : (pC8 : List (HloOp τ sig (Elt F))).Forall fun op => op.fresh = ∅ := by
  simp only [List.Forall]; repeat' constructor

/-- Layer 1's neighbourhood mean, as in layer 0, over the rectified features. -/
abbrev pAgg1 : List (HloOp τ sig (Elt F)) :=
  [ StableHlo.unary main_c_8 main_v49 (broadcastInDim S1600000 ![] bcast_S_S1600000 : (⟨S_, .i32⟩ : BufTy).Contents (Elt F) → (⟨S1600000, .i32⟩ : BufTy).Contents (Elt F)),
    StableHlo.binary main_v1 main_v49 main_v50 (cmpi .slt : (⟨S1600000, .i32⟩ : BufTy).Contents (Elt F) → (⟨S1600000, .i32⟩ : BufTy).Contents (Elt F) → (⟨S1600000, .i1⟩ : BufTy).Contents (Elt F)),
    StableHlo.nullary main_c_9 (constantI S_ 32 100000#32),
    StableHlo.unary main_c_9 main_v51 (broadcastInDim S1600000 ![] bcast_S_S1600000 : (⟨S_, .i32⟩ : BufTy).Contents (Elt F) → (⟨S1600000, .i32⟩ : BufTy).Contents (Elt F)),
    StableHlo.binary main_v1 main_v51 main_v52 (addi : (⟨S1600000, .i32⟩ : BufTy).Contents (Elt F) → (⟨S1600000, .i32⟩ : BufTy).Contents (Elt F) → (⟨S1600000, .i32⟩ : BufTy).Contents (Elt F)),
    StableHlo.ternary main_v50 main_v52 main_v1 main_v53 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v53 main_v54 (broadcastInDim S1600000x1 ![0] bcast_S1600000_S1600000x1_0 : (⟨S1600000, .i32⟩ : BufTy).Contents (Elt F) → (⟨S1600000x1, .i32⟩ : BufTy).Contents (Elt F)),
    StableHlo.binary main_v48 main_v54 main_v55 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.nullary main_cst_10 (constant S_ .f32 0x00000000#32),
    StableHlo.unary main_cst_10 main_v56 (broadcastInDim S100000x64 ![] bcast_S_S100000x64 : (⟨S_, .f32⟩ : BufTy).Contents (Elt F) → (⟨S100000x64, .f32⟩ : BufTy).Contents (Elt F)),
    StableHlo.unary main_v3 main_v57 (broadcastInDim S1600000x1 ![0] bcast_S1600000_S1600000x1_0 : (⟨S1600000, .i32⟩ : BufTy).Contents (Elt F) → (⟨S1600000x1, .i32⟩ : BufTy).Contents (Elt F)),
    StableHlo.ternary main_v56 main_v57 main_v55 main_v58 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.nullary main_cst_11 (constant S_ .f32 0x3F800000#32),
    StableHlo.unary main_cst_11 main_v59 (broadcastInDim S1600000 ![] bcast_S_S1600000 : (⟨S_, .f32⟩ : BufTy).Contents (Elt F) → (⟨S1600000, .f32⟩ : BufTy).Contents (Elt F)),
    StableHlo.nullary main_cst_12 (constant S_ .f32 0x00000000#32),
    StableHlo.unary main_cst_12 main_v60 (broadcastInDim S100000 ![] bcast_S_S100000 : (⟨S_, .f32⟩ : BufTy).Contents (Elt F) → (⟨S100000, .f32⟩ : BufTy).Contents (Elt F)),
    StableHlo.unary main_v3 main_v61 (broadcastInDim S1600000x1 ![0] bcast_S1600000_S1600000x1_0 : (⟨S1600000, .i32⟩ : BufTy).Contents (Elt F) → (⟨S1600000x1, .i32⟩ : BufTy).Contents (Elt F)),
    StableHlo.ternary main_v60 main_v61 main_v59 main_v62 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_13 (constant S_ .f32 0x3F800000#32),
    StableHlo.unary main_cst_13 main_v63 (broadcastInDim S100000 ![] bcast_S_S100000 : (⟨S_, .f32⟩ : BufTy).Contents (Elt F) → (⟨S100000, .f32⟩ : BufTy).Contents (Elt F)),
    StableHlo.binary main_v62 main_v63 main_v64 (maximumf : (⟨S100000, .f32⟩ : BufTy).Contents (Elt F) → (⟨S100000, .f32⟩ : BufTy).Contents (Elt F) → (⟨S100000, .f32⟩ : BufTy).Contents (Elt F)),
    StableHlo.unary main_v64 main_v65 (broadcastInDim S100000x1 ![0] bcast_S100000_S100000x1_0 : (⟨S100000, .f32⟩ : BufTy).Contents (Elt F) → (⟨S100000x1, .f32⟩ : BufTy).Contents (Elt F)),
    StableHlo.unary main_v65 main_v66 (broadcastInDim S100000x64 ![0, 1] bcast_S100000x1_S100000x64_0_1 : (⟨S100000x1, .f32⟩ : BufTy).Contents (Elt F) → (⟨S100000x64, .f32⟩ : BufTy).Contents (Elt F)),
    StableHlo.binary main_v58 main_v66 main_v67 (Host.divf : (⟨S100000x64, .f32⟩ : BufTy).Contents (Elt F) → (⟨S100000x64, .f32⟩ : BufTy).Contents (Elt F) → (⟨S100000x64, .f32⟩ : BufTy).Contents (Elt F)) ]
theorem pAgg1_sub : (pAgg1 : List (HloOp τ sig (Elt F))).Forall fun op => op.bufs ⊆ tcRefs τ sig :=
  ⟨StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.unary_bufs_sub .., StableHlo.ternary_bufs_sub .., StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.unary_bufs_sub .., StableHlo.unary_bufs_sub .., StableHlo.binary_bufs_sub ..⟩
theorem pAgg1_fresh : (pAgg1 : List (HloOp τ sig (Elt F))).Forall fun op => op.fresh = ∅ := by
  simp only [List.Forall]; repeat' constructor

/-- Layer 1's linear part. -/
abbrev pLin1 : List (HloOp τ sig (Elt F)) :=
  [ StableHlo.binary main_v67 main_arg5 main_v68 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.binary main_v48 main_arg6 main_v69 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.binary main_v68 main_v69 main_v70 (addf : (⟨S100000x64, .f32⟩ : BufTy).Contents (Elt F) → (⟨S100000x64, .f32⟩ : BufTy).Contents (Elt F) → (⟨S100000x64, .f32⟩ : BufTy).Contents (Elt F)),
    StableHlo.unary main_arg7 main_v71 (broadcastInDim S1x64 ![1] bcast_S64_S1x64_1 : (⟨S64, .f32⟩ : BufTy).Contents (Elt F) → (⟨S1x64, .f32⟩ : BufTy).Contents (Elt F)),
    StableHlo.unary main_v71 main_v72 (broadcastInDim S100000x64 ![0, 1] bcast_S1x64_S100000x64_0_1 : (⟨S1x64, .f32⟩ : BufTy).Contents (Elt F) → (⟨S100000x64, .f32⟩ : BufTy).Contents (Elt F)),
    StableHlo.binary main_v70 main_v72 main_v73 (addf : (⟨S100000x64, .f32⟩ : BufTy).Contents (Elt F) → (⟨S100000x64, .f32⟩ : BufTy).Contents (Elt F) → (⟨S100000x64, .f32⟩ : BufTy).Contents (Elt F)) ]
theorem pLin1_sub : (pLin1 : List (HloOp τ sig (Elt F))).Forall fun op => op.bufs ⊆ tcRefs τ sig :=
  ⟨StableHlo.binary_bufs_sub .., StableHlo.binary_bufs_sub .., StableHlo.binary_bufs_sub .., StableHlo.unary_bufs_sub .., StableHlo.unary_bufs_sub .., StableHlo.binary_bufs_sub ..⟩
theorem pLin1_fresh : (pLin1 : List (HloOp τ sig (Elt F))).Forall fun op => op.fresh = ∅ := by
  simp only [List.Forall]; repeat' constructor

/-- Layer 1's batch statistics, normalisation and rectifier. -/
abbrev pBn1 : List (HloOp τ sig (Elt F)) :=
  [ StableHlo.nullary main_cst_14 (constant S_ .f32 0x00000000#32),
    StableHlo.binary main_v73 main_cst_14 main_v74 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_15 (constant S_ .f32 0x47C35000#32),
    StableHlo.unary main_cst_15 main_v75 (broadcastInDim S64 ![] bcast_S_S64 : (⟨S_, .f32⟩ : BufTy).Contents (Elt F) → (⟨S64, .f32⟩ : BufTy).Contents (Elt F)),
    StableHlo.binary main_v74 main_v75 main_v76 (Host.divf : (⟨S64, .f32⟩ : BufTy).Contents (Elt F) → (⟨S64, .f32⟩ : BufTy).Contents (Elt F) → (⟨S64, .f32⟩ : BufTy).Contents (Elt F)),
    StableHlo.nullary main_c_16 (constantI S_ 32 0#32),
    StableHlo.TRef.nullary (.of main_call2_cst : StableHlo.TRef sig ⟨S_, .f32⟩) (constant S_ .f32 0x00000000#32),
    StableHlo.TRef.binary (.of main_v73 : StableHlo.TRef sig ⟨S100000x64, .f32⟩) (.of main_call2_cst : StableHlo.TRef sig ⟨S_, .f32⟩) (.of main_call2_v0 : StableHlo.TRef sig ⟨S64, .f32⟩) (fun x v => Host.reduceAdd x v reducesTo_S100000x64_S64_d0 h_S_),
    StableHlo.TRef.unary (.of main_call2_v0 : StableHlo.TRef sig ⟨S64, .f32⟩) (.of main_call2_v1 : StableHlo.TRef sig ⟨S1x64, .f32⟩) (broadcastInDim S1x64 ![1] bcast_S64_S1x64_1),
    StableHlo.TRef.nullary (.of main_call2_cst_0 : StableHlo.TRef sig ⟨S_, .f32⟩) (constant S_ .f32 0x47C35000#32),
    StableHlo.TRef.unary (.of main_call2_cst_0 : StableHlo.TRef sig ⟨S_, .f32⟩) (.of main_call2_v2 : StableHlo.TRef sig ⟨S1x64, .f32⟩) (broadcastInDim S1x64 ![] bcast_S_S1x64),
    StableHlo.TRef.binary (.of main_call2_v1 : StableHlo.TRef sig ⟨S1x64, .f32⟩) (.of main_call2_v2 : StableHlo.TRef sig ⟨S1x64, .f32⟩) (.of main_call2_v3 : StableHlo.TRef sig ⟨S1x64, .f32⟩) Host.divf,
    StableHlo.TRef.unary (.of main_call2_v3 : StableHlo.TRef sig ⟨S1x64, .f32⟩) (.of main_call2_v4 : StableHlo.TRef sig ⟨S100000x64, .f32⟩) (broadcastInDim S100000x64 ![0, 1] bcast_S1x64_S100000x64_0_1),
    StableHlo.TRef.binary (.of main_v73 : StableHlo.TRef sig ⟨S100000x64, .f32⟩) (.of main_call2_v4 : StableHlo.TRef sig ⟨S100000x64, .f32⟩) (.of main_call2_v5 : StableHlo.TRef sig ⟨S100000x64, .f32⟩) subf,
    StableHlo.TRef.binary (.of main_call2_v5 : StableHlo.TRef sig ⟨S100000x64, .f32⟩) (.of main_call2_v5 : StableHlo.TRef sig ⟨S100000x64, .f32⟩) (.of main_call2_v6 : StableHlo.TRef sig ⟨S100000x64, .f32⟩) mulf,
    StableHlo.TRef.unary (.of main_c_16 : StableHlo.TRef sig ⟨S_, .i32⟩) (.of main_call2_v7 : StableHlo.TRef sig ⟨S_, .f32⟩) (sitofp .f32),
    StableHlo.TRef.nullary (.of main_call2_cst_1 : StableHlo.TRef sig ⟨S_, .f32⟩) (constant S_ .f32 0x47C35000#32),
    StableHlo.TRef.binary (.of main_call2_cst_1 : StableHlo.TRef sig ⟨S_, .f32⟩) (.of main_call2_v7 : StableHlo.TRef sig ⟨S_, .f32⟩) (.of main_call2_v8 : StableHlo.TRef sig ⟨S_, .f32⟩) subf,
    StableHlo.TRef.nullary (.of main_call2_cst_2 : StableHlo.TRef sig ⟨S_, .f32⟩) (constant S_ .f32 0x00000000#32),
    StableHlo.TRef.binary (.of main_call2_v6 : StableHlo.TRef sig ⟨S100000x64, .f32⟩) (.of main_call2_cst_2 : StableHlo.TRef sig ⟨S_, .f32⟩) (.of main_call2_v9 : StableHlo.TRef sig ⟨S64, .f32⟩) (fun x v => Host.reduceAdd x v reducesTo_S100000x64_S64_d0 h_S_),
    StableHlo.TRef.unary (.of main_call2_v8 : StableHlo.TRef sig ⟨S_, .f32⟩) (.of main_call2_v10 : StableHlo.TRef sig ⟨S64, .f32⟩) (broadcastInDim S64 ![] bcast_S_S64),
    StableHlo.TRef.binary (.of main_call2_v9 : StableHlo.TRef sig ⟨S64, .f32⟩) (.of main_call2_v10 : StableHlo.TRef sig ⟨S64, .f32⟩) (.of main_call2_v11 : StableHlo.TRef sig ⟨S64, .f32⟩) Host.divf,
    StableHlo.TRef.nullary (.of main_call2_cst_3 : StableHlo.TRef sig ⟨S_, .f32⟩) (constant S_ .f32 0x00000000#32),
    StableHlo.TRef.binary (.of main_call2_v8 : StableHlo.TRef sig ⟨S_, .f32⟩) (.of main_call2_cst_3 : StableHlo.TRef sig ⟨S_, .f32⟩) (.of main_call2_v12 : StableHlo.TRef sig ⟨S_, .i1⟩) (cmpf .ogt),
    StableHlo.TRef.nullary (.of main_call2_cst_4 : StableHlo.TRef sig ⟨S_, .f32⟩) (constant S_ .f32 0x7FC00000#32),
    StableHlo.TRef.unary (.of main_call2_cst_4 : StableHlo.TRef sig ⟨S_, .f32⟩) (.of main_call2_call0_v0 : StableHlo.TRef sig ⟨S_, .f32⟩) id,
    StableHlo.TRef.unary (.of main_call2_call0_v0 : StableHlo.TRef sig ⟨S_, .f32⟩) (.of main_call2_call0_v1 : StableHlo.TRef sig ⟨S64, .f32⟩) (broadcastInDim S64 ![] bcast_S_S64),
    StableHlo.TRef.ternary (.of main_call2_v12 : StableHlo.TRef sig ⟨S_, .i1⟩) (.of main_call2_v11 : StableHlo.TRef sig ⟨S64, .f32⟩) (.of main_call2_call0_v1 : StableHlo.TRef sig ⟨S64, .f32⟩) (.of main_v77 : StableHlo.TRef sig ⟨S64, .f32⟩) (fun p a b => select (broadcastInDim S64 ![] bcast_S_S64 p) a b),
    StableHlo.unary main_v76 main_v78 (broadcastInDim S1x64 ![1] bcast_S64_S1x64_1 : (⟨S64, .f32⟩ : BufTy).Contents (Elt F) → (⟨S1x64, .f32⟩ : BufTy).Contents (Elt F)),
    StableHlo.unary main_v78 main_v79 (broadcastInDim S100000x64 ![0, 1] bcast_S1x64_S100000x64_0_1 : (⟨S1x64, .f32⟩ : BufTy).Contents (Elt F) → (⟨S100000x64, .f32⟩ : BufTy).Contents (Elt F)),
    StableHlo.binary main_v73 main_v79 main_v80 (subf : (⟨S100000x64, .f32⟩ : BufTy).Contents (Elt F) → (⟨S100000x64, .f32⟩ : BufTy).Contents (Elt F) → (⟨S100000x64, .f32⟩ : BufTy).Contents (Elt F)),
    StableHlo.nullary main_cst_17 (constant S_ .f32 0x3727C5AC#32),
    StableHlo.unary main_cst_17 main_v81 (broadcastInDim S64 ![] bcast_S_S64 : (⟨S_, .f32⟩ : BufTy).Contents (Elt F) → (⟨S64, .f32⟩ : BufTy).Contents (Elt F)),
    StableHlo.binary main_v77 main_v81 main_v82 (addf : (⟨S64, .f32⟩ : BufTy).Contents (Elt F) → (⟨S64, .f32⟩ : BufTy).Contents (Elt F) → (⟨S64, .f32⟩ : BufTy).Contents (Elt F)),
    StableHlo.unary main_v82 main_v83 (Host.rsqrt : (⟨S64, .f32⟩ : BufTy).Contents (Elt F) → (⟨S64, .f32⟩ : BufTy).Contents (Elt F)),
    StableHlo.unary main_v83 main_v84 (broadcastInDim S1x64 ![1] bcast_S64_S1x64_1 : (⟨S64, .f32⟩ : BufTy).Contents (Elt F) → (⟨S1x64, .f32⟩ : BufTy).Contents (Elt F)),
    StableHlo.unary main_v84 main_v85 (broadcastInDim S100000x64 ![0, 1] bcast_S1x64_S100000x64_0_1 : (⟨S1x64, .f32⟩ : BufTy).Contents (Elt F) → (⟨S100000x64, .f32⟩ : BufTy).Contents (Elt F)),
    StableHlo.binary main_v80 main_v85 main_v86 (mulf : (⟨S100000x64, .f32⟩ : BufTy).Contents (Elt F) → (⟨S100000x64, .f32⟩ : BufTy).Contents (Elt F) → (⟨S100000x64, .f32⟩ : BufTy).Contents (Elt F)),
    StableHlo.unary main_arg13 main_v87 (broadcastInDim S1x64 ![1] bcast_S64_S1x64_1 : (⟨S64, .f32⟩ : BufTy).Contents (Elt F) → (⟨S1x64, .f32⟩ : BufTy).Contents (Elt F)),
    StableHlo.unary main_v87 main_v88 (broadcastInDim S100000x64 ![0, 1] bcast_S1x64_S100000x64_0_1 : (⟨S1x64, .f32⟩ : BufTy).Contents (Elt F) → (⟨S100000x64, .f32⟩ : BufTy).Contents (Elt F)),
    StableHlo.binary main_v86 main_v88 main_v89 (mulf : (⟨S100000x64, .f32⟩ : BufTy).Contents (Elt F) → (⟨S100000x64, .f32⟩ : BufTy).Contents (Elt F) → (⟨S100000x64, .f32⟩ : BufTy).Contents (Elt F)),
    StableHlo.unary main_arg14 main_v90 (broadcastInDim S1x64 ![1] bcast_S64_S1x64_1 : (⟨S64, .f32⟩ : BufTy).Contents (Elt F) → (⟨S1x64, .f32⟩ : BufTy).Contents (Elt F)),
    StableHlo.unary main_v90 main_v91 (broadcastInDim S100000x64 ![0, 1] bcast_S1x64_S100000x64_0_1 : (⟨S1x64, .f32⟩ : BufTy).Contents (Elt F) → (⟨S100000x64, .f32⟩ : BufTy).Contents (Elt F)),
    StableHlo.binary main_v89 main_v91 main_v92 (addf : (⟨S100000x64, .f32⟩ : BufTy).Contents (Elt F) → (⟨S100000x64, .f32⟩ : BufTy).Contents (Elt F) → (⟨S100000x64, .f32⟩ : BufTy).Contents (Elt F)),
    StableHlo.TRef.nullary (.of main_call3_cst : StableHlo.TRef sig ⟨S_, .f32⟩) (constant S_ .f32 0x00000000#32),
    StableHlo.TRef.unary (.of main_call3_cst : StableHlo.TRef sig ⟨S_, .f32⟩) (.of main_call3_v0 : StableHlo.TRef sig ⟨S100000x64, .f32⟩) (broadcastInDim S100000x64 ![] bcast_S_S100000x64),
    StableHlo.TRef.binary (.of main_v92 : StableHlo.TRef sig ⟨S100000x64, .f32⟩) (.of main_call3_v0 : StableHlo.TRef sig ⟨S100000x64, .f32⟩) (.of main_v93 : StableHlo.TRef sig ⟨S100000x64, .f32⟩) maximumf ]
theorem pBn1_sub : (pBn1 : List (HloOp τ sig (Elt F))).Forall fun op => op.bufs ⊆ tcRefs τ sig :=
  ⟨StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub ..⟩
theorem pBn1_fresh : (pBn1 : List (HloOp τ sig (Elt F))).Forall fun op => op.fresh = ∅ := by
  simp only [List.Forall]; repeat' constructor

/-- Layer 2's index wrap, up to the wrapped sum. -/
abbrev pAgg2a : List (HloOp τ sig (Elt F)) :=
  [ StableHlo.nullary main_c_18 (constantI S_ 32 0#32),
    StableHlo.unary main_c_18 main_v94 (broadcastInDim S1600000 ![] bcast_S_S1600000 : (⟨S_, .i32⟩ : BufTy).Contents (Elt F) → (⟨S1600000, .i32⟩ : BufTy).Contents (Elt F)),
    StableHlo.binary main_v1 main_v94 main_v95 (cmpi .slt : (⟨S1600000, .i32⟩ : BufTy).Contents (Elt F) → (⟨S1600000, .i32⟩ : BufTy).Contents (Elt F) → (⟨S1600000, .i1⟩ : BufTy).Contents (Elt F)),
    StableHlo.nullary main_c_19 (constantI S_ 32 100000#32),
    StableHlo.unary main_c_19 main_v96 (broadcastInDim S1600000 ![] bcast_S_S1600000 : (⟨S_, .i32⟩ : BufTy).Contents (Elt F) → (⟨S1600000, .i32⟩ : BufTy).Contents (Elt F)),
    StableHlo.binary main_v1 main_v96 main_v97 (addi : (⟨S1600000, .i32⟩ : BufTy).Contents (Elt F) → (⟨S1600000, .i32⟩ : BufTy).Contents (Elt F) → (⟨S1600000, .i32⟩ : BufTy).Contents (Elt F)) ]
theorem pAgg2a_sub : (pAgg2a : List (HloOp τ sig (Elt F))).Forall fun op => op.bufs ⊆ tcRefs τ sig :=
  ⟨StableHlo.nullary_bufs_sub .., StableHlo.unary_bufs_sub .., StableHlo.binary_bufs_sub .., StableHlo.nullary_bufs_sub .., StableHlo.unary_bufs_sub .., StableHlo.binary_bufs_sub ..⟩
theorem pAgg2a_fresh : (pAgg2a : List (HloOp τ sig (Elt F))).Forall fun op => op.fresh = ∅ := by
  simp only [List.Forall]; repeat' constructor

/-- Layer 2's neighbourhood mean from the selected node numbers on. -/
abbrev pAgg2b : List (HloOp τ sig (Elt F)) :=
  [ StableHlo.ternary main_v95 main_v97 main_v1 main_v98 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v98 main_v99 (broadcastInDim S1600000x1 ![0] bcast_S1600000_S1600000x1_0 : (⟨S1600000, .i32⟩ : BufTy).Contents (Elt F) → (⟨S1600000x1, .i32⟩ : BufTy).Contents (Elt F)),
    StableHlo.binary main_v93 main_v99 main_v100 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.nullary main_cst_20 (constant S_ .f32 0x00000000#32),
    StableHlo.unary main_cst_20 main_v101 (broadcastInDim S100000x64 ![] bcast_S_S100000x64 : (⟨S_, .f32⟩ : BufTy).Contents (Elt F) → (⟨S100000x64, .f32⟩ : BufTy).Contents (Elt F)),
    StableHlo.unary main_v3 main_v102 (broadcastInDim S1600000x1 ![0] bcast_S1600000_S1600000x1_0 : (⟨S1600000, .i32⟩ : BufTy).Contents (Elt F) → (⟨S1600000x1, .i32⟩ : BufTy).Contents (Elt F)),
    StableHlo.ternary main_v101 main_v102 main_v100 main_v103 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.nullary main_cst_21 (constant S_ .f32 0x3F800000#32),
    StableHlo.unary main_cst_21 main_v104 (broadcastInDim S1600000 ![] bcast_S_S1600000 : (⟨S_, .f32⟩ : BufTy).Contents (Elt F) → (⟨S1600000, .f32⟩ : BufTy).Contents (Elt F)),
    StableHlo.nullary main_cst_22 (constant S_ .f32 0x00000000#32),
    StableHlo.unary main_cst_22 main_v105 (broadcastInDim S100000 ![] bcast_S_S100000 : (⟨S_, .f32⟩ : BufTy).Contents (Elt F) → (⟨S100000, .f32⟩ : BufTy).Contents (Elt F)),
    StableHlo.unary main_v3 main_v106 (broadcastInDim S1600000x1 ![0] bcast_S1600000_S1600000x1_0 : (⟨S1600000, .i32⟩ : BufTy).Contents (Elt F) → (⟨S1600000x1, .i32⟩ : BufTy).Contents (Elt F)),
    StableHlo.ternary main_v105 main_v106 main_v104 main_v107 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_23 (constant S_ .f32 0x3F800000#32),
    StableHlo.unary main_cst_23 main_v108 (broadcastInDim S100000 ![] bcast_S_S100000 : (⟨S_, .f32⟩ : BufTy).Contents (Elt F) → (⟨S100000, .f32⟩ : BufTy).Contents (Elt F)),
    StableHlo.binary main_v107 main_v108 main_v109 (maximumf : (⟨S100000, .f32⟩ : BufTy).Contents (Elt F) → (⟨S100000, .f32⟩ : BufTy).Contents (Elt F) → (⟨S100000, .f32⟩ : BufTy).Contents (Elt F)),
    StableHlo.unary main_v109 main_v110 (broadcastInDim S100000x1 ![0] bcast_S100000_S100000x1_0 : (⟨S100000, .f32⟩ : BufTy).Contents (Elt F) → (⟨S100000x1, .f32⟩ : BufTy).Contents (Elt F)),
    StableHlo.unary main_v110 main_v111 (broadcastInDim S100000x64 ![0, 1] bcast_S100000x1_S100000x64_0_1 : (⟨S100000x1, .f32⟩ : BufTy).Contents (Elt F) → (⟨S100000x64, .f32⟩ : BufTy).Contents (Elt F)),
    StableHlo.binary main_v103 main_v111 main_v112 (Host.divf : (⟨S100000x64, .f32⟩ : BufTy).Contents (Elt F) → (⟨S100000x64, .f32⟩ : BufTy).Contents (Elt F) → (⟨S100000x64, .f32⟩ : BufTy).Contents (Elt F)) ]
theorem pAgg2b_sub : (pAgg2b : List (HloOp τ sig (Elt F))).Forall fun op => op.bufs ⊆ tcRefs τ sig :=
  ⟨StableHlo.ternary_bufs_sub .., StableHlo.unary_bufs_sub .., StableHlo.binary_bufs_sub .., StableHlo.nullary_bufs_sub .., StableHlo.unary_bufs_sub .., StableHlo.unary_bufs_sub .., StableHlo.ternary_bufs_sub .., StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.unary_bufs_sub .., StableHlo.unary_bufs_sub .., StableHlo.binary_bufs_sub ..⟩
theorem pAgg2b_fresh : (pAgg2b : List (HloOp τ sig (Elt F))).Forall fun op => op.fresh = ∅ := by
  simp only [List.Forall]; repeat' constructor

/-- Layer 2's linear part: the result. -/
abbrev pLin2 : List (HloOp τ sig (Elt F)) :=
  [ StableHlo.binary main_v112 main_arg8 main_v113 ((fun l r => Host.dotGeneral dot_S100000x64_S64x40_S100000x40_1_0_0_1_n_n none l r) : (⟨S100000x64, .f32⟩ : BufTy).Contents (Elt F) → (⟨S64x40, .f32⟩ : BufTy).Contents (Elt F) → (⟨S100000x40, .f32⟩ : BufTy).Contents (Elt F)),
    StableHlo.binary main_v93 main_arg9 main_v114 ((fun l r => Host.dotGeneral dot_S100000x64_S64x40_S100000x40_1_0_0_1_n_n none l r) : (⟨S100000x64, .f32⟩ : BufTy).Contents (Elt F) → (⟨S64x40, .f32⟩ : BufTy).Contents (Elt F) → (⟨S100000x40, .f32⟩ : BufTy).Contents (Elt F)),
    StableHlo.binary main_v113 main_v114 main_v115 (addf : (⟨S100000x40, .f32⟩ : BufTy).Contents (Elt F) → (⟨S100000x40, .f32⟩ : BufTy).Contents (Elt F) → (⟨S100000x40, .f32⟩ : BufTy).Contents (Elt F)),
    StableHlo.unary main_arg10 main_v116 (broadcastInDim S1x40 ![1] bcast_S40_S1x40_1 : (⟨S40, .f32⟩ : BufTy).Contents (Elt F) → (⟨S1x40, .f32⟩ : BufTy).Contents (Elt F)),
    StableHlo.unary main_v116 main_v117 (broadcastInDim S100000x40 ![0, 1] bcast_S1x40_S100000x40_0_1 : (⟨S1x40, .f32⟩ : BufTy).Contents (Elt F) → (⟨S100000x40, .f32⟩ : BufTy).Contents (Elt F)),
    StableHlo.binary main_v115 main_v117 main_v118 (addf : (⟨S100000x40, .f32⟩ : BufTy).Contents (Elt F) → (⟨S100000x40, .f32⟩ : BufTy).Contents (Elt F) → (⟨S100000x40, .f32⟩ : BufTy).Contents (Elt F)) ]
theorem pLin2_sub : (pLin2 : List (HloOp τ sig (Elt F))).Forall fun op => op.bufs ⊆ tcRefs τ sig :=
  ⟨StableHlo.binary_bufs_sub .., StableHlo.binary_bufs_sub .., StableHlo.binary_bufs_sub .., StableHlo.unary_bufs_sub .., StableHlo.unary_bufs_sub .., StableHlo.binary_bufs_sub ..⟩
theorem pLin2_fresh : (pLin2 : List (HloOp τ sig (Elt F))).Forall fun op => op.fresh = ∅ := by
  simp only [List.Forall]; repeat' constructor

/-! ## The entry function's three parts and the whole line -/

/-- The first part's operations. -/
abbrev P0 : List (HloOp τ sig (Elt F)) := pPre ++ (pAgg0 ++ (pLin0 ++ (pBn0 ++ pC8)))
/-- The second part's operations. -/
abbrev P1 : List (HloOp τ sig (Elt F)) := pAgg1 ++ (pLin1 ++ (pBn1 ++ pAgg2a))
/-- The third part's operations. -/
abbrev P2 : List (HloOp τ sig (Elt F)) := pAgg2b ++ pLin2

/-- The entry function's operations in order, the four calls replaced by their callees' operations. -/
abbrev ops : List (HloOp τ sig (Elt F)) := P0 ++ (P1 ++ P2)

set_option maxRecDepth 8192 in
/-- The first part is its straight line: the callees' definitions unfolded at the calls, sequencing reassociated. -/
theorem part0_eq (c : Dev nD) : main_part0 (F := F) c = seq P0 := by
  simp only [main_part0, fn_var.body, fn_where.body, fn_relu.body, P0, pPre, pAgg0, pLin0, pBn0, pC8,
    List.cons_append, List.nil_append, seq, bind_assoc, pure_bind]
  rfl

set_option maxRecDepth 8192 in
/-- The second part is its straight line. -/
theorem part1_eq (c : Dev nD) : main_part1 (F := F) c = seq P1 := by
  simp only [main_part1, fn_var.body, fn_where.body, fn_relu.body, P1, pAgg1, pLin1, pBn1, pAgg2a,
    List.cons_append, List.nil_append, seq, bind_assoc, pure_bind]
  rfl

set_option maxRecDepth 8192 in
/-- The third part is its straight line. -/
theorem part2_eq (c : Dev nD) : main_part2 (F := F) c = seq P2 := by
  simp only [main_part2, P2, pAgg2b, pLin2, List.cons_append, List.nil_append, seq, bind_assoc, pure_bind]

/-- The entry function runs its three parts in order, so it is the straight line of all the operations. -/
theorem main_eq (c : Dev nD) : main (F := F) c = seq ops := by
  refine Eq.trans ?_ (seq_append P0 (P1 ++ P2)).symm
  refine Eq.trans ?_ (congrArg (fun k => seq P0 >>= fun _ => k) (seq_append P1 P2).symm)
  show (main_part0 (F := F) c >>= fun _ => (main_part1 (F := F) c >>= fun _ => main_part2 (F := F) c)) = _
  rw [part0_eq, part1_eq, part2_eq]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  Cert.LibAfter.Forall.append
    (Cert.LibAfter.Forall.append pPre_sub (Cert.LibAfter.Forall.append pAgg0_sub (Cert.LibAfter.Forall.append pLin0_sub
      (Cert.LibAfter.Forall.append pBn0_sub pC8_sub))))
    (Cert.LibAfter.Forall.append
      (Cert.LibAfter.Forall.append pAgg1_sub (Cert.LibAfter.Forall.append pLin1_sub (Cert.LibAfter.Forall.append pBn1_sub pAgg2a_sub)))
      (Cert.LibAfter.Forall.append pAgg2b_sub pLin2_sub))

/-- No operation allocates a buffer. -/
theorem ops_fresh : (ops : List (HloOp τ sig (Elt F))).Forall fun op => op.fresh = ∅ :=
  Cert.LibAfter.Forall.append
    (Cert.LibAfter.Forall.append pPre_fresh (Cert.LibAfter.Forall.append pAgg0_fresh (Cert.LibAfter.Forall.append pLin0_fresh
      (Cert.LibAfter.Forall.append pBn0_fresh pC8_fresh))))
    (Cert.LibAfter.Forall.append
      (Cert.LibAfter.Forall.append pAgg1_fresh (Cert.LibAfter.Forall.append pLin1_fresh (Cert.LibAfter.Forall.append pBn1_fresh pAgg2a_fresh)))
      (Cert.LibAfter.Forall.append pAgg2b_fresh pLin2_fresh))

/-- At the compiled mesh, for any float values, from any memory with zero counters: every weakly fair execution of the
    entry function on the TensorCores terminates, and every final state has each TensorCore buffer at the operations' fold
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ
    (Cert.LibAfter.fresh_of_forall_dev fun _ => ops_fresh)

end Cert.ReferenceIdeal.Hand

end
-- ==== Proof.LibHostDot.lean ====
/-
  The host's matrix product read at an index, at the ideal values (extended reals, exact operations).

  A plain `stablehlo.dot_general` of an `M×K` by a `K×N` operand (no batch axis; the left operand contracted on its
  second axis, the right on its first) is, at `(r, j)`, the sum over `k : Fin K` of `lhs (r, k) * rhs (k, j)`,
  whatever the operands' float formats and the precision attribute.  It is the host's counterpart of a kernel's plain
  `tpu.matmul` into the zero accumulator read the same way; stated over the same sum, the two meet without any further
  re-indexing.  Standalone: imports only the Idealize library.
-/
import Idealize.ShloMosaic.Lib.ValueIdx
import Idealize.ShloMosaic.Lib.Pipeline.Value
import Idealize.ShloMosaic.PureOps.Ideal.Laws

noncomputable section

namespace Cert.LibHostDot

open Idealize.ShloMosaic Idealize.ShloMosaic.ValueIdx

/-- In a plain product the left operand's index at output `(r, j)` keeps the output row on its first axis; -/
theorem plain_lhs0 (M K N : ℕ) (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch by simp [DotDims.plain]),
    dif_pos (show (0 : Fin 2) ∈ (DotDims.plain M K N).lhsNonContracting by simp [DotDims.plain])]
  rfl
/-- and the right operand's keeps the output lane on its second. -/
theorem plain_rhs1 (M K N : ℕ) (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch by simp [DotDims.plain]),
    dif_pos (show (1 : Fin 2) ∈ (DotDims.plain M K N).rhsNonContracting by simp [DotDims.plain])]
  rfl

/-- The host's plain `M×K` by `K×N` `dot_general` at `(r, j)`: the sum over `k` of `lhs (r, k) * rhs (k, j)`. -/
theorem dotGeneral_plain_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (r : Fin M) (j : Fin N) :
    Host.dotGeneral d prec lhs rhs (ix2 r j) = ∑ k : Fin K, lhs (ix2 r k) * rhs (ix2 k j) := by
  subst hd
  simp only [Host.dotGeneral]
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r j) ((contrEquiv1 (DotDims.plain M K N) K rfl rfl).symm k) = ix2 r k :=
    funext fun ax => Fin.ext (by
      match ax with
      | ⟨0, _⟩ => exact plain_lhs0 M K N _ _
      | ⟨1, _⟩ => exact ((DotDims.plain M K N).lhsIdx_val_of_single (cl := (1 : Fin 2)) rfl _ _).trans hk)
  have er : (DotDims.plain M K N).rhsIdx (ix2 r j) ((contrEquiv1 (DotDims.plain M K N) K rfl rfl).symm k) = ix2 k j :=
    funext fun ax => Fin.ext (by
      match ax with
      | ⟨0, _⟩ => exact ((DotDims.plain M K N).rhsIdx_val_of_single (cr := (0 : Fin 2)) rfl _ _).trans hk
      | ⟨1, _⟩ => exact plain_rhs1 M K N _ _)
  rw [el, er]

end Cert.LibHostDot

end
-- ==== Proof.RefValue.lean ====
/-
  The reference program's result, as the three-layer network of the specification.

  The program's straight line of operations is cut into its stages.  Each stage's effect on the few arrays the later
  stages read is stated as a named function of the arrays it reads: the two rows of the edge table as lists of node
  numbers; a layer's neighbourhood mean (the rows of the source nodes gathered, added up per destination node, and
  divided by the in-degree, at least one); a layer's linear part; the batch mean and variance of a layer's output; the
  normalisation, scale, shift and rectifier.  Every other array a stage does not write keeps its contents.  Threading
  these through the nine stages gives the result array as a composition of the named functions, and the linear part
  and the normalisation are then the specification's, entry by entry: a matrix product read at an entry is the sum
  over the contracted index, a per-channel row repeated down the rows reads its own entry, and the arithmetic at an
  entry is the extended reals'.  The neighbourhood mean and the two statistics stay opaque functions of the array
  they are applied to.
-/
import proofs.«106070_j38113539785173_1_alg».proof.Proof.RefOps
import proofs.«106070_j38113539785173_1_alg».proof.Proof.Spec
import proofs.«106070_j38113539785173_1_alg».proof.Proof.LibHostDot
import Idealize.ShloMosaic.Lib.KernelVsHost
import Idealize.ShloMosaic.Lib.IdealHost

noncomputable section

namespace Cert.ReferenceIdeal.Hand

open Cert.ReferenceIdeal Cert.ReferenceIdeal.Gen Idealize.ShloMosaic Idealize.ShloMosaic.TcCoe Idealize.SL.Sem
  Idealize.ShloMosaic.StableHlo Idealize.ShloMosaic.ValueIdx

/-! ## The stages as functions of the arrays they read -/

/-- The edge table: two rows of node numbers. -/
abbrev EdgeTab : Type := (⟨S2x1600000, .i32⟩ : BufTy).Contents (Elt Ideal)

/-- The edges' source nodes: the table's first row as a flat list. -/
def srcIdx (ei : EdgeTab) : IVec S1600000 32 :=
  shapeCast S1600000 (extractStridedSlice S1x1600000 ![0, 0] ei slices_S2x1600000_S1x1600000_0_0) shapeCasts_S1x1600000_S1600000

/-- The edges' destination nodes: the table's second row as a flat list. -/
def dstIdx (ei : EdgeTab) : IVec S1600000 32 :=
  shapeCast S1600000 (extractStridedSlice S1x1600000 ![1, 0] ei slices_S2x1600000_S1x1600000_1_0) shapeCasts_S1x1600000_S1600000

/-- The neighbourhood mean from the two node lists: a negative source number is wrapped by the node count, the source
    rows are gathered and added up per destination, and each destination's sum is divided by the number of edges
    arriving there, or by one when there is none. -/
def aggOf (src dst : IVec S1600000 32) (h : FVec Ideal S100000x64 .f32) : FVec Ideal S100000x64 .f32 :=
  Host.divf (F := Ideal)
    (Host.scatterAdd (F := Ideal) scatter_S100000x64_S1600000x1_S1600000x64_1_0_0_1
      (broadcastInDim S100000x64 ![] bcast_S_S100000x64 (constant (F := Ideal) S_ .f32 0x00000000#32))
      (broadcastInDim S1600000x1 ![0] bcast_S1600000_S1600000x1_0 dst)
      (Host.gather gather_S100000x64_S1600000x1_S1600000x64_1_0_n_n_0_1_164 h
        (broadcastInDim S1600000x1 ![0] bcast_S1600000_S1600000x1_0 (select (cmpi .slt src (broadcastInDim S1600000 ![] bcast_S_S1600000 (constantI S_ 32 0#32)))
          (addi src (broadcastInDim S1600000 ![] bcast_S_S1600000 (constantI S_ 32 100000#32))) src))))
    (broadcastInDim S100000x64 ![0, 1] bcast_S100000x1_S100000x64_0_1
      (broadcastInDim S100000x1 ![0] bcast_S100000_S100000x1_0
        (maximumf (F := Ideal)
          (Host.scatterAdd (F := Ideal) scatter_S100000_S1600000x1_S1600000_n_0_0_1
            (broadcastInDim S100000 ![] bcast_S_S100000 (constant (F := Ideal) S_ .f32 0x00000000#32))
            (broadcastInDim S1600000x1 ![0] bcast_S1600000_S1600000x1_0 dst)
            (broadcastInDim S1600000 ![] bcast_S_S1600000 (constant (F := Ideal) S_ .f32 0x3F800000#32)))
          (broadcastInDim S100000 ![] bcast_S_S100000 (constant (F := Ideal) S_ .f32 0x3F800000#32)))))

/-- A 64-channel layer's linear part in the program's operations. -/
def linOf64 (a x : FVec Ideal S100000x64 .f32) (Wl Wr : FVec Ideal S64x64 .f32) (b : FVec Ideal S64 .f32) :
    FVec Ideal S100000x64 .f32 :=
  addf (addf (Host.dotGeneral dot_S100000x64_S64x64_S100000x64_1_0_0_1_n_n none a Wl)
      (Host.dotGeneral dot_S100000x64_S64x64_S100000x64_1_0_0_1_n_n none x Wr))
    (broadcastInDim S100000x64 ![0, 1] bcast_S1x64_S100000x64_0_1 (broadcastInDim S1x64 ![1] bcast_S64_S1x64_1 b))

/-- The 40-channel layer's linear part in the program's operations. -/
def linOf40 (a x : FVec Ideal S100000x64 .f32) (Wl Wr : FVec Ideal S64x40 .f32) (b : FVec Ideal S40 .f32) :
    FVec Ideal S100000x40 .f32 :=
  addf (addf (Host.dotGeneral dot_S100000x64_S64x40_S100000x40_1_0_0_1_n_n none a Wl)
      (Host.dotGeneral dot_S100000x64_S64x40_S100000x40_1_0_0_1_n_n none x Wr))
    (broadcastInDim S100000x40 ![0, 1] bcast_S1x40_S100000x40_0_1 (broadcastInDim S1x40 ![1] bcast_S40_S1x40_1 b))

/-- The batch mean of each channel: the column sums divided by the number of rows. -/
def muOf (y : FVec Ideal S100000x64 .f32) : FVec Ideal S64 .f32 :=
  Host.divf (F := Ideal) (Host.reduceAdd y (constant (F := Ideal) S_ .f32 0x00000000#32) reducesTo_S100000x64_S64_d0 h_S_)
    (broadcastInDim S64 ![] bcast_S_S64 (constant (F := Ideal) S_ .f32 0x47C35000#32))

/-- The deviations from the channel means the variance squares: the mean here is computed with its single row kept. -/
def devOf (y : FVec Ideal S100000x64 .f32) : FVec Ideal S100000x64 .f32 :=
  subf y (broadcastInDim S100000x64 ![0, 1] bcast_S1x64_S100000x64_0_1 (Host.divf (F := Ideal) (broadcastInDim S1x64 ![1] bcast_S64_S1x64_1 (Host.reduceAdd y (constant (F := Ideal) S_ .f32 0x00000000#32) reducesTo_S100000x64_S64_d0 h_S_)) (broadcastInDim S1x64 ![] bcast_S_S1x64 (constant (F := Ideal) S_ .f32 0x47C35000#32))))

/-- The divisor of the variance: the number of rows less the correction, here the integer zero converted. -/
def varDen : FVec Ideal S_ .f32 :=
  subf (constant (F := Ideal) S_ .f32 0x47C35000#32) (sitofp .f32 (constantI S_ 32 0#32))

/-- The batch variance of each channel: the column sums of the squared deviations over the divisor, where the divisor
    is positive, and the not-a-number constant where it is not. -/
def varOf (y : FVec Ideal S100000x64 .f32) : FVec Ideal S64 .f32 :=
  select (broadcastInDim S64 ![] bcast_S_S64 (cmpf .ogt varDen (constant (F := Ideal) S_ .f32 0x00000000#32)))
    (Host.divf (F := Ideal) (Host.reduceAdd (mulf (devOf y) (devOf y)) (constant (F := Ideal) S_ .f32 0x00000000#32) reducesTo_S100000x64_S64_d0 h_S_)
      (broadcastInDim S64 ![] bcast_S_S64 varDen))
    (broadcastInDim S64 ![] bcast_S_S64 (id (constant (F := Ideal) S_ .f32 0x7FC00000#32)))

/-- Normalisation by the batch statistics, scale, shift and rectifier, in the program's operations. -/
def bnOf (y : FVec Ideal S100000x64 .f32) (g be : FVec Ideal S64 .f32) : FVec Ideal S100000x64 .f32 :=
  maximumf
    (addf
      (mulf
        (mulf (subf y (broadcastInDim S100000x64 ![0, 1] bcast_S1x64_S100000x64_0_1 (broadcastInDim S1x64 ![1] bcast_S64_S1x64_1 (muOf y))))
          (broadcastInDim S100000x64 ![0, 1] bcast_S1x64_S100000x64_0_1 (broadcastInDim S1x64 ![1] bcast_S64_S1x64_1 (Host.rsqrt (addf (varOf y) (broadcastInDim S64 ![] bcast_S_S64 (constant (F := Ideal) S_ .f32 0x3727C5AC#32)))))))
        (broadcastInDim S100000x64 ![0, 1] bcast_S1x64_S100000x64_0_1 (broadcastInDim S1x64 ![1] bcast_S64_S1x64_1 g)))
      (broadcastInDim S100000x64 ![0, 1] bcast_S1x64_S100000x64_0_1 (broadcastInDim S1x64 ![1] bcast_S64_S1x64_1 be)))
    (broadcastInDim S100000x64 ![] bcast_S_S100000x64 (constant (F := Ideal) S_ .f32 0x00000000#32))

/-- The neighbourhood mean as a function of the edge table and the features. -/
def aggR (ei : EdgeTab) (h : Cert.Sage.Mat 100000 64) : Cert.Sage.Mat 100000 64 := aggOf (srcIdx ei) (dstIdx ei) h
/-- The batch mean as a function of a layer's output. -/
def muR (h : Cert.Sage.Mat 100000 64) : Cert.Sage.Row 64 := muOf h
/-- The batch variance as a function of a layer's output. -/
def varR (h : Cert.Sage.Mat 100000 64) : Cert.Sage.Row 64 := varOf h

/-! ## What each stage leaves in the arrays the later stages read

Each equation is the fold of the stage's operations unrolled and read at one array: an operation's result at the array it
writes is its function of its operands' contents, and at any other array what was there.  The gather, the two
scatter-adds and the column sums are kept folded meanwhile: the equations never look inside them. -/

section Stages

attribute [local irreducible] Host.gather Host.scatterAdd Host.reduceAdd

variable (W : Valuation τ sig (Elt Ideal))

theorem pre_v1 : after pPre W (main_v1 : DevRef τ sig) = srcIdx (W (main_arg1 : DevRef τ sig)) := by
  after_results_simp
  first | rfl | fail "not by rfl"
theorem pre_v3 : after pPre W (main_v3 : DevRef τ sig) = dstIdx (W (main_arg1 : DevRef τ sig)) := by
  after_results_simp
  first | rfl | fail "not by rfl"
theorem pre_keep_arg0 : after pPre W (main_arg0 : DevRef τ sig) = W (main_arg0 : DevRef τ sig) := by
  after_results_simp
theorem pre_keep_arg1 : after pPre W (main_arg1 : DevRef τ sig) = W (main_arg1 : DevRef τ sig) := by
  after_results_simp
theorem pre_keep_arg2 : after pPre W (main_arg2 : DevRef τ sig) = W (main_arg2 : DevRef τ sig) := by
  after_results_simp
theorem pre_keep_arg3 : after pPre W (main_arg3 : DevRef τ sig) = W (main_arg3 : DevRef τ sig) := by
  after_results_simp
theorem pre_keep_arg4 : after pPre W (main_arg4 : DevRef τ sig) = W (main_arg4 : DevRef τ sig) := by
  after_results_simp
theorem pre_keep_arg5 : after pPre W (main_arg5 : DevRef τ sig) = W (main_arg5 : DevRef τ sig) := by
  after_results_simp
theorem pre_keep_arg6 : after pPre W (main_arg6 : DevRef τ sig) = W (main_arg6 : DevRef τ sig) := by
  after_results_simp
theorem pre_keep_arg7 : after pPre W (main_arg7 : DevRef τ sig) = W (main_arg7 : DevRef τ sig) := by
  after_results_simp
theorem pre_keep_arg8 : after pPre W (main_arg8 : DevRef τ sig) = W (main_arg8 : DevRef τ sig) := by
  after_results_simp
theorem pre_keep_arg9 : after pPre W (main_arg9 : DevRef τ sig) = W (main_arg9 : DevRef τ sig) := by
  after_results_simp
theorem pre_keep_arg10 : after pPre W (main_arg10 : DevRef τ sig) = W (main_arg10 : DevRef τ sig) := by
  after_results_simp
theorem pre_keep_arg11 : after pPre W (main_arg11 : DevRef τ sig) = W (main_arg11 : DevRef τ sig) := by
  after_results_simp
theorem pre_keep_arg12 : after pPre W (main_arg12 : DevRef τ sig) = W (main_arg12 : DevRef τ sig) := by
  after_results_simp
theorem pre_keep_arg13 : after pPre W (main_arg13 : DevRef τ sig) = W (main_arg13 : DevRef τ sig) := by
  after_results_simp
theorem pre_keep_arg14 : after pPre W (main_arg14 : DevRef τ sig) = W (main_arg14 : DevRef τ sig) := by
  after_results_simp

theorem agg0_v22 : after pAgg0 W (main_v22 : DevRef τ sig) = aggOf (W (main_v1 : DevRef τ sig)) (W (main_v3 : DevRef τ sig)) (W (main_arg0 : DevRef τ sig)) := by
  after_results_simp
  first | rfl | fail "not by rfl"
theorem agg0_keep_arg0 : after pAgg0 W (main_arg0 : DevRef τ sig) = W (main_arg0 : DevRef τ sig) := by
  after_results_simp
theorem agg0_keep_arg1 : after pAgg0 W (main_arg1 : DevRef τ sig) = W (main_arg1 : DevRef τ sig) := by
  after_results_simp
theorem agg0_keep_arg2 : after pAgg0 W (main_arg2 : DevRef τ sig) = W (main_arg2 : DevRef τ sig) := by
  after_results_simp
theorem agg0_keep_arg3 : after pAgg0 W (main_arg3 : DevRef τ sig) = W (main_arg3 : DevRef τ sig) := by
  after_results_simp
theorem agg0_keep_arg4 : after pAgg0 W (main_arg4 : DevRef τ sig) = W (main_arg4 : DevRef τ sig) := by
  after_results_simp
theorem agg0_keep_arg5 : after pAgg0 W (main_arg5 : DevRef τ sig) = W (main_arg5 : DevRef τ sig) := by
  after_results_simp
theorem agg0_keep_arg6 : after pAgg0 W (main_arg6 : DevRef τ sig) = W (main_arg6 : DevRef τ sig) := by
  after_results_simp
theorem agg0_keep_arg7 : after pAgg0 W (main_arg7 : DevRef τ sig) = W (main_arg7 : DevRef τ sig) := by
  after_results_simp
theorem agg0_keep_arg8 : after pAgg0 W (main_arg8 : DevRef τ sig) = W (main_arg8 : DevRef τ sig) := by
  after_results_simp
theorem agg0_keep_arg9 : after pAgg0 W (main_arg9 : DevRef τ sig) = W (main_arg9 : DevRef τ sig) := by
  after_results_simp
theorem agg0_keep_arg10 : after pAgg0 W (main_arg10 : DevRef τ sig) = W (main_arg10 : DevRef τ sig) := by
  after_results_simp
theorem agg0_keep_arg11 : after pAgg0 W (main_arg11 : DevRef τ sig) = W (main_arg11 : DevRef τ sig) := by
  after_results_simp
theorem agg0_keep_arg12 : after pAgg0 W (main_arg12 : DevRef τ sig) = W (main_arg12 : DevRef τ sig) := by
  after_results_simp
theorem agg0_keep_arg13 : after pAgg0 W (main_arg13 : DevRef τ sig) = W (main_arg13 : DevRef τ sig) := by
  after_results_simp
theorem agg0_keep_arg14 : after pAgg0 W (main_arg14 : DevRef τ sig) = W (main_arg14 : DevRef τ sig) := by
  after_results_simp
theorem agg0_keep_v1 : after pAgg0 W (main_v1 : DevRef τ sig) = W (main_v1 : DevRef τ sig) := by
  after_results_simp
theorem agg0_keep_v3 : after pAgg0 W (main_v3 : DevRef τ sig) = W (main_v3 : DevRef τ sig) := by
  after_results_simp

theorem lin0_v28 : after pLin0 W (main_v28 : DevRef τ sig) = linOf64 (W (main_v22 : DevRef τ sig)) (W (main_arg0 : DevRef τ sig)) (W (main_arg2 : DevRef τ sig)) (W (main_arg3 : DevRef τ sig)) (W (main_arg4 : DevRef τ sig)) := by
  after_results_simp
  first | rfl | fail "not by rfl"
theorem lin0_keep_arg0 : after pLin0 W (main_arg0 : DevRef τ sig) = W (main_arg0 : DevRef τ sig) := by
  after_results_simp
theorem lin0_keep_arg1 : after pLin0 W (main_arg1 : DevRef τ sig) = W (main_arg1 : DevRef τ sig) := by
  after_results_simp
theorem lin0_keep_arg2 : after pLin0 W (main_arg2 : DevRef τ sig) = W (main_arg2 : DevRef τ sig) := by
  after_results_simp
theorem lin0_keep_arg3 : after pLin0 W (main_arg3 : DevRef τ sig) = W (main_arg3 : DevRef τ sig) := by
  after_results_simp
theorem lin0_keep_arg4 : after pLin0 W (main_arg4 : DevRef τ sig) = W (main_arg4 : DevRef τ sig) := by
  after_results_simp
theorem lin0_keep_arg5 : after pLin0 W (main_arg5 : DevRef τ sig) = W (main_arg5 : DevRef τ sig) := by
  after_results_simp
theorem lin0_keep_arg6 : after pLin0 W (main_arg6 : DevRef τ sig) = W (main_arg6 : DevRef τ sig) := by
  after_results_simp
theorem lin0_keep_arg7 : after pLin0 W (main_arg7 : DevRef τ sig) = W (main_arg7 : DevRef τ sig) := by
  after_results_simp
theorem lin0_keep_arg8 : after pLin0 W (main_arg8 : DevRef τ sig) = W (main_arg8 : DevRef τ sig) := by
  after_results_simp
theorem lin0_keep_arg9 : after pLin0 W (main_arg9 : DevRef τ sig) = W (main_arg9 : DevRef τ sig) := by
  after_results_simp
theorem lin0_keep_arg10 : after pLin0 W (main_arg10 : DevRef τ sig) = W (main_arg10 : DevRef τ sig) := by
  after_results_simp
theorem lin0_keep_arg11 : after pLin0 W (main_arg11 : DevRef τ sig) = W (main_arg11 : DevRef τ sig) := by
  after_results_simp
theorem lin0_keep_arg12 : after pLin0 W (main_arg12 : DevRef τ sig) = W (main_arg12 : DevRef τ sig) := by
  after_results_simp
theorem lin0_keep_arg13 : after pLin0 W (main_arg13 : DevRef τ sig) = W (main_arg13 : DevRef τ sig) := by
  after_results_simp
theorem lin0_keep_arg14 : after pLin0 W (main_arg14 : DevRef τ sig) = W (main_arg14 : DevRef τ sig) := by
  after_results_simp
theorem lin0_keep_v1 : after pLin0 W (main_v1 : DevRef τ sig) = W (main_v1 : DevRef τ sig) := by
  after_results_simp
theorem lin0_keep_v3 : after pLin0 W (main_v3 : DevRef τ sig) = W (main_v3 : DevRef τ sig) := by
  after_results_simp

theorem bn0_v48 : after pBn0 W (main_v48 : DevRef τ sig) = bnOf (W (main_v28 : DevRef τ sig)) (W (main_arg11 : DevRef τ sig)) (W (main_arg12 : DevRef τ sig)) := by
  after_results_simp
  first | rfl | fail "not by rfl"
theorem bn0_keep_arg0 : after pBn0 W (main_arg0 : DevRef τ sig) = W (main_arg0 : DevRef τ sig) := by
  after_results_simp
theorem bn0_keep_arg1 : after pBn0 W (main_arg1 : DevRef τ sig) = W (main_arg1 : DevRef τ sig) := by
  after_results_simp
theorem bn0_keep_arg2 : after pBn0 W (main_arg2 : DevRef τ sig) = W (main_arg2 : DevRef τ sig) := by
  after_results_simp
theorem bn0_keep_arg3 : after pBn0 W (main_arg3 : DevRef τ sig) = W (main_arg3 : DevRef τ sig) := by
  after_results_simp
theorem bn0_keep_arg4 : after pBn0 W (main_arg4 : DevRef τ sig) = W (main_arg4 : DevRef τ sig) := by
  after_results_simp
theorem bn0_keep_arg5 : after pBn0 W (main_arg5 : DevRef τ sig) = W (main_arg5 : DevRef τ sig) := by
  after_results_simp
theorem bn0_keep_arg6 : after pBn0 W (main_arg6 : DevRef τ sig) = W (main_arg6 : DevRef τ sig) := by
  after_results_simp
theorem bn0_keep_arg7 : after pBn0 W (main_arg7 : DevRef τ sig) = W (main_arg7 : DevRef τ sig) := by
  after_results_simp
theorem bn0_keep_arg8 : after pBn0 W (main_arg8 : DevRef τ sig) = W (main_arg8 : DevRef τ sig) := by
  after_results_simp
theorem bn0_keep_arg9 : after pBn0 W (main_arg9 : DevRef τ sig) = W (main_arg9 : DevRef τ sig) := by
  after_results_simp
theorem bn0_keep_arg10 : after pBn0 W (main_arg10 : DevRef τ sig) = W (main_arg10 : DevRef τ sig) := by
  after_results_simp
theorem bn0_keep_arg11 : after pBn0 W (main_arg11 : DevRef τ sig) = W (main_arg11 : DevRef τ sig) := by
  after_results_simp
theorem bn0_keep_arg12 : after pBn0 W (main_arg12 : DevRef τ sig) = W (main_arg12 : DevRef τ sig) := by
  after_results_simp
theorem bn0_keep_arg13 : after pBn0 W (main_arg13 : DevRef τ sig) = W (main_arg13 : DevRef τ sig) := by
  after_results_simp
theorem bn0_keep_arg14 : after pBn0 W (main_arg14 : DevRef τ sig) = W (main_arg14 : DevRef τ sig) := by
  after_results_simp
theorem bn0_keep_v1 : after pBn0 W (main_v1 : DevRef τ sig) = W (main_v1 : DevRef τ sig) := by
  after_results_simp
theorem bn0_keep_v3 : after pBn0 W (main_v3 : DevRef τ sig) = W (main_v3 : DevRef τ sig) := by
  after_results_simp

theorem agg1_v67 : after (pC8 ++ pAgg1) W (main_v67 : DevRef τ sig) = aggOf (W (main_v1 : DevRef τ sig)) (W (main_v3 : DevRef τ sig)) (W (main_v48 : DevRef τ sig)) := by
  simp only [pC8, pAgg1, List.cons_append, List.nil_append]
  after_results_simp
  first | rfl | fail "not by rfl"
theorem agg1_keep_arg0 : after (pC8 ++ pAgg1) W (main_arg0 : DevRef τ sig) = W (main_arg0 : DevRef τ sig) := by
  simp only [pC8, pAgg1, List.cons_append, List.nil_append]
  after_results_simp
theorem agg1_keep_arg1 : after (pC8 ++ pAgg1) W (main_arg1 : DevRef τ sig) = W (main_arg1 : DevRef τ sig) := by
  simp only [pC8, pAgg1, List.cons_append, List.nil_append]
  after_results_simp
theorem agg1_keep_arg2 : after (pC8 ++ pAgg1) W (main_arg2 : DevRef τ sig) = W (main_arg2 : DevRef τ sig) := by
  simp only [pC8, pAgg1, List.cons_append, List.nil_append]
  after_results_simp
theorem agg1_keep_arg3 : after (pC8 ++ pAgg1) W (main_arg3 : DevRef τ sig) = W (main_arg3 : DevRef τ sig) := by
  simp only [pC8, pAgg1, List.cons_append, List.nil_append]
  after_results_simp
theorem agg1_keep_arg4 : after (pC8 ++ pAgg1) W (main_arg4 : DevRef τ sig) = W (main_arg4 : DevRef τ sig) := by
  simp only [pC8, pAgg1, List.cons_append, List.nil_append]
  after_results_simp
theorem agg1_keep_arg5 : after (pC8 ++ pAgg1) W (main_arg5 : DevRef τ sig) = W (main_arg5 : DevRef τ sig) := by
  simp only [pC8, pAgg1, List.cons_append, List.nil_append]
  after_results_simp
theorem agg1_keep_arg6 : after (pC8 ++ pAgg1) W (main_arg6 : DevRef τ sig) = W (main_arg6 : DevRef τ sig) := by
  simp only [pC8, pAgg1, List.cons_append, List.nil_append]
  after_results_simp
theorem agg1_keep_arg7 : after (pC8 ++ pAgg1) W (main_arg7 : DevRef τ sig) = W (main_arg7 : DevRef τ sig) := by
  simp only [pC8, pAgg1, List.cons_append, List.nil_append]
  after_results_simp
theorem agg1_keep_arg8 : after (pC8 ++ pAgg1) W (main_arg8 : DevRef τ sig) = W (main_arg8 : DevRef τ sig) := by
  simp only [pC8, pAgg1, List.cons_append, List.nil_append]
  after_results_simp
theorem agg1_keep_arg9 : after (pC8 ++ pAgg1) W (main_arg9 : DevRef τ sig) = W (main_arg9 : DevRef τ sig) := by
  simp only [pC8, pAgg1, List.cons_append, List.nil_append]
  after_results_simp
theorem agg1_keep_arg10 : after (pC8 ++ pAgg1) W (main_arg10 : DevRef τ sig) = W (main_arg10 : DevRef τ sig) := by
  simp only [pC8, pAgg1, List.cons_append, List.nil_append]
  after_results_simp
theorem agg1_keep_arg11 : after (pC8 ++ pAgg1) W (main_arg11 : DevRef τ sig) = W (main_arg11 : DevRef τ sig) := by
  simp only [pC8, pAgg1, List.cons_append, List.nil_append]
  after_results_simp
theorem agg1_keep_arg12 : after (pC8 ++ pAgg1) W (main_arg12 : DevRef τ sig) = W (main_arg12 : DevRef τ sig) := by
  simp only [pC8, pAgg1, List.cons_append, List.nil_append]
  after_results_simp
theorem agg1_keep_arg13 : after (pC8 ++ pAgg1) W (main_arg13 : DevRef τ sig) = W (main_arg13 : DevRef τ sig) := by
  simp only [pC8, pAgg1, List.cons_append, List.nil_append]
  after_results_simp
theorem agg1_keep_arg14 : after (pC8 ++ pAgg1) W (main_arg14 : DevRef τ sig) = W (main_arg14 : DevRef τ sig) := by
  simp only [pC8, pAgg1, List.cons_append, List.nil_append]
  after_results_simp
theorem agg1_keep_v1 : after (pC8 ++ pAgg1) W (main_v1 : DevRef τ sig) = W (main_v1 : DevRef τ sig) := by
  simp only [pC8, pAgg1, List.cons_append, List.nil_append]
  after_results_simp
theorem agg1_keep_v3 : after (pC8 ++ pAgg1) W (main_v3 : DevRef τ sig) = W (main_v3 : DevRef τ sig) := by
  simp only [pC8, pAgg1, List.cons_append, List.nil_append]
  after_results_simp
theorem agg1_keep_v48 : after (pC8 ++ pAgg1) W (main_v48 : DevRef τ sig) = W (main_v48 : DevRef τ sig) := by
  simp only [pC8, pAgg1, List.cons_append, List.nil_append]
  after_results_simp

theorem lin1_v73 : after pLin1 W (main_v73 : DevRef τ sig) = linOf64 (W (main_v67 : DevRef τ sig)) (W (main_v48 : DevRef τ sig)) (W (main_arg5 : DevRef τ sig)) (W (main_arg6 : DevRef τ sig)) (W (main_arg7 : DevRef τ sig)) := by
  after_results_simp
  first | rfl | fail "not by rfl"
theorem lin1_keep_arg0 : after pLin1 W (main_arg0 : DevRef τ sig) = W (main_arg0 : DevRef τ sig) := by
  after_results_simp
theorem lin1_keep_arg1 : after pLin1 W (main_arg1 : DevRef τ sig) = W (main_arg1 : DevRef τ sig) := by
  after_results_simp
theorem lin1_keep_arg2 : after pLin1 W (main_arg2 : DevRef τ sig) = W (main_arg2 : DevRef τ sig) := by
  after_results_simp
theorem lin1_keep_arg3 : after pLin1 W (main_arg3 : DevRef τ sig) = W (main_arg3 : DevRef τ sig) := by
  after_results_simp
theorem lin1_keep_arg4 : after pLin1 W (main_arg4 : DevRef τ sig) = W (main_arg4 : DevRef τ sig) := by
  after_results_simp
theorem lin1_keep_arg5 : after pLin1 W (main_arg5 : DevRef τ sig) = W (main_arg5 : DevRef τ sig) := by
  after_results_simp
theorem lin1_keep_arg6 : after pLin1 W (main_arg6 : DevRef τ sig) = W (main_arg6 : DevRef τ sig) := by
  after_results_simp
theorem lin1_keep_arg7 : after pLin1 W (main_arg7 : DevRef τ sig) = W (main_arg7 : DevRef τ sig) := by
  after_results_simp
theorem lin1_keep_arg8 : after pLin1 W (main_arg8 : DevRef τ sig) = W (main_arg8 : DevRef τ sig) := by
  after_results_simp
theorem lin1_keep_arg9 : after pLin1 W (main_arg9 : DevRef τ sig) = W (main_arg9 : DevRef τ sig) := by
  after_results_simp
theorem lin1_keep_arg10 : after pLin1 W (main_arg10 : DevRef τ sig) = W (main_arg10 : DevRef τ sig) := by
  after_results_simp
theorem lin1_keep_arg11 : after pLin1 W (main_arg11 : DevRef τ sig) = W (main_arg11 : DevRef τ sig) := by
  after_results_simp
theorem lin1_keep_arg12 : after pLin1 W (main_arg12 : DevRef τ sig) = W (main_arg12 : DevRef τ sig) := by
  after_results_simp
theorem lin1_keep_arg13 : after pLin1 W (main_arg13 : DevRef τ sig) = W (main_arg13 : DevRef τ sig) := by
  after_results_simp
theorem lin1_keep_arg14 : after pLin1 W (main_arg14 : DevRef τ sig) = W (main_arg14 : DevRef τ sig) := by
  after_results_simp
theorem lin1_keep_v1 : after pLin1 W (main_v1 : DevRef τ sig) = W (main_v1 : DevRef τ sig) := by
  after_results_simp
theorem lin1_keep_v3 : after pLin1 W (main_v3 : DevRef τ sig) = W (main_v3 : DevRef τ sig) := by
  after_results_simp

theorem bn1_v93 : after pBn1 W (main_v93 : DevRef τ sig) = bnOf (W (main_v73 : DevRef τ sig)) (W (main_arg13 : DevRef τ sig)) (W (main_arg14 : DevRef τ sig)) := by
  after_results_simp
  first | rfl | fail "not by rfl"
theorem bn1_keep_arg0 : after pBn1 W (main_arg0 : DevRef τ sig) = W (main_arg0 : DevRef τ sig) := by
  after_results_simp
theorem bn1_keep_arg1 : after pBn1 W (main_arg1 : DevRef τ sig) = W (main_arg1 : DevRef τ sig) := by
  after_results_simp
theorem bn1_keep_arg2 : after pBn1 W (main_arg2 : DevRef τ sig) = W (main_arg2 : DevRef τ sig) := by
  after_results_simp
theorem bn1_keep_arg3 : after pBn1 W (main_arg3 : DevRef τ sig) = W (main_arg3 : DevRef τ sig) := by
  after_results_simp
theorem bn1_keep_arg4 : after pBn1 W (main_arg4 : DevRef τ sig) = W (main_arg4 : DevRef τ sig) := by
  after_results_simp
theorem bn1_keep_arg5 : after pBn1 W (main_arg5 : DevRef τ sig) = W (main_arg5 : DevRef τ sig) := by
  after_results_simp
theorem bn1_keep_arg6 : after pBn1 W (main_arg6 : DevRef τ sig) = W (main_arg6 : DevRef τ sig) := by
  after_results_simp
theorem bn1_keep_arg7 : after pBn1 W (main_arg7 : DevRef τ sig) = W (main_arg7 : DevRef τ sig) := by
  after_results_simp
theorem bn1_keep_arg8 : after pBn1 W (main_arg8 : DevRef τ sig) = W (main_arg8 : DevRef τ sig) := by
  after_results_simp
theorem bn1_keep_arg9 : after pBn1 W (main_arg9 : DevRef τ sig) = W (main_arg9 : DevRef τ sig) := by
  after_results_simp
theorem bn1_keep_arg10 : after pBn1 W (main_arg10 : DevRef τ sig) = W (main_arg10 : DevRef τ sig) := by
  after_results_simp
theorem bn1_keep_arg11 : after pBn1 W (main_arg11 : DevRef τ sig) = W (main_arg11 : DevRef τ sig) := by
  after_results_simp
theorem bn1_keep_arg12 : after pBn1 W (main_arg12 : DevRef τ sig) = W (main_arg12 : DevRef τ sig) := by
  after_results_simp
theorem bn1_keep_arg13 : after pBn1 W (main_arg13 : DevRef τ sig) = W (main_arg13 : DevRef τ sig) := by
  after_results_simp
theorem bn1_keep_arg14 : after pBn1 W (main_arg14 : DevRef τ sig) = W (main_arg14 : DevRef τ sig) := by
  after_results_simp
theorem bn1_keep_v1 : after pBn1 W (main_v1 : DevRef τ sig) = W (main_v1 : DevRef τ sig) := by
  after_results_simp
theorem bn1_keep_v3 : after pBn1 W (main_v3 : DevRef τ sig) = W (main_v3 : DevRef τ sig) := by
  after_results_simp

theorem agg2_v112 : after (pAgg2a ++ pAgg2b) W (main_v112 : DevRef τ sig) = aggOf (W (main_v1 : DevRef τ sig)) (W (main_v3 : DevRef τ sig)) (W (main_v93 : DevRef τ sig)) := by
  simp only [pAgg2a, pAgg2b, List.cons_append, List.nil_append]
  after_results_simp
  first | rfl | fail "not by rfl"
theorem agg2_keep_arg0 : after (pAgg2a ++ pAgg2b) W (main_arg0 : DevRef τ sig) = W (main_arg0 : DevRef τ sig) := by
  simp only [pAgg2a, pAgg2b, List.cons_append, List.nil_append]
  after_results_simp
theorem agg2_keep_arg1 : after (pAgg2a ++ pAgg2b) W (main_arg1 : DevRef τ sig) = W (main_arg1 : DevRef τ sig) := by
  simp only [pAgg2a, pAgg2b, List.cons_append, List.nil_append]
  after_results_simp
theorem agg2_keep_arg2 : after (pAgg2a ++ pAgg2b) W (main_arg2 : DevRef τ sig) = W (main_arg2 : DevRef τ sig) := by
  simp only [pAgg2a, pAgg2b, List.cons_append, List.nil_append]
  after_results_simp
theorem agg2_keep_arg3 : after (pAgg2a ++ pAgg2b) W (main_arg3 : DevRef τ sig) = W (main_arg3 : DevRef τ sig) := by
  simp only [pAgg2a, pAgg2b, List.cons_append, List.nil_append]
  after_results_simp
theorem agg2_keep_arg4 : after (pAgg2a ++ pAgg2b) W (main_arg4 : DevRef τ sig) = W (main_arg4 : DevRef τ sig) := by
  simp only [pAgg2a, pAgg2b, List.cons_append, List.nil_append]
  after_results_simp
theorem agg2_keep_arg5 : after (pAgg2a ++ pAgg2b) W (main_arg5 : DevRef τ sig) = W (main_arg5 : DevRef τ sig) := by
  simp only [pAgg2a, pAgg2b, List.cons_append, List.nil_append]
  after_results_simp
theorem agg2_keep_arg6 : after (pAgg2a ++ pAgg2b) W (main_arg6 : DevRef τ sig) = W (main_arg6 : DevRef τ sig) := by
  simp only [pAgg2a, pAgg2b, List.cons_append, List.nil_append]
  after_results_simp
theorem agg2_keep_arg7 : after (pAgg2a ++ pAgg2b) W (main_arg7 : DevRef τ sig) = W (main_arg7 : DevRef τ sig) := by
  simp only [pAgg2a, pAgg2b, List.cons_append, List.nil_append]
  after_results_simp
theorem agg2_keep_arg8 : after (pAgg2a ++ pAgg2b) W (main_arg8 : DevRef τ sig) = W (main_arg8 : DevRef τ sig) := by
  simp only [pAgg2a, pAgg2b, List.cons_append, List.nil_append]
  after_results_simp
theorem agg2_keep_arg9 : after (pAgg2a ++ pAgg2b) W (main_arg9 : DevRef τ sig) = W (main_arg9 : DevRef τ sig) := by
  simp only [pAgg2a, pAgg2b, List.cons_append, List.nil_append]
  after_results_simp
theorem agg2_keep_arg10 : after (pAgg2a ++ pAgg2b) W (main_arg10 : DevRef τ sig) = W (main_arg10 : DevRef τ sig) := by
  simp only [pAgg2a, pAgg2b, List.cons_append, List.nil_append]
  after_results_simp
theorem agg2_keep_arg11 : after (pAgg2a ++ pAgg2b) W (main_arg11 : DevRef τ sig) = W (main_arg11 : DevRef τ sig) := by
  simp only [pAgg2a, pAgg2b, List.cons_append, List.nil_append]
  after_results_simp
theorem agg2_keep_arg12 : after (pAgg2a ++ pAgg2b) W (main_arg12 : DevRef τ sig) = W (main_arg12 : DevRef τ sig) := by
  simp only [pAgg2a, pAgg2b, List.cons_append, List.nil_append]
  after_results_simp
theorem agg2_keep_arg13 : after (pAgg2a ++ pAgg2b) W (main_arg13 : DevRef τ sig) = W (main_arg13 : DevRef τ sig) := by
  simp only [pAgg2a, pAgg2b, List.cons_append, List.nil_append]
  after_results_simp
theorem agg2_keep_arg14 : after (pAgg2a ++ pAgg2b) W (main_arg14 : DevRef τ sig) = W (main_arg14 : DevRef τ sig) := by
  simp only [pAgg2a, pAgg2b, List.cons_append, List.nil_append]
  after_results_simp
theorem agg2_keep_v93 : after (pAgg2a ++ pAgg2b) W (main_v93 : DevRef τ sig) = W (main_v93 : DevRef τ sig) := by
  simp only [pAgg2a, pAgg2b, List.cons_append, List.nil_append]
  after_results_simp

theorem lin2_v118 : after pLin2 W (main_v118 : DevRef τ sig) = linOf40 (W (main_v112 : DevRef τ sig)) (W (main_v93 : DevRef τ sig)) (W (main_arg8 : DevRef τ sig)) (W (main_arg9 : DevRef τ sig)) (W (main_arg10 : DevRef τ sig)) := by
  after_results_simp
  first | rfl | fail "not by rfl"
theorem lin2_keep_arg0 : after pLin2 W (main_arg0 : DevRef τ sig) = W (main_arg0 : DevRef τ sig) := by
  after_results_simp
theorem lin2_keep_arg1 : after pLin2 W (main_arg1 : DevRef τ sig) = W (main_arg1 : DevRef τ sig) := by
  after_results_simp
theorem lin2_keep_arg2 : after pLin2 W (main_arg2 : DevRef τ sig) = W (main_arg2 : DevRef τ sig) := by
  after_results_simp
theorem lin2_keep_arg3 : after pLin2 W (main_arg3 : DevRef τ sig) = W (main_arg3 : DevRef τ sig) := by
  after_results_simp
theorem lin2_keep_arg4 : after pLin2 W (main_arg4 : DevRef τ sig) = W (main_arg4 : DevRef τ sig) := by
  after_results_simp
theorem lin2_keep_arg5 : after pLin2 W (main_arg5 : DevRef τ sig) = W (main_arg5 : DevRef τ sig) := by
  after_results_simp
theorem lin2_keep_arg6 : after pLin2 W (main_arg6 : DevRef τ sig) = W (main_arg6 : DevRef τ sig) := by
  after_results_simp
theorem lin2_keep_arg7 : after pLin2 W (main_arg7 : DevRef τ sig) = W (main_arg7 : DevRef τ sig) := by
  after_results_simp
theorem lin2_keep_arg8 : after pLin2 W (main_arg8 : DevRef τ sig) = W (main_arg8 : DevRef τ sig) := by
  after_results_simp
theorem lin2_keep_arg9 : after pLin2 W (main_arg9 : DevRef τ sig) = W (main_arg9 : DevRef τ sig) := by
  after_results_simp
theorem lin2_keep_arg10 : after pLin2 W (main_arg10 : DevRef τ sig) = W (main_arg10 : DevRef τ sig) := by
  after_results_simp
theorem lin2_keep_arg11 : after pLin2 W (main_arg11 : DevRef τ sig) = W (main_arg11 : DevRef τ sig) := by
  after_results_simp
theorem lin2_keep_arg12 : after pLin2 W (main_arg12 : DevRef τ sig) = W (main_arg12 : DevRef τ sig) := by
  after_results_simp
theorem lin2_keep_arg13 : after pLin2 W (main_arg13 : DevRef τ sig) = W (main_arg13 : DevRef τ sig) := by
  after_results_simp
theorem lin2_keep_arg14 : after pLin2 W (main_arg14 : DevRef τ sig) = W (main_arg14 : DevRef τ sig) := by
  after_results_simp

end Stages

/-! ## The linear part and the normalisation are the specification's -/

/-- A length-`n` row placed as a one-row matrix and repeated down `m` rows reads, at `(p, q)`, its entry `q`. -/
theorem rowBcast_apply {α : Type} {m n : ℕ} (h1 : (⟨1, ![n]⟩ : Shape).BroadcastsInDim ⟨2, ![1, n]⟩ ![1])
    (h2 : (⟨2, ![1, n]⟩ : Shape).BroadcastsInDim ⟨2, ![m, n]⟩ ![0, 1]) (x : (⟨1, ![n]⟩ : Shape).Idx → α) (p : Fin m) (q : Fin n) :
    broadcastInDim ⟨2, ![m, n]⟩ ![0, 1] h2 (broadcastInDim ⟨2, ![1, n]⟩ ![1] h1 x) (ix2 p q) = x (ix1 q) := by
  refine (broadcastInDim_oneRow_apply h2 _ p q).trans ?_
  refine broadcastInDim_apply ![1] h1 x (ix2 (0 : Fin 1) q) (ix1 q) fun a => ?_
  match a with
  | ⟨0, _⟩ =>
    show q.val = if n = 1 then 0 else q.val
    split_ifs with hn
    · have := q.isLt; omega
    · rfl

/-- The two products' dimension numbers are the plain ones: rows by contraction times contraction by columns. -/
theorem dot64_plain : dot_S100000x64_S64x64_S100000x64_1_0_0_1_n_n = DotDims.plain 100000 64 64 := rfl
theorem dot40_plain : dot_S100000x64_S64x40_S100000x40_1_0_0_1_n_n = DotDims.plain 100000 64 40 := rfl

/-- A 64-channel layer's operations are the layer of the specification: at `(p, q)` each product is the sum over the
    contracted index, and the repeated bias row reads its entry `q`. -/
theorem linOf64_eq (a x : FVec Ideal S100000x64 .f32) (Wl Wr : FVec Ideal S64x64 .f32) (b : FVec Ideal S64 .f32) :
    linOf64 a x Wl Wr b = Cert.Sage.lin a x Wl Wr b := by
  unfold linOf64
  refine Cert.Sage.mat_ext fun p q => ?_
  rw [Cert.Sage.lin_apply, addf_apply, addf_apply,
    Cert.LibHostDot.dotGeneral_plain_apply _ dot64_plain, Cert.LibHostDot.dotGeneral_plain_apply _ dot64_plain,
    rowBcast_apply]
  rfl

/-- The 40-channel layer's operations are the layer of the specification. -/
theorem linOf40_eq (a x : FVec Ideal S100000x64 .f32) (Wl Wr : FVec Ideal S64x40 .f32) (b : FVec Ideal S40 .f32) :
    linOf40 a x Wl Wr b = Cert.Sage.lin a x Wl Wr b := by
  unfold linOf40
  refine Cert.Sage.mat_ext fun p q => ?_
  rw [Cert.Sage.lin_apply, addf_apply, addf_apply,
    Cert.LibHostDot.dotGeneral_plain_apply _ dot40_plain, Cert.LibHostDot.dotGeneral_plain_apply _ dot40_plain,
    rowBcast_apply]
  rfl

/-- The normalisation, scale, shift and rectifier are the specification's, entry by entry: each repeated row reads its
    entry `q`, the offset and the threshold are the two constants, and the arithmetic is the extended reals'. -/
theorem bnOf_eq (y : FVec Ideal S100000x64 .f32) (g be : FVec Ideal S64 .f32) :
    bnOf y g be = Cert.Sage.bnRelu y (muR y) (varR y) g be := by
  unfold bnOf
  refine Cert.Sage.mat_ext fun p q => ?_
  rw [Cert.Sage.bnRelu_apply, maximumf_apply, addf_apply, mulf_apply, mulf_apply, subf_apply,
    rowBcast_apply, rowBcast_apply, rowBcast_apply, rowBcast_apply, broadcastInDim_scalar_apply]
  rfl

/-- The neighbourhood mean from the table's two rows is the neighbourhood mean as a function of the table. -/
theorem aggOf_eq (ei : EdgeTab) (h : FVec Ideal S100000x64 .f32) : aggOf (srcIdx ei) (dstIdx ei) h = aggR ei h := rfl

/-! ## The stages threaded -/

/-- The line's stages, in order. -/
theorem ops_stages : (ops : List (HloOp τ sig (Elt Ideal)))
    = pPre ++ (pAgg0 ++ (pLin0 ++ (pBn0 ++ ((pC8 ++ pAgg1) ++ (pLin1 ++ (pBn1 ++ ((pAgg2a ++ pAgg2b) ++ pLin2))))))) := by
  simp only [ops, P0, P1, P2, List.append_assoc]

/-- The contents after the whole line are the contents after the last stage, started from those after the stage before,
    and so on back to the launch contents. -/
theorem after_stages (V : Valuation τ sig (Elt Ideal)) : after ops V = after pLin2 (after (pAgg2a ++ pAgg2b) (after pBn1 (after pLin1 (after (pC8 ++ pAgg1) (after pBn0 (after pLin0 (after pAgg0 (after pPre V)))))))) := by
  rw [ops_stages, Cert.LibAfter.after_append pPre, Cert.LibAfter.after_append pAgg0, Cert.LibAfter.after_append pLin0,
    Cert.LibAfter.after_append pBn0, Cert.LibAfter.after_append (pC8 ++ pAgg1), Cert.LibAfter.after_append pLin1,
    Cert.LibAfter.after_append pBn1, Cert.LibAfter.after_append (pAgg2a ++ pAgg2b)]

/-- The result array is the specification's network of the argument arrays, the neighbourhood mean and the two batch
    statistics entering as the functions `aggR` of the edge table, `muR` and `varR`. -/
theorem out_eq (V : Valuation τ sig (Elt Ideal)) :
    after ops V (main_v118 : DevRef τ sig)
      = Cert.Sage.net (aggR (V (main_arg1 : DevRef τ sig))) muR varR (V (main_arg0 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) := by
  rw [after_stages]
  have e0_v1 := pre_v1 V
  have e0_v3 := pre_v3 V
  have k0_arg0 := pre_keep_arg0 V
  have k0_arg2 := pre_keep_arg2 V
  have k0_arg3 := pre_keep_arg3 V
  have k0_arg4 := pre_keep_arg4 V
  have k0_arg5 := pre_keep_arg5 V
  have k0_arg6 := pre_keep_arg6 V
  have k0_arg7 := pre_keep_arg7 V
  have k0_arg8 := pre_keep_arg8 V
  have k0_arg9 := pre_keep_arg9 V
  have k0_arg10 := pre_keep_arg10 V
  have k0_arg11 := pre_keep_arg11 V
  have k0_arg12 := pre_keep_arg12 V
  have k0_arg13 := pre_keep_arg13 V
  have k0_arg14 := pre_keep_arg14 V
  have e1_v22 := agg0_v22 (after pPre V)
  rw [e0_v1, e0_v3, k0_arg0] at e1_v22
  rw [aggOf_eq] at e1_v22
  have k1_arg0 := (agg0_keep_arg0 (after pPre V)).trans k0_arg0
  have k1_arg2 := (agg0_keep_arg2 (after pPre V)).trans k0_arg2
  have k1_arg3 := (agg0_keep_arg3 (after pPre V)).trans k0_arg3
  have k1_arg4 := (agg0_keep_arg4 (after pPre V)).trans k0_arg4
  have k1_arg5 := (agg0_keep_arg5 (after pPre V)).trans k0_arg5
  have k1_arg6 := (agg0_keep_arg6 (after pPre V)).trans k0_arg6
  have k1_arg7 := (agg0_keep_arg7 (after pPre V)).trans k0_arg7
  have k1_arg8 := (agg0_keep_arg8 (after pPre V)).trans k0_arg8
  have k1_arg9 := (agg0_keep_arg9 (after pPre V)).trans k0_arg9
  have k1_arg10 := (agg0_keep_arg10 (after pPre V)).trans k0_arg10
  have k1_arg11 := (agg0_keep_arg11 (after pPre V)).trans k0_arg11
  have k1_arg12 := (agg0_keep_arg12 (after pPre V)).trans k0_arg12
  have k1_arg13 := (agg0_keep_arg13 (after pPre V)).trans k0_arg13
  have k1_arg14 := (agg0_keep_arg14 (after pPre V)).trans k0_arg14
  have k1_v1 := (agg0_keep_v1 (after pPre V)).trans e0_v1
  have k1_v3 := (agg0_keep_v3 (after pPre V)).trans e0_v3
  have e2_v28 := lin0_v28 (after pAgg0 (after pPre V))
  rw [e1_v22, k1_arg0, k1_arg2, k1_arg3, k1_arg4] at e2_v28
  rw [linOf64_eq] at e2_v28
  have k2_arg5 := (lin0_keep_arg5 (after pAgg0 (after pPre V))).trans k1_arg5
  have k2_arg6 := (lin0_keep_arg6 (after pAgg0 (after pPre V))).trans k1_arg6
  have k2_arg7 := (lin0_keep_arg7 (after pAgg0 (after pPre V))).trans k1_arg7
  have k2_arg8 := (lin0_keep_arg8 (after pAgg0 (after pPre V))).trans k1_arg8
  have k2_arg9 := (lin0_keep_arg9 (after pAgg0 (after pPre V))).trans k1_arg9
  have k2_arg10 := (lin0_keep_arg10 (after pAgg0 (after pPre V))).trans k1_arg10
  have k2_arg11 := (lin0_keep_arg11 (after pAgg0 (after pPre V))).trans k1_arg11
  have k2_arg12 := (lin0_keep_arg12 (after pAgg0 (after pPre V))).trans k1_arg12
  have k2_arg13 := (lin0_keep_arg13 (after pAgg0 (after pPre V))).trans k1_arg13
  have k2_arg14 := (lin0_keep_arg14 (after pAgg0 (after pPre V))).trans k1_arg14
  have k2_v1 := (lin0_keep_v1 (after pAgg0 (after pPre V))).trans k1_v1
  have k2_v3 := (lin0_keep_v3 (after pAgg0 (after pPre V))).trans k1_v3
  have e3_v48 := bn0_v48 (after pLin0 (after pAgg0 (after pPre V)))
  rw [e2_v28, k2_arg11, k2_arg12] at e3_v48
  rw [bnOf_eq] at e3_v48
  have k3_arg5 := (bn0_keep_arg5 (after pLin0 (after pAgg0 (after pPre V)))).trans k2_arg5
  have k3_arg6 := (bn0_keep_arg6 (after pLin0 (after pAgg0 (after pPre V)))).trans k2_arg6
  have k3_arg7 := (bn0_keep_arg7 (after pLin0 (after pAgg0 (after pPre V)))).trans k2_arg7
  have k3_arg8 := (bn0_keep_arg8 (after pLin0 (after pAgg0 (after pPre V)))).trans k2_arg8
  have k3_arg9 := (bn0_keep_arg9 (after pLin0 (after pAgg0 (after pPre V)))).trans k2_arg9
  have k3_arg10 := (bn0_keep_arg10 (after pLin0 (after pAgg0 (after pPre V)))).trans k2_arg10
  have k3_arg13 := (bn0_keep_arg13 (after pLin0 (after pAgg0 (after pPre V)))).trans k2_arg13
  have k3_arg14 := (bn0_keep_arg14 (after pLin0 (after pAgg0 (after pPre V)))).trans k2_arg14
  have k3_v1 := (bn0_keep_v1 (after pLin0 (after pAgg0 (after pPre V)))).trans k2_v1
  have k3_v3 := (bn0_keep_v3 (after pLin0 (after pAgg0 (after pPre V)))).trans k2_v3
  have e4_v67 := agg1_v67 (after pBn0 (after pLin0 (after pAgg0 (after pPre V))))
  rw [k3_v1, k3_v3, e3_v48] at e4_v67
  rw [aggOf_eq] at e4_v67
  have k4_arg5 := (agg1_keep_arg5 (after pBn0 (after pLin0 (after pAgg0 (after pPre V))))).trans k3_arg5
  have k4_arg6 := (agg1_keep_arg6 (after pBn0 (after pLin0 (after pAgg0 (after pPre V))))).trans k3_arg6
  have k4_arg7 := (agg1_keep_arg7 (after pBn0 (after pLin0 (after pAgg0 (after pPre V))))).trans k3_arg7
  have k4_arg8 := (agg1_keep_arg8 (after pBn0 (after pLin0 (after pAgg0 (after pPre V))))).trans k3_arg8
  have k4_arg9 := (agg1_keep_arg9 (after pBn0 (after pLin0 (after pAgg0 (after pPre V))))).trans k3_arg9
  have k4_arg10 := (agg1_keep_arg10 (after pBn0 (after pLin0 (after pAgg0 (after pPre V))))).trans k3_arg10
  have k4_arg13 := (agg1_keep_arg13 (after pBn0 (after pLin0 (after pAgg0 (after pPre V))))).trans k3_arg13
  have k4_arg14 := (agg1_keep_arg14 (after pBn0 (after pLin0 (after pAgg0 (after pPre V))))).trans k3_arg14
  have k4_v1 := (agg1_keep_v1 (after pBn0 (after pLin0 (after pAgg0 (after pPre V))))).trans k3_v1
  have k4_v3 := (agg1_keep_v3 (after pBn0 (after pLin0 (after pAgg0 (after pPre V))))).trans k3_v3
  have k4_v48 := (agg1_keep_v48 (after pBn0 (after pLin0 (after pAgg0 (after pPre V))))).trans e3_v48
  have e5_v73 := lin1_v73 (after (pC8 ++ pAgg1) (after pBn0 (after pLin0 (after pAgg0 (after pPre V)))))
  rw [e4_v67, k4_v48, k4_arg5, k4_arg6, k4_arg7] at e5_v73
  rw [linOf64_eq] at e5_v73
  have k5_arg8 := (lin1_keep_arg8 (after (pC8 ++ pAgg1) (after pBn0 (after pLin0 (after pAgg0 (after pPre V)))))).trans k4_arg8
  have k5_arg9 := (lin1_keep_arg9 (after (pC8 ++ pAgg1) (after pBn0 (after pLin0 (after pAgg0 (after pPre V)))))).trans k4_arg9
  have k5_arg10 := (lin1_keep_arg10 (after (pC8 ++ pAgg1) (after pBn0 (after pLin0 (after pAgg0 (after pPre V)))))).trans k4_arg10
  have k5_arg13 := (lin1_keep_arg13 (after (pC8 ++ pAgg1) (after pBn0 (after pLin0 (after pAgg0 (after pPre V)))))).trans k4_arg13
  have k5_arg14 := (lin1_keep_arg14 (after (pC8 ++ pAgg1) (after pBn0 (after pLin0 (after pAgg0 (after pPre V)))))).trans k4_arg14
  have k5_v1 := (lin1_keep_v1 (after (pC8 ++ pAgg1) (after pBn0 (after pLin0 (after pAgg0 (after pPre V)))))).trans k4_v1
  have k5_v3 := (lin1_keep_v3 (after (pC8 ++ pAgg1) (after pBn0 (after pLin0 (after pAgg0 (after pPre V)))))).trans k4_v3
  have e6_v93 := bn1_v93 (after pLin1 (after (pC8 ++ pAgg1) (after pBn0 (after pLin0 (after pAgg0 (after pPre V))))))
  rw [e5_v73, k5_arg13, k5_arg14] at e6_v93
  rw [bnOf_eq] at e6_v93
  have k6_arg8 := (bn1_keep_arg8 (after pLin1 (after (pC8 ++ pAgg1) (after pBn0 (after pLin0 (after pAgg0 (after pPre V))))))).trans k5_arg8
  have k6_arg9 := (bn1_keep_arg9 (after pLin1 (after (pC8 ++ pAgg1) (after pBn0 (after pLin0 (after pAgg0 (after pPre V))))))).trans k5_arg9
  have k6_arg10 := (bn1_keep_arg10 (after pLin1 (after (pC8 ++ pAgg1) (after pBn0 (after pLin0 (after pAgg0 (after pPre V))))))).trans k5_arg10
  have k6_v1 := (bn1_keep_v1 (after pLin1 (after (pC8 ++ pAgg1) (after pBn0 (after pLin0 (after pAgg0 (after pPre V))))))).trans k5_v1
  have k6_v3 := (bn1_keep_v3 (after pLin1 (after (pC8 ++ pAgg1) (after pBn0 (after pLin0 (after pAgg0 (after pPre V))))))).trans k5_v3
  have e7_v112 := agg2_v112 (after pBn1 (after pLin1 (after (pC8 ++ pAgg1) (after pBn0 (after pLin0 (after pAgg0 (after pPre V)))))))
  rw [k6_v1, k6_v3, e6_v93] at e7_v112
  rw [aggOf_eq] at e7_v112
  have k7_arg8 := (agg2_keep_arg8 (after pBn1 (after pLin1 (after (pC8 ++ pAgg1) (after pBn0 (after pLin0 (after pAgg0 (after pPre V)))))))).trans k6_arg8
  have k7_arg9 := (agg2_keep_arg9 (after pBn1 (after pLin1 (after (pC8 ++ pAgg1) (after pBn0 (after pLin0 (after pAgg0 (after pPre V)))))))).trans k6_arg9
  have k7_arg10 := (agg2_keep_arg10 (after pBn1 (after pLin1 (after (pC8 ++ pAgg1) (after pBn0 (after pLin0 (after pAgg0 (after pPre V)))))))).trans k6_arg10
  have k7_v93 := (agg2_keep_v93 (after pBn1 (after pLin1 (after (pC8 ++ pAgg1) (after pBn0 (after pLin0 (after pAgg0 (after pPre V)))))))).trans e6_v93
  have e8_v118 := lin2_v118 (after (pAgg2a ++ pAgg2b) (after pBn1 (after pLin1 (after (pC8 ++ pAgg1) (after pBn0 (after pLin0 (after pAgg0 (after pPre V))))))))
  rw [e7_v112, k7_v93, k7_arg8, k7_arg9, k7_arg10] at e8_v118
  rw [linOf40_eq] at e8_v118
  exact e8_v118

theorem arg0_eq (V : Valuation τ sig (Elt Ideal)) : after ops V (main_arg0 : DevRef τ sig) = V (main_arg0 : DevRef τ sig) := by
  rw [after_stages, lin2_keep_arg0, agg2_keep_arg0, bn1_keep_arg0, lin1_keep_arg0, agg1_keep_arg0, bn0_keep_arg0, lin0_keep_arg0, agg0_keep_arg0, pre_keep_arg0]
theorem arg1_eq (V : Valuation τ sig (Elt Ideal)) : after ops V (main_arg1 : DevRef τ sig) = V (main_arg1 : DevRef τ sig) := by
  rw [after_stages, lin2_keep_arg1, agg2_keep_arg1, bn1_keep_arg1, lin1_keep_arg1, agg1_keep_arg1, bn0_keep_arg1, lin0_keep_arg1, agg0_keep_arg1, pre_keep_arg1]
theorem arg2_eq (V : Valuation τ sig (Elt Ideal)) : after ops V (main_arg2 : DevRef τ sig) = V (main_arg2 : DevRef τ sig) := by
  rw [after_stages, lin2_keep_arg2, agg2_keep_arg2, bn1_keep_arg2, lin1_keep_arg2, agg1_keep_arg2, bn0_keep_arg2, lin0_keep_arg2, agg0_keep_arg2, pre_keep_arg2]
theorem arg3_eq (V : Valuation τ sig (Elt Ideal)) : after ops V (main_arg3 : DevRef τ sig) = V (main_arg3 : DevRef τ sig) := by
  rw [after_stages, lin2_keep_arg3, agg2_keep_arg3, bn1_keep_arg3, lin1_keep_arg3, agg1_keep_arg3, bn0_keep_arg3, lin0_keep_arg3, agg0_keep_arg3, pre_keep_arg3]
theorem arg4_eq (V : Valuation τ sig (Elt Ideal)) : after ops V (main_arg4 : DevRef τ sig) = V (main_arg4 : DevRef τ sig) := by
  rw [after_stages, lin2_keep_arg4, agg2_keep_arg4, bn1_keep_arg4, lin1_keep_arg4, agg1_keep_arg4, bn0_keep_arg4, lin0_keep_arg4, agg0_keep_arg4, pre_keep_arg4]
theorem arg5_eq (V : Valuation τ sig (Elt Ideal)) : after ops V (main_arg5 : DevRef τ sig) = V (main_arg5 : DevRef τ sig) := by
  rw [after_stages, lin2_keep_arg5, agg2_keep_arg5, bn1_keep_arg5, lin1_keep_arg5, agg1_keep_arg5, bn0_keep_arg5, lin0_keep_arg5, agg0_keep_arg5, pre_keep_arg5]
theorem arg6_eq (V : Valuation τ sig (Elt Ideal)) : after ops V (main_arg6 : DevRef τ sig) = V (main_arg6 : DevRef τ sig) := by
  rw [after_stages, lin2_keep_arg6, agg2_keep_arg6, bn1_keep_arg6, lin1_keep_arg6, agg1_keep_arg6, bn0_keep_arg6, lin0_keep_arg6, agg0_keep_arg6, pre_keep_arg6]
theorem arg7_eq (V : Valuation τ sig (Elt Ideal)) : after ops V (main_arg7 : DevRef τ sig) = V (main_arg7 : DevRef τ sig) := by
  rw [after_stages, lin2_keep_arg7, agg2_keep_arg7, bn1_keep_arg7, lin1_keep_arg7, agg1_keep_arg7, bn0_keep_arg7, lin0_keep_arg7, agg0_keep_arg7, pre_keep_arg7]
theorem arg8_eq (V : Valuation τ sig (Elt Ideal)) : after ops V (main_arg8 : DevRef τ sig) = V (main_arg8 : DevRef τ sig) := by
  rw [after_stages, lin2_keep_arg8, agg2_keep_arg8, bn1_keep_arg8, lin1_keep_arg8, agg1_keep_arg8, bn0_keep_arg8, lin0_keep_arg8, agg0_keep_arg8, pre_keep_arg8]
theorem arg9_eq (V : Valuation τ sig (Elt Ideal)) : after ops V (main_arg9 : DevRef τ sig) = V (main_arg9 : DevRef τ sig) := by
  rw [after_stages, lin2_keep_arg9, agg2_keep_arg9, bn1_keep_arg9, lin1_keep_arg9, agg1_keep_arg9, bn0_keep_arg9, lin0_keep_arg9, agg0_keep_arg9, pre_keep_arg9]
theorem arg10_eq (V : Valuation τ sig (Elt Ideal)) : after ops V (main_arg10 : DevRef τ sig) = V (main_arg10 : DevRef τ sig) := by
  rw [after_stages, lin2_keep_arg10, agg2_keep_arg10, bn1_keep_arg10, lin1_keep_arg10, agg1_keep_arg10, bn0_keep_arg10, lin0_keep_arg10, agg0_keep_arg10, pre_keep_arg10]
theorem arg11_eq (V : Valuation τ sig (Elt Ideal)) : after ops V (main_arg11 : DevRef τ sig) = V (main_arg11 : DevRef τ sig) := by
  rw [after_stages, lin2_keep_arg11, agg2_keep_arg11, bn1_keep_arg11, lin1_keep_arg11, agg1_keep_arg11, bn0_keep_arg11, lin0_keep_arg11, agg0_keep_arg11, pre_keep_arg11]
theorem arg12_eq (V : Valuation τ sig (Elt Ideal)) : after ops V (main_arg12 : DevRef τ sig) = V (main_arg12 : DevRef τ sig) := by
  rw [after_stages, lin2_keep_arg12, agg2_keep_arg12, bn1_keep_arg12, lin1_keep_arg12, agg1_keep_arg12, bn0_keep_arg12, lin0_keep_arg12, agg0_keep_arg12, pre_keep_arg12]
theorem arg13_eq (V : Valuation τ sig (Elt Ideal)) : after ops V (main_arg13 : DevRef τ sig) = V (main_arg13 : DevRef τ sig) := by
  rw [after_stages, lin2_keep_arg13, agg2_keep_arg13, bn1_keep_arg13, lin1_keep_arg13, agg1_keep_arg13, bn0_keep_arg13, lin0_keep_arg13, agg0_keep_arg13, pre_keep_arg13]
theorem arg14_eq (V : Valuation τ sig (Elt Ideal)) : after ops V (main_arg14 : DevRef τ sig) = V (main_arg14 : DevRef τ sig) := by
  rw [after_stages, lin2_keep_arg14, agg2_keep_arg14, bn1_keep_arg14, lin1_keep_arg14, agg1_keep_arg14, bn0_keep_arg14, lin0_keep_arg14, agg0_keep_arg14, pre_keep_arg14]
end Cert.ReferenceIdeal.Hand

end
-- ==== Proof.LibStatRow.lean ====
/-
  Per-channel statistics kept as a one-row array, read along the row, are the same statistics kept as a vector.

  A program may carry the `c` per-channel numbers of a batch statistic either as a `1 × c` array (the reduced axis
  kept with extent one) or as a length-`c` vector.  Entry `(0, q)` of the first form and entry `q` of the second
  are computed by the same scalar operations from the same scalars:
    * a length-`c` vector laid along axis 1 of a `1 × c` array reads, at `(0, q)`, the vector's entry `q`;
    * the quotient of such a row by a scalar spread over the row is, at `(0, q)`, the quotient of the vector's
      entry `q` by that scalar, which is what the vector divided by the scalar spread over it reads at `q`;
    * the same with a scalar condition choosing between the quotient and a scalar fallback.
  All values are extended reals and every operation is exact.
-/
import Idealize.ShloMosaic.PureOps.Ideal
import Idealize.ShloMosaic.Lib.ValueIdx
import Idealize.ShloMosaic.Lib.Pipeline.Value
import Idealize.ShloMosaic.Lib.IdealHost

noncomputable section

namespace Cert.LibStatRow

open Idealize.ShloMosaic Idealize.ShloMosaic.ValueIdx

variable {α : Type} {c : ℕ}

/-- A length-`c` vector laid along axis 1 of a `1 × c` array reads, at `(0, q)`, the vector's entry `q`. -/
theorem bcastVecRow_apply (h : (⟨1, ![c]⟩ : Shape).BroadcastsInDim ⟨2, ![1, c]⟩ ![1])
    (v : (⟨1, ![c]⟩ : Shape).Idx → α) (q : Fin c) :
    broadcastInDim ⟨2, ![1, c]⟩ ![1] h v (ix2 (0 : Fin 1) q) = v (ix1 q) := by
  refine broadcastInDim_apply ![1] h v (ix2 (0 : Fin 1) q) (ix1 q) fun a => ?_
  match a with
  | ⟨0, _⟩ =>
    show q.val = if c = 1 then 0 else q.val
    split
    · have := q.isLt; omega
    · rfl

/-- A vector laid along a row and divided by a scalar spread over the row reads, at `(0, q)`, what the vector divided
    by the scalar spread over the vector reads at `q`: the entry `q` divided by the scalar. -/
theorem divRow_apply (v : FVec Ideal ⟨1, ![c]⟩ .f32) (s : FVec Ideal ⟨0, ![]⟩ .f32)
    (h1 : (⟨1, ![c]⟩ : Shape).BroadcastsInDim ⟨2, ![1, c]⟩ ![1])
    (h2 : (⟨0, ![]⟩ : Shape).BroadcastsInDim ⟨2, ![1, c]⟩ ![])
    (h3 : (⟨0, ![]⟩ : Shape).BroadcastsInDim ⟨1, ![c]⟩ ![]) (q : Fin c) :
    Host.divf (F := Ideal) (broadcastInDim ⟨2, ![1, c]⟩ ![1] h1 v) (broadcastInDim ⟨2, ![1, c]⟩ ![] h2 s) (ix2 (0 : Fin 1) q)
      = Host.divf (F := Ideal) v (broadcastInDim ⟨1, ![c]⟩ ![] h3 s) (ix1 q) := by
  rw [hostDivf_apply, hostDivf_apply, bcastVecRow_apply, broadcastInDim_scalar_apply, broadcastInDim_scalar_apply]

/-- The same under a scalar condition choosing between the quotient and a scalar fallback: the row form at `(0, q)`
    is the vector form at `q`. -/
theorem selRow_apply (p : IVec ⟨0, ![]⟩ 1) (v : FVec Ideal ⟨1, ![c]⟩ .f32) (n z : FVec Ideal ⟨0, ![]⟩ .f32)
    (h1 : (⟨1, ![c]⟩ : Shape).BroadcastsInDim ⟨2, ![1, c]⟩ ![1])
    (h2 : (⟨0, ![]⟩ : Shape).BroadcastsInDim ⟨2, ![1, c]⟩ ![])
    (h3 : (⟨0, ![]⟩ : Shape).BroadcastsInDim ⟨1, ![c]⟩ ![]) (q : Fin c) :
    select (broadcastInDim ⟨2, ![1, c]⟩ ![] h2 p)
        (Host.divf (F := Ideal) (broadcastInDim ⟨2, ![1, c]⟩ ![1] h1 v) (broadcastInDim ⟨2, ![1, c]⟩ ![] h2 n))
        (broadcastInDim ⟨2, ![1, c]⟩ ![] h2 z) (ix2 (0 : Fin 1) q)
      = select (broadcastInDim ⟨1, ![c]⟩ ![] h3 p)
        (Host.divf (F := Ideal) v (broadcastInDim ⟨1, ![c]⟩ ![] h3 n))
        (broadcastInDim ⟨1, ![c]⟩ ![] h3 z) (ix1 q) := by
  rw [select_apply, select_apply, divRow_apply v n h1 h2 h3 q,
    broadcastInDim_scalar_apply, broadcastInDim_scalar_apply, broadcastInDim_scalar_apply, broadcastInDim_scalar_apply]

end Cert.LibStatRow

end
-- ==== Proof.Bridge.lean ====
/-
  The two programs' host chains are the same functions, and so are their results.

  The neighbourhood mean is, operation for operation, the same chain in both programs. The batch statistics are the
  same column sums divided by the same scalars; the kernel program keeps them as a 1 × 64 row and the plain program as
  a length-64 vector, and reading the row along its one row gives the vector, entry by entry. With the chains
  identified, the plain program's result is the network of ITS arguments; memories that agree on the arguments make it
  the network of the kernel program's arguments, which is what the kernel program's result buffer holds.
-/
import proofs.«106070_j38113539785173_1_alg».proof.Proof.KValue
import proofs.«106070_j38113539785173_1_alg».proof.Proof.RefValue
import proofs.«106070_j38113539785173_1_alg».proof.Proof.LibStatRow

set_option maxRecDepth 16384

noncomputable section

namespace Cert.Bridge

open Idealize.ShloMosaic Idealize.ShloMosaic.TcCoe Idealize.ShloMosaic.StableHlo Idealize.ShloMosaic.ValueIdx
open Cert.Sage Cert.KernelIdeal.HostVal Cert.KernelIdeal.Regions

/-- The neighbourhood mean: one chain of operations, spelt in either program's names. -/
theorem agg_eq (ei : Cert.ReferenceIdeal.Hand.EdgeTab) : Cert.ReferenceIdeal.Hand.aggR ei = aggIdx (srcOf ei) (dstOf ei) := by
  funext h
  rfl

/-- The batch mean: the row kept by the kernel program, read along its row, is the plain program's vector. -/
theorem mu_eq : Cert.ReferenceIdeal.Hand.muR = Cert.KernelIdeal.Net.muRow := by
  funext h j
  rw [eq_ix1 j]
  exact (Cert.LibStatRow.divRow_apply (c := 64) (colSum h) (constant (F := Ideal) Cert.KernelIdeal.S_ .f32 0x47C35000#32)
    Cert.KernelIdeal.Gen.bcast_S64_S1x64_1 Cert.KernelIdeal.Gen.bcast_S_S1x64 Cert.ReferenceIdeal.Gen.bcast_S_S64 (j 0)).symm

/-- The batch variance likewise: the same quotient under the same scalar test, row against vector. -/
theorem var_eq : Cert.ReferenceIdeal.Hand.varR = Cert.KernelIdeal.Net.varRow := by
  funext h j
  rw [eq_ix1 j]
  exact (Cert.LibStatRow.selRow_apply (c := 64)
    (cmpf (F := Ideal) (φ := .f32) .ogt (nrm Cert.KernelIdeal.Net.k0) (constant (F := Ideal) Cert.KernelIdeal.S_ .f32 0x00000000#32))
    (sqDev h) (nrm Cert.KernelIdeal.Net.k0) (constant (F := Ideal) Cert.KernelIdeal.S_ .f32 0x7FC00000#32)
    Cert.KernelIdeal.Gen.bcast_S64_S1x64_1 Cert.KernelIdeal.Gen.bcast_S_S1x64 Cert.ReferenceIdeal.Gen.bcast_S_S64 (j 0)).symm

/-- Equal chains and equal arguments give equal networks. -/
theorem net_congr {n : ℕ} {agg agg' : Mat n 64 → Mat n 64} {mu mu' var var' : Mat n 64 → Row 64}
    {x x' : Mat n 64} {Wl0 Wl0' Wr0 Wr0' : Mat 64 64} {b0 b0' : Row 64} {Wl1 Wl1' Wr1 Wr1' : Mat 64 64} {b1 b1' : Row 64}
    {Wl2 Wl2' Wr2 Wr2' : Mat 64 40} {b2 b2' : Row 40} {g0 g0' be0 be0' g1 g1' be1 be1' : Row 64}
    (hagg : agg = agg') (hmu : mu = mu') (hvar : var = var') (hx : x = x') (h2 : Wl0 = Wl0') (h3 : Wr0 = Wr0')
    (h4 : b0 = b0') (h5 : Wl1 = Wl1') (h6 : Wr1 = Wr1') (h7 : b1 = b1') (h8 : Wl2 = Wl2') (h9 : Wr2 = Wr2')
    (h10 : b2 = b2') (h11 : g0 = g0') (h12 : be0 = be0') (h13 : g1 = g1') (h14 : be1 = be1') :
    net agg mu var x Wl0 Wr0 b0 Wl1 Wr1 b1 Wl2 Wr2 b2 g0 be0 g1 be1
      = net agg' mu' var' x' Wl0' Wr0' b0' Wl1' Wr1' b1' Wl2' Wr2' b2' g0' be0' g1' be1' := by
  subst hagg hmu hvar hx h2 h3 h4 h5 h6 h7 h8 h9 h10 h11 h12 h13 h14; rfl

/-- THE PLAIN PROGRAM'S RESULT, from a memory agreeing with the kernel program's on the arguments, is what the kernel
    program's result buffer holds. -/
theorem ref_value (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hag : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) :
    after (Cert.ReferenceIdeal.Hand.ops (F := Ideal)) (launchContents m' c) (Cert.ReferenceIdeal.main_v118 : DevRef Cert.ReferenceIdeal.τ Cert.ReferenceIdeal.sig) = Cert.KernelIdeal.Net.out m c := by
  obtain ⟨e0, e1, e2, e3, e4, e5, e6, e7, e8, e9, e10, e11, e12, e13, e14⟩ := hag
  refine (Cert.ReferenceIdeal.Hand.out_eq (launchContents m' c)).trans ?_
  refine net_congr ((agg_eq _).trans ?_) mu_eq var_eq e0 e2 e3 e4 e5 e6 e7 e8 e9 e10 e11 e12 e13 e14
  exact congrArg (fun e => aggIdx (srcOf e) (dstOf e)) e1

end Cert.Bridge

end
-- ==== Proof.lean ====
/-
  The certificate: a three-layer neighbourhood-mean network, as a tiled kernel program and as plain array code.

  Both programs compute, at the ideal values, the same function of their fifteen arguments (Proof/Spec.lean, `net`):
  three layers "neighbourhood mean times one weight matrix, plus the features times another, plus a bias", with a
  per-channel normalisation by the batch mean and variance and a rectifier after the first two. The kernel program
  runs each layer's matrix part and each normalisation as a region over twenty blocks of 5000 rows; a block of the
  output depends only on the same rows of the region's inputs, so the region's final array is the whole-array function
  (Proof/Region0 … Region4), and the host operations between the regions are, operation for operation, those of the
  plain program (Proof/KHost, Proof/KValue against Proof/RefValue, joined in Proof/Bridge); the statistics differ only
  in being kept as a 1 × 64 row in one program and as a length-64 vector in the other. No law of arithmetic beyond that
  re-indexing is used, and the inputs' finiteness is never needed.

  The three frames: the two kernel programs' are the generated frame certificates; the plain program's is its run with
  the result dropped. The idealization rewrote nothing, so there is nothing to preserve.
-/
import proofs.«106070_j38113539785173_1_alg».proof.Defs
import proofs.«106070_j38113539785173_1_alg».proof.Proof.Gen.Kernel
import proofs.«106070_j38113539785173_1_alg».proof.Proof.Gen.Kernel.Frame
import proofs.«106070_j38113539785173_1_alg».proof.Proof.Gen.KernelIdeal
import proofs.«106070_j38113539785173_1_alg».proof.Proof.Gen.KernelIdeal.Frame
import proofs.«106070_j38113539785173_1_alg».proof.Proof.Gen.ReferenceIdeal
import proofs.«106070_j38113539785173_1_alg».proof.Proof.Gen.Pre_finite_inputs
import proofs.«106070_j38113539785173_1_alg».proof.Proof.KRun
import proofs.«106070_j38113539785173_1_alg».proof.Proof.KValue
import proofs.«106070_j38113539785173_1_alg».proof.Proof.RefOps
import proofs.«106070_j38113539785173_1_alg».proof.Proof.RefValue
import proofs.«106070_j38113539785173_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The plain program's run leaves every argument array as launched: no operation of its line writes one. -/
theorem frame_ri : Cert.frame_ReferenceIdeal := fun m ρ _ =>
  (θ_run Cert.ReferenceIdeal.defs _ _).mono
    (fun _ h c => ⟨(h c Cert.ReferenceIdeal.main_arg0).trans (Cert.ReferenceIdeal.Hand.arg0_eq _),
      (h c Cert.ReferenceIdeal.main_arg1).trans (Cert.ReferenceIdeal.Hand.arg1_eq _),
      (h c Cert.ReferenceIdeal.main_arg2).trans (Cert.ReferenceIdeal.Hand.arg2_eq _),
      (h c Cert.ReferenceIdeal.main_arg3).trans (Cert.ReferenceIdeal.Hand.arg3_eq _),
      (h c Cert.ReferenceIdeal.main_arg4).trans (Cert.ReferenceIdeal.Hand.arg4_eq _),
      (h c Cert.ReferenceIdeal.main_arg5).trans (Cert.ReferenceIdeal.Hand.arg5_eq _),
      (h c Cert.ReferenceIdeal.main_arg6).trans (Cert.ReferenceIdeal.Hand.arg6_eq _),
      (h c Cert.ReferenceIdeal.main_arg7).trans (Cert.ReferenceIdeal.Hand.arg7_eq _),
      (h c Cert.ReferenceIdeal.main_arg8).trans (Cert.ReferenceIdeal.Hand.arg8_eq _),
      (h c Cert.ReferenceIdeal.main_arg9).trans (Cert.ReferenceIdeal.Hand.arg9_eq _),
      (h c Cert.ReferenceIdeal.main_arg10).trans (Cert.ReferenceIdeal.Hand.arg10_eq _),
      (h c Cert.ReferenceIdeal.main_arg11).trans (Cert.ReferenceIdeal.Hand.arg11_eq _),
      (h c Cert.ReferenceIdeal.main_arg12).trans (Cert.ReferenceIdeal.Hand.arg12_eq _),
      (h c Cert.ReferenceIdeal.main_arg13).trans (Cert.ReferenceIdeal.Hand.arg13_eq _),
      (h c Cert.ReferenceIdeal.main_arg14).trans (Cert.ReferenceIdeal.Hand.arg14_eq _)⟩)
    (Cert.ReferenceIdeal.Hand.run_main (F := Ideal) m ρ)

theorem preserves : Cert.preserves_Kernel_KernelIdeal := trivial

/-- Run from memories that agree on the arguments, both programs end with the result array at the network of the
    kernel program's launch contents: the kernel program by following its segments, the plain program by reading its
    line of operations and rewriting its own arguments to the kernel program's. -/
theorem algebraic : Cert.algebraic_KernelIdeal_ReferenceIdeal := by
  intro m ρ m' ρ' _ hagree
  refine ⟨fun c => Cert.KernelIdeal.Net.out m c, ?_, ?_⟩
  · exact (θ_run Cert.KernelIdeal.defs _ _).mono
      (fun _ h c => ⟨(h c).1.trans (Cert.KernelIdeal.Net.w14_v82 m ρ c), (h c).2⟩)
      (Cert.KernelIdeal.Gen.run_result (F := Ideal) m ρ)
  · exact (θ_run Cert.ReferenceIdeal.defs _ _).mono
      (fun _ h c => ⟨(h c Cert.ReferenceIdeal.main_v118).trans (Cert.Bridge.ref_value m m' c (hagree c)),
        (h c Cert.ReferenceIdeal.main_arg0).trans (Cert.ReferenceIdeal.Hand.arg0_eq _),
        (h c Cert.ReferenceIdeal.main_arg1).trans (Cert.ReferenceIdeal.Hand.arg1_eq _),
        (h c Cert.ReferenceIdeal.main_arg2).trans (Cert.ReferenceIdeal.Hand.arg2_eq _),
        (h c Cert.ReferenceIdeal.main_arg3).trans (Cert.ReferenceIdeal.Hand.arg3_eq _),
        (h c Cert.ReferenceIdeal.main_arg4).trans (Cert.ReferenceIdeal.Hand.arg4_eq _),
        (h c Cert.ReferenceIdeal.main_arg5).trans (Cert.ReferenceIdeal.Hand.arg5_eq _),
        (h c Cert.ReferenceIdeal.main_arg6).trans (Cert.ReferenceIdeal.Hand.arg6_eq _),
        (h c Cert.ReferenceIdeal.main_arg7).trans (Cert.ReferenceIdeal.Hand.arg7_eq _),
        (h c Cert.ReferenceIdeal.main_arg8).trans (Cert.ReferenceIdeal.Hand.arg8_eq _),
        (h c Cert.ReferenceIdeal.main_arg9).trans (Cert.ReferenceIdeal.Hand.arg9_eq _),
        (h c Cert.ReferenceIdeal.main_arg10).trans (Cert.ReferenceIdeal.Hand.arg10_eq _),
        (h c Cert.ReferenceIdeal.main_arg11).trans (Cert.ReferenceIdeal.Hand.arg11_eq _),
        (h c Cert.ReferenceIdeal.main_arg12).trans (Cert.ReferenceIdeal.Hand.arg12_eq _),
        (h c Cert.ReferenceIdeal.main_arg13).trans (Cert.ReferenceIdeal.Hand.arg13_eq _),
        (h c Cert.ReferenceIdeal.main_arg14).trans (Cert.ReferenceIdeal.Hand.arg14_eq _)⟩)
      (Cert.ReferenceIdeal.Hand.run_main (F := Ideal) m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
